-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x4096 : Shape := ⟨3, ![4, 4096, 4096]⟩
abbrev S4 : Shape := ⟨1, ![4]⟩
abbrev S4096x4096 : Shape := ⟨2, ![4096, 4096]⟩
abbrev S4096 : Shape := ⟨1, ![4096]⟩
abbrev S32x4096 : Shape := ⟨2, ![32, 4096]⟩
abbrev S4096x32 : Shape := ⟨2, ![4096, 32]⟩
abbrev S_ : Shape := ⟨0, ![]⟩

class Facts : Prop where
  bcast_S_S4x4096x4096 : S_.BroadcastsInDim S4x4096x4096 (![] : Fin 0 → Fin S4x4096x4096.rank)
  reducesTo_S4x4096x4096_S_d0_1_2 : S4x4096x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_
  bcast_S_S32x4096 : S_.BroadcastsInDim S32x4096 (![] : Fin 0 → Fin S32x4096.rank)
  reducesTo_S32x4096_S_d0_1 : S32x4096.ReducesTo [0, 1] S_
  bcast_S_S4096x32 : S_.BroadcastsInDim S4096x32 (![] : Fin 0 → Fin S4096x32.rank)
  reducesTo_S4096x32_S_d0_1 : S4096x32.ReducesTo [0, 1] S_

variable [Facts]

def fn_part1 {F : FTy → Type} [FloatOps F] (main_arg5 : FVec F S4096x32 .f32) (main_v13 : IVec S_ 1) (main_v16 : IVec S32x4096 1) : IVec S_ 1 :=
  let main_c_5 : IVec S_ 1 := constantI S_ 1 1#1
  let main_v17 : IVec S_ 1 := (fun x v => Host.reduce IntOp.andi x v reducesTo_S32x4096_S_d0_1 h_S_) main_v16 main_c_5
  let main_v18 : IVec S_ 1 := andi main_v13 main_v17
  let main_v19 : FVec F S4096x32 .f32 := Host.absf main_arg5
  let main_cst_6 : FVec F S_ .f32 := constant S_ .f32 0x7F800000#32
  let main_v20 : FVec F S4096x32 .f32 := broadcastInDim S4096x32 ![] bcast_S_S4096x32 main_cst_6
  let main_v21 : IVec S4096x32 1 := cmpf .olt main_v19 main_v20
  let main_c_7 : IVec S_ 1 := constantI S_ 1 1#1
  let main_v22 : IVec S_ 1 := (fun x v => Host.reduce IntOp.andi x v reducesTo_S4096x32_S_d0_1 h_S_) main_v21 main_c_7
  let main_v23 : IVec S_ 1 := andi main_v18 main_v22
  main_v23

def fn {F : FTy → Type} [FloatOps F] (main_arg0 : FVec F S4x4096x4096 .f32) (main_arg1 : IVec S4 32) (main_arg2 : FVec F S4096x4096 .f32) (main_arg3 : FVec F S4096 .f32) (main_arg4 : FVec F S32x4096 .f32) (main_arg5 : FVec F S4096x32 .f32) : IVec S_ 1 :=
  let main_v0 : FVec F S4x4096x4096 .f32 := Host.absf main_arg0
  let main_cst : FVec F S_ .f32 := constant S_ .f32 0x7F800000#32
  let main_v1 : FVec F S4x4096x4096 .f32 := broadcastInDim S4x4096x4096 ![] bcast_S_S4x4096x4096 main_cst
  let main_v2 : IVec S4x4096x4096 1 := cmpf .olt main_v0 main_v1
  let main_c : IVec S_ 1 := constantI S_ 1 1#1
  let main_v3 : IVec S_ 1 := (fun x v => Host.reduce IntOp.andi x v reducesTo_S4x4096x4096_S_d0_1_2 h_S_) main_v2 main_c
  let main_v4 : FVec F S4096x4096 .f32 := Host.absf main_arg2
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg3
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S32x4096 .f32 := Host.absf main_arg4
  let main_cst_4 : FVec F S_ .f32 := constant S_ .f32 0x7F800000#32
  let main_v15 : FVec F S32x4096 .f32 := broadcastInDim S32x4096 ![] bcast_S_S32x4096 main_cst_4
  let main_v16 : IVec S32x4096 1 := cmpf .olt main_v14 main_v15
  fn_part1 (F := F) main_arg5 main_v13 main_v16
-- ==== Kernel.lean ====
abbrev S4x4096x4096 : Shape := ⟨3, ![4, 4096, 4096]⟩
abbrev S4 : Shape := ⟨1, ![4]⟩
abbrev S4096x4096 : Shape := ⟨2, ![4096, 4096]⟩
abbrev S4096 : Shape := ⟨1, ![4096]⟩
abbrev S32x4096 : Shape := ⟨2, ![32, 4096]⟩
abbrev S4096x32 : Shape := ⟨2, ![4096, 32]⟩
abbrev S_ : Shape := ⟨0, ![]⟩
abbrev S1x4096 : Shape := ⟨2, ![1, 4096]⟩
abbrev S4x1 : Shape := ⟨2, ![4, 1]⟩
abbrev S4x4096 : Shape := ⟨2, ![4, 4096]⟩
abbrev S16384x1 : Shape := ⟨2, ![16384, 1]⟩
abbrev S16384x4096 : Shape := ⟨2, ![16384, 4096]⟩
abbrev S128x4096 : Shape := ⟨2, ![128, 4096]⟩
abbrev S4096x128 : Shape := ⟨2, ![4096, 128]⟩
abbrev S16384x128 : Shape := ⟨2, ![16384, 128]⟩
abbrev S1024x1024 : Shape := ⟨2, ![1024, 1024]⟩
abbrev S128x1024 : Shape := ⟨2, ![128, 1024]⟩
abbrev S1024x1 : Shape := ⟨2, ![1024, 1]⟩
abbrev S1024x128 : Shape := ⟨2, ![1024, 128]⟩
abbrev S1x1024 : Shape := ⟨2, ![1, 1024]⟩

abbrev nBuf : Space → Nat
  | .hbm => 39
  | .vmem => 21
  | .smem => 0
  | _ => 0

abbrev bufTy : (tb : Table) → Fin (tcTables nBuf tb) → BufTy
  | .hbm, ⟨0, _⟩ => ⟨S4x4096x4096, .f32⟩
  | .hbm, ⟨1, _⟩ => ⟨S4, .i32⟩
  | .hbm, ⟨2, _⟩ => ⟨S4096x4096, .f32⟩
  | .hbm, ⟨3, _⟩ => ⟨S4096, .f32⟩
  | .hbm, ⟨4, _⟩ => ⟨S32x4096, .f32⟩
  | .hbm, ⟨5, _⟩ => ⟨S4096x32, .f32⟩
  | .hbm, ⟨6, _⟩ => ⟨S_, .i32⟩
  | .hbm, ⟨7, _⟩ => ⟨S4, .i32⟩
  | .hbm, ⟨8, _⟩ => ⟨S4, .i32⟩
  | .hbm, ⟨9, _⟩ => ⟨S4096, .i32⟩
  | .hbm, ⟨10, _⟩ => ⟨S1x4096, .i32⟩
  | .hbm, ⟨11, _⟩ => ⟨S_, .i32⟩
  | .hbm, ⟨12, _⟩ => ⟨S4, .i32⟩
  | .hbm, ⟨13, _⟩ => ⟨S4, .i32⟩
  | .hbm, ⟨14, _⟩ => ⟨S4x1, .i32⟩
  | .hbm, ⟨15, _⟩ => ⟨S4x4096, .i32⟩
  | .hbm, ⟨16, _⟩ => ⟨S4x4096, .i32⟩
  | .hbm, ⟨17, _⟩ => ⟨S4x4096, .i1⟩
  | .hbm, ⟨18, _⟩ => ⟨S_, .f32⟩
  | .hbm, ⟨19, _⟩ => ⟨S_, .f32⟩
  | .hbm, ⟨20, _⟩ => ⟨S4x4096, .f32⟩
  | .hbm, ⟨21, _⟩ => ⟨S4x4096, .f32⟩
  | .hbm, ⟨22, _⟩ => ⟨S4x4096, .f32⟩
  | .hbm, ⟨23, _⟩ => ⟨S16384x1, .f32⟩
  | .hbm, ⟨24, _⟩ => ⟨S16384x4096, .f32⟩
  | .hbm, ⟨25, _⟩ => ⟨S16384x4096, .bf16⟩
  | .hbm, ⟨26, _⟩ => ⟨S4096x4096, .bf16⟩
  | .hbm, ⟨27, _⟩ => ⟨S_, .i32⟩
  | .hbm, ⟨28, _⟩ => ⟨S_, .f32⟩
  | .hbm, ⟨29, _⟩ => ⟨S128x4096, .f32⟩
  | .hbm, ⟨30, _⟩ => ⟨S128x4096, .bf16⟩
  | .hbm, ⟨31, _⟩ => ⟨S_, .i32⟩
  | .hbm, ⟨32, _⟩ => ⟨S_, .f32⟩
  | .hbm, ⟨33, _⟩ => ⟨S4096x128, .f32⟩
  | .hbm, ⟨34, _⟩ => ⟨S4096x128, .bf16⟩
  | .hbm, ⟨35, _⟩ => ⟨S1x4096, .f32⟩
  | .hbm, ⟨36, _⟩ => ⟨S16384x128, .f32⟩
  | .hbm, ⟨37, _⟩ => ⟨S16384x4096, .f32⟩
  | .hbm, ⟨38, _⟩ => ⟨S4x4096x4096, .f32⟩
  | .local _ .vmem, ⟨0, _⟩ => ⟨S1024x1024, .bf16⟩
  | .local _ .vmem, ⟨1, _⟩ => ⟨S1024x1024, .bf16⟩
  | .local _ .vmem, ⟨2, _⟩ => ⟨S128x1024, .bf16⟩
  | .local _ .vmem, ⟨3, _⟩ => ⟨S128x1024, .bf16⟩
  | .local _ .vmem, ⟨4, _⟩ => ⟨S1024x1, .f32⟩
  | .local _ .vmem, ⟨5, _⟩ => ⟨S1024x1, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x128, .f32⟩
  | .local _ .vmem, ⟨14, _⟩ => ⟨S1024x128, .f32⟩
  | .local _ .vmem, ⟨15, _⟩ => ⟨S1024x128, .bf16⟩
  | .local _ .vmem, ⟨16, _⟩ => ⟨S1024x128, .bf16⟩
  | .local _ .vmem, ⟨17, _⟩ => ⟨S1x1024, .f32⟩
  | .local _ .vmem, ⟨18, _⟩ => ⟨S1x1024, .f32⟩
  | .local _ .vmem, ⟨19, _⟩ => ⟨S1024x1024, .f32⟩
  | .local _ .vmem, ⟨20, _⟩ => ⟨S1024x1024, .f32⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_cst_1 : Ref sig .tc := ⟨.hbm, 19, rfl⟩
abbrev main_call0_v0 : Ref sig .tc := ⟨.hbm, 20, rfl⟩
abbrev main_call0_v1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_c_2 : Ref sig .tc := ⟨.hbm, 27, rfl⟩
abbrev main_call1_v0 : Ref sig .tc := ⟨.hbm, 28, rfl⟩
abbrev main_v15 : Ref sig .tc := ⟨.hbm, 29, rfl⟩
abbrev main_v16 : Ref sig .tc := ⟨.hbm, 30, rfl⟩
abbrev main_c_3 : Ref sig .tc := ⟨.hbm, 31, rfl⟩
abbrev main_call2_v0 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_stg4_0 : Ref sig .tc := ⟨.vmem, 17, rfl⟩
abbrev cc1_stg4_1 : Ref sig .tc := ⟨.vmem, 18, rfl⟩
abbrev cc1_stg5_0 : Ref sig .tc := ⟨.vmem, 19, rfl⟩
abbrev cc1_stg5_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem4_1 : DmaSem sig := 17
abbrev cc1_sem5_0 : DmaSem sig := 18
abbrev cc1_sem5_1 : DmaSem sig := 19

abbrev nD : Nat := 1
abbrev τ : Topo := Topo.v7x

variable {F : FTy → Type} [FloatOps F]

abbrev grid0 : Pipeline.Grid := ⟨2, ![16, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨3, ![16, 4, 4], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_5 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, false]

abbrev stage1_3 : Fin 2 → Memref sig .tc .vmem S1024x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true, false]

abbrev stage1_4 : Fin 2 → Memref sig .tc .vmem S1x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true, false]

abbrev stage1_5 : Fin 2 → Memref sig .tc .vmem S1024x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true, false]

class Facts₀ : Prop where
  bcast_S_S4 : S_.BroadcastsInDim S4 (![] : Fin 0 → Fin S4.rank)
  bcast_S4096_S1x4096_1 : S4096.BroadcastsInDim S1x4096 (![1] : Fin 1 → Fin S1x4096.rank)
  bcast_S4_S4x1_0 : S4.BroadcastsInDim S4x1 (![0] : Fin 1 → Fin S4x1.rank)
  bcast_S1x4096_S4x4096_0_1 : S1x4096.BroadcastsInDim S4x4096 (![0, 1] : Fin 2 → Fin S4x4096.rank)
  bcast_S4x1_S4x4096_0_1 : S4x1.BroadcastsInDim S4x4096 (![0, 1] : Fin 2 → Fin S4x4096.rank)
  bcast_S_S4x4096 : S_.BroadcastsInDim S4x4096 (![] : Fin 0 → Fin S4x4096.rank)
  shapeCasts_S4x4096_S16384x1 : S4x4096.ShapeCasts S16384x1
  shapeCasts_S4x4096x4096_S16384x4096 : S4x4096x4096.ShapeCasts S16384x4096
  bitsLt_bf16_f32 : FTy.bits .bf16 < FTy.bits .f32
  pads_S32x4096_S128x4096_0960_000 : S32x4096.Pads (![0, 0] : Fin 2 → Nat) ![96, 0] ![0, 0] S128x4096
  h_S_ : 0 < S_.numel
  pads_S4096x32_S4096x128_000_0960 : S4096x32.Pads (![0, 0] : Fin 2 → Nat) ![0, 96] ![0, 0] S4096x128
  shapeCasts_S4096_S1x4096 : S4096.ShapeCasts S1x4096
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S128x1024_S128x1024_0_0 : ∀ a, (![0, 0] : Fin 2 → Nat) a + S128x1024.size a ≤ S128x1024.size a
  h_S128x1024 : 0 < S128x1024.numel
  shapeCasts_S128x1024_S128x1024 : S128x1024.ShapeCasts S128x1024
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x128 : S1024x1.Broadcasts S1024x128
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  shapeCasts_S16384x4096_S4x4096x4096 : S16384x4096.ShapeCasts S4x4096x4096
  dot_S1024x1024_S128x1024_S1024x128_1_1_0_0_n_n_wf : DotDims.WF S1024x1024 S128x1024 S1024x128 [1] [1] [0] [0] [] []
  dot_S1024x1024_S1024x1024_S1024x1024_1_1_0_0_n_n_wf : DotDims.WF S1024x1024 S1024x1024 S1024x1024 [1] [1] [0] [0] [] []
  dot_S1024x128_S1024x128_S1024x1024_1_1_0_0_n_n_wf : DotDims.WF S1024x128 S1024x128 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S16384x4096.size a
  hwx0_0 : ∀ i : grid0.Coords, EltTy.bits .bf16 = 32 ∨ (Rect.block (s := S16384x4096) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x1024.size a ≤ S128x4096.size a
  hwx0_1 : ∀ i : grid0.Coords, EltTy.bits .bf16 = 32 ∨ (Rect.block (s := S128x4096) S128x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S16384x1.size a
  hwx0_2 : ∀ i : grid0.Coords, EltTy.bits .f32 = 32 ∨ (Rect.block (s := S16384x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x128.size a ≤ S16384x128.size a
  hwx0_3 : ∀ i : grid0.Coords, EltTy.bits .f32 = 32 ∨ (Rect.block (s := S16384x128) S1024x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S16384x4096.size a
  hwx1_0 : ∀ i : grid1.Coords, EltTy.bits .bf16 = 32 ∨ (Rect.block (s := S16384x4096) S1024x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S4096x4096.size a
  hwx1_1 : ∀ i : grid1.Coords, EltTy.bits .bf16 = 32 ∨ (Rect.block (s := S4096x4096) S1024x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x128.size a ≤ S16384x128.size a
  hwx1_2 : ∀ i : grid1.Coords, EltTy.bits .f32 = 32 ∨ (Rect.block (s := S16384x128) S1024x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x128.size a ≤ S4096x128.size a
  hwx1_3 : ∀ i : grid1.Coords, EltTy.bits .bf16 = 32 ∨ (Rect.block (s := S4096x128) S1024x128.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1024.size a ≤ S1x4096.size a
  hwx1_4 : ∀ i : grid1.Coords, EltTy.bits .f32 = 32 ∨ (Rect.block (s := S1x4096) S1x1024.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1024x1024.size a ≤ S16384x4096.size a
  hwx1_5 : ∀ i : grid1.Coords, EltTy.bits .f32 = 32 ∨ (Rect.block (s := S16384x4096) S1024x1024.size (cc1_transform_5 i) (hinb1_5 i)).WholeWords (EltTy.packing .f32)

variable [Facts₀]

def dot_S1024x1024_S128x1024_S1024x128_1_1_0_0_n_n : DotDims S1024x1024 S128x1024 S1024x128 where
  lhsContracting := [1]
  rhsContracting := [1]
  lhsNonContracting := [0]
  rhsNonContracting := [0]
  lhsBatch := []
  rhsBatch := []
  wf := dot_S1024x1024_S128x1024_S1024x128_1_1_0_0_n_n_wf
def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf
def dot_S1024x128_S1024x128_S1024x1024_1_1_0_0_n_n : DotDims S1024x128 S1024x128 S1024x1024 where
  lhsContracting := [1]
  rhsContracting := [1]
  lhsNonContracting := [0]
  rhsNonContracting := [0]
  lhsBatch := []
  rhsBatch := []
  wf := dot_S1024x128_S1024x128_S1024x1024_1_1_0_0_n_n_wf

abbrev win0_0 : Pipeline.Window sig grid0 :=
  Pipeline.Window.ofSpec (Memref.whole main_v13) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S128x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v20) S1024x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v13) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v20) S1024x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v18) S1024x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v19) S1x1024.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v21) S1024x1024.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S4x4096x4096 : Shape := ⟨3, ![4, 4096, 4096]⟩
abbrev S4 : Shape := ⟨1, ![4]⟩
abbrev S4096x4096 : Shape := ⟨2, ![4096, 4096]⟩
abbrev S4096 : Shape := ⟨1, ![4096]⟩
abbrev S32x4096 : Shape := ⟨2, ![32, 4096]⟩
abbrev S4096x32 : Shape := ⟨2, ![4096, 32]⟩
abbrev S1x1x4096 : Shape := ⟨3, ![1, 1, 4096]⟩
abbrev S4x4096x32 : Shape := ⟨3, ![4, 4096, 32]⟩
abbrev S_ : Shape := ⟨0, ![]⟩
abbrev S1x4096 : Shape := ⟨2, ![1, 4096]⟩
abbrev S4x1 : Shape := ⟨2, ![4, 1]⟩
abbrev S4x4096 : Shape := ⟨2, ![4, 4096]⟩
abbrev S4x4096x1 : Shape := ⟨3, ![4, 4096, 1]⟩

abbrev nBuf : Space → Nat
  | .hbm => 33
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S4, .i32⟩
  | .hbm, ⟨2, _⟩ => ⟨S4096x4096, .f32⟩
  | .hbm, ⟨3, _⟩ => ⟨S4096, .f32⟩
  | .hbm, ⟨4, _⟩ => ⟨S32x4096, .f32⟩
  | .hbm, ⟨5, _⟩ => ⟨S4096x32, .f32⟩
  | .hbm, ⟨6, _⟩ => ⟨S4x4096x4096, .f32⟩
  | .hbm, ⟨7, _⟩ => ⟨S1x1x4096, .f32⟩
  | .hbm, ⟨8, _⟩ => ⟨S4x4096x4096, .f32⟩
  | .hbm, ⟨9, _⟩ => ⟨S4x4096x4096, .f32⟩
  | .hbm, ⟨10, _⟩ => ⟨S4x4096x32, .f32⟩
  | .hbm, ⟨11, _⟩ => ⟨S4x4096x4096, .f32⟩
  | .hbm, ⟨12, _⟩ => ⟨S_, .f32⟩
  | .hbm, ⟨13, _⟩ => ⟨S4x4096x4096, .f32⟩
  | .hbm, ⟨14, _⟩ => ⟨S4x4096x4096, .f32⟩
  | .hbm, ⟨15, _⟩ => ⟨S_, .i32⟩
  | .hbm, ⟨16, _⟩ => ⟨S4, .i32⟩
  | .hbm, ⟨17, _⟩ => ⟨S4, .i32⟩
  | .hbm, ⟨18, _⟩ => ⟨S4096, .i32⟩
  | .hbm, ⟨19, _⟩ => ⟨S1x4096, .i32⟩
  | .hbm, ⟨20, _⟩ => ⟨S_, .i32⟩
  | .hbm, ⟨21, _⟩ => ⟨S4, .i32⟩
  | .hbm, ⟨22, _⟩ => ⟨S4, .i32⟩
  | .hbm, ⟨23, _⟩ => ⟨S4x1, .i32⟩
  | .hbm, ⟨24, _⟩ => ⟨S4x4096, .i32⟩
  | .hbm, ⟨25, _⟩ => ⟨S4x4096, .i32⟩
  | .hbm, ⟨26, _⟩ => ⟨S4x4096, .i1⟩
  | .hbm, ⟨27, _⟩ => ⟨S4x4096x1, .i1⟩
  | .hbm, ⟨28, _⟩ => ⟨S_, .f32⟩
  | .hbm, ⟨29, _⟩ => ⟨S4x4096x4096, .i1⟩
  | .hbm, ⟨30, _⟩ => ⟨S4x4096x4096, .f32⟩
  | .hbm, ⟨31, _⟩ => ⟨S4x4096x4096, .f32⟩
  | .hbm, ⟨32, _⟩ => ⟨S4x4096x4096, .f32⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_c : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c_0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_1 : Ref sig .tc := ⟨.hbm, 28, rfl⟩
abbrev main_call0_v0 : Ref sig .tc := ⟨.hbm, 29, rfl⟩
abbrev main_call0_v1 : Ref sig .tc := ⟨.hbm, 30, rfl⟩
abbrev main_v19 : Ref sig .tc := ⟨.hbm, 31, rfl⟩
abbrev main_v20 : Ref sig .tc := ⟨.hbm, 32, rfl⟩

abbrev nD : Nat := 1
abbrev τ : Topo := Topo.v7x

variable {F : FTy → Type} [FloatOps F]

class Facts₀ : Prop where
  bcast_S4096_S1x1x4096_2 : S4096.BroadcastsInDim S1x1x4096 (![2] : Fin 1 → Fin S1x1x4096.rank)
  bcast_S1x1x4096_S4x4096x4096_0_1_2 : S1x1x4096.BroadcastsInDim S4x4096x4096 (![0, 1, 2] : Fin 3 → Fin S4x4096x4096.rank)
  bcast_S_S4x4096x4096 : S_.BroadcastsInDim S4x4096x4096 (![] : Fin 0 → Fin S4x4096x4096.rank)
  bcast_S_S4 : S_.BroadcastsInDim S4 (![] : Fin 0 → Fin S4.rank)
  bcast_S4096_S1x4096_1 : S4096.BroadcastsInDim S1x4096 (![1] : Fin 1 → Fin S1x4096.rank)
  bcast_S4_S4x1_0 : S4.BroadcastsInDim S4x1 (![0] : Fin 1 → Fin S4x1.rank)
  bcast_S1x4096_S4x4096_0_1 : S1x4096.BroadcastsInDim S4x4096 (![0, 1] : Fin 2 → Fin S4x4096.rank)
  bcast_S4x1_S4x4096_0_1 : S4x1.BroadcastsInDim S4x4096 (![0, 1] : Fin 2 → Fin S4x4096.rank)
  bcast_S4x4096_S4x4096x1_0_1 : S4x4096.BroadcastsInDim S4x4096x1 (![0, 1] : Fin 2 → Fin S4x4096x1.rank)
  bcast_S4x4096x1_S4x4096x4096_0_1_2 : S4x4096x1.BroadcastsInDim S4x4096x4096 (![0, 1, 2] : Fin 3 → Fin S4x4096x4096.rank)
  dot_S4x4096x4096_S4096x4096_S4x4096x4096_2_1_01_0_n_n_wf : DotDims.WF S4x4096x4096 S4096x4096 S4x4096x4096 [2] [1] [0, 1] [0] [] []
  dot_S4x4096x4096_S32x4096_S4x4096x32_2_1_01_0_n_n_wf : DotDims.WF S4x4096x4096 S32x4096 S4x4096x32 [2] [1] [0, 1] [0] [] []
  dot_S4x4096x32_S4096x32_S4x4096x4096_2_1_01_0_n_n_wf : DotDims.WF S4x4096x32 S4096x32 S4x4096x4096 [2] [1] [0, 1] [0] [] []

variable [Facts₀]

def dot_S4x4096x4096_S4096x4096_S4x4096x4096_2_1_01_0_n_n : DotDims S4x4096x4096 S4096x4096 S4x4096x4096 where
  lhsContracting := [2]
  rhsContracting := [1]
  lhsNonContracting := [0, 1]
  rhsNonContracting := [0]
  lhsBatch := []
  rhsBatch := []
  wf := dot_S4x4096x4096_S4096x4096_S4x4096x4096_2_1_01_0_n_n_wf
def dot_S4x4096x4096_S32x4096_S4x4096x32_2_1_01_0_n_n : DotDims S4x4096x4096 S32x4096 S4x4096x32 where
  lhsContracting := [2]
  rhsContracting := [1]
  lhsNonContracting := [0, 1]
  rhsNonContracting := [0]
  lhsBatch := []
  rhsBatch := []
  wf := dot_S4x4096x4096_S32x4096_S4x4096x32_2_1_01_0_n_n_wf
def dot_S4x4096x32_S4096x32_S4x4096x4096_2_1_01_0_n_n : DotDims S4x4096x32 S4096x32 S4x4096x4096 where
  lhsContracting := [2]
  rhsContracting := [1]
  lhsNonContracting := [0, 1]
  rhsNonContracting := [0]
  lhsBatch := []
  rhsBatch := []
  wf := dot_S4x4096x32_S4096x32_S4x4096x4096_2_1_01_0_n_n_wf

class Facts : Prop extends Facts₀ where

variable [Facts]
-- ==== Proof.R0Runs.lean ====
/-
  The first pallas_call, the low-rank pre-pass: over a 16 x 4 grid of points t = 4 * mi + k it keeps, in a
  scratch block of 1024 x 128 numbers carried from point to point, the running sum over k of the products
  x[mi-th row block, k-th column block] * A_pad[:, k-th column block]^T.  The scratch is cleared at k = 0,
  added to at every k, and at k = 3 its rows are scaled by the mask column and stored as the output block.
  This module states the body's run in each of the three control cases (k = 0, k = 1 or 2, k = 3) on
  arbitrary whole staging memrefs: which pieces each case leaves in the output block and in the scratch.
-/
import proofs.«160741_j498216206382_2_alg».proof.Proof.Gen.KernelIdeal.Launch
import proofs.«160741_j498216206382_2_alg».proof.Proof.Gen.KernelIdeal.Skeleton
import proofs.«160741_j498216206382_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions of the body, decided over the grid -/

/-- The first branch (clear the scratch): the point's second coordinate is zero. -/
abbrev cond0_0 (i : grid0.Coords) : Prop :=
  (Scalar.cmpi .ne (Scalar.extui (Scalar.cmpi .eq (BitVec.ofNat 32 (i 1).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)

/-- The second branch (scale and store the output block): the point's second coordinate is three. -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Away from k = 3 the output block is neither stored into nor written back. -/
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
theorem liveAt0_3 : ∀ t : Fin cfg0.N, cond0_1 (grid0.coords t) → cfg0.idle 3 (grid0.coords t) = false := by decide +kernel

/-! ## The memrefs the body is called with -/

abbrev VO0_3 : View sig .tc .vmem S1024x128 .f32 := (Memref.whole cc0_stg3_0 : Memref sig .tc .vmem S1024x128 .f32).view
abbrev ms0_0 (t : Fin cfg0.N) : Memref sig .tc .vmem S1024x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x128 .f32 := win0_3.stage (cfg0.slots t 3)
abbrev hs0_3 (t : Fin cfg0.N) : (ms0_3 t).IsWhole := hstage0_3 ((cfg0.slots t 3).cast nbuf0_3)
/-- The scratch block, a whole buffer of the kernel's own. -/
abbrev scM0_0 : Memref sig .tc .vmem S1024x128 .f32 := Memref.whole cc0_scratch0
abbrev VS0_0 : View sig .tc .vmem S1024x128 .f32 := scM0_0.view

/-- The scoped buffers this call neither stages nor uses as scratch (the other call's staging buffers), each at
    some contents: they ride along untouched. -/
abbrev others0 (c : Dev nD) : sProp 𝕄 :=
  Pipeline.scopedRestBut (Ix := Unit) (Name := ℕ) (U := UR sig nD τ) (Lvl := ℕ) (Val := Elt F) spec0 c [cc0_scratch0]

/-- The class invariant with the scratch block split off, owned at some contents. -/
theorem PhiA0_eq (c : Dev nD) :
    (Pipeline.ΦA spec0 c : sProp 𝕄)
      = iprop(iprop((∃ d, owns (c : Thread nD τ) scM0_0 fullShare d) ∗ others0 c) ∗ (∃ r, prngReg c r)) := by
  unfold Pipeline.ΦA
  rw [Pipeline.scopedRest_split_of_list spec0 c [cc0_scratch0] (by decide) (by decide)]
  simp only [bigSepL, scM0_0, owns_whole, others0]
  rfl

/-! ## Case A (k = 0): the scratch cleared, then the first product added; the output block untouched -/

set_option maxHeartbeats 1000000 in
noncomputable def kernelRun0_A (c : Dev nD) (i : grid0.Coords) (arg2 : Memref sig .tc .vmem S1024x1024 .bf16) (harg2 : arg2.IsWhole) (arg3 : Memref sig .tc .vmem S128x1024 .bf16) (harg3 : arg3.IsWhole) (arg4 : Memref sig .tc .vmem S1024x1 .f32) (harg4 : arg4.IsWhole) (arg5 : Memref sig .tc .vmem S1024x128 .f32) (harg5 : arg5.IsWhole) (arg6 : Memref sig .tc .vmem S1024x128 .f32) (harg6 : arg6.IsWhole) (hc0 : cond0_0 i) (hc1 : ¬cond0_1 i)
    (x0 : Vec F S1024x1024 .bf16) (x1 : Vec F S128x1024 .bf16) (x2 : Vec F S1024x1 .f32) :
    Σ' (L3 : List (View.Piece (Elt F) S1024x128 .f32)), { LS0 : List (View.Piece (Elt F) S1024x128 .f32) //
      ∀ (xi3 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__h_prepass_kernel i arg2 harg2 arg3 harg3 arg4 harg4 arg5 harg5 arg6 harg6) K } := by
  refine ⟨[], ?_, fun xi3 E K => ?run⟩
  case run =>
    simp only [cc0__h_prepass_kernel_eq_skeleton]; unfold cc0__h_prepass_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

/-! ## Case B (k = 1, 2): one more product added to the scratch; the output block untouched -/

set_option maxHeartbeats 1000000 in
noncomputable def kernelRun0_B (c : Dev nD) (i : grid0.Coords) (arg2 : Memref sig .tc .vmem S1024x1024 .bf16) (harg2 : arg2.IsWhole) (arg3 : Memref sig .tc .vmem S128x1024 .bf16) (harg3 : arg3.IsWhole) (arg4 : Memref sig .tc .vmem S1024x1 .f32) (harg4 : arg4.IsWhole) (arg5 : Memref sig .tc .vmem S1024x128 .f32) (harg5 : arg5.IsWhole) (arg6 : Memref sig .tc .vmem S1024x128 .f32) (harg6 : arg6.IsWhole) (hc0 : ¬cond0_0 i) (hc1 : ¬cond0_1 i)
    (x0 : Vec F S1024x1024 .bf16) (x1 : Vec F S128x1024 .bf16) (x2 : Vec F S1024x1 .f32) (xs0 : Vec F S1024x128 .f32) :
    Σ' (L3 : List (View.Piece (Elt F) S1024x128 .f32)), { LS0 : List (View.Piece (Elt F) S1024x128 .f32) //
      ∀ (xi3 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__h_prepass_kernel i arg2 harg2 arg3 harg3 arg4 harg4 arg5 harg5 arg6 harg6) K } := by
  refine ⟨[], ?_, fun xi3 E K => ?run⟩
  case run =>
    simp only [cc0__h_prepass_kernel_eq_skeleton]; unfold cc0__h_prepass_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

/-! ## Case C (k = 3): the last product added, then the scratch scaled row by row into the output block -/

set_option maxHeartbeats 1000000 in
noncomputable def kernelRun0_C (c : Dev nD) (i : grid0.Coords) (arg2 : Memref sig .tc .vmem S1024x1024 .bf16) (harg2 : arg2.IsWhole) (arg3 : Memref sig .tc .vmem S128x1024 .bf16) (harg3 : arg3.IsWhole) (arg4 : Memref sig .tc .vmem S1024x1 .f32) (harg4 : arg4.IsWhole) (arg5 : Memref sig .tc .vmem S1024x128 .f32) (harg5 : arg5.IsWhole) (arg6 : Memref sig .tc .vmem S1024x128 .f32) (harg6 : arg6.IsWhole) (hc0 : ¬cond0_0 i) (hc1 : cond0_1 i)
    (x0 : Vec F S1024x1024 .bf16) (x1 : Vec F S128x1024 .bf16) (x2 : Vec F S1024x1 .f32) (xs0 : Vec F S1024x128 .f32) :
    Σ' (L3 : List (View.Piece (Elt F) S1024x128 .f32)), { LS0 : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc0__h_prepass_kernel i arg2 harg2 arg3 harg3 arg4 harg4 arg5 harg5 arg6 harg6) K } := by
  refine ⟨?_, ?_, fun E K => ?run⟩
  case run =>
    simp only [cc0__h_prepass_kernel_eq_skeleton]; unfold cc0__h_prepass_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.R0

end
-- ==== Proof.R0.lean ====
/-
  The low-rank pre-pass as one pipeline region, at any contents V of the buffers when the region is entered.
  What the output block and the scratch block hold after each grid point is defined by recursion on the point:
  at k = 0 the scratch restarts from the cleared block, at every k the product of the point's x block and
  A_pad block is added, and at k = 3 the scaled scratch is the output block.  The region's invariant carries
  the scratch at exactly these contents from point to point; the body's run in each control case then
  discharges the pipeline's obligation at every point.
-/
import proofs.«160741_j498216206382_2_alg».proof.Proof.Gen.KernelIdeal.Launch
import proofs.«160741_j498216206382_2_alg».proof.Proof.Gen.KernelIdeal.Skeleton
import proofs.«160741_j498216206382_2_alg».proof.Proof.Gen.KernelIdeal.Points
import proofs.«160741_j498216206382_2_alg».proof.Proof.R0Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## What each case leaves in the output block and in the scratch -/

/-- Cases A and B store nothing into the output block: a placeholder nothing consults. -/
def out0_A_3 (c : Dev nD) (i : grid0.Coords) (arg2 : Memref sig .tc .vmem S1024x1024 .bf16) (harg2 : arg2.IsWhole) (arg3 : Memref sig .tc .vmem S128x1024 .bf16) (harg3 : arg3.IsWhole) (arg4 : Memref sig .tc .vmem S1024x1 .f32) (harg4 : arg4.IsWhole) (arg5 : Memref sig .tc .vmem S1024x128 .f32) (harg5 : arg5.IsWhole) (arg6 : Memref sig .tc .vmem S1024x128 .f32) (harg6 : arg6.IsWhole) (hc0 : cond0_0 i) (hc1 : ¬cond0_1 i)
    (x0 : Vec F S1024x1024 .bf16) (x1 : Vec F S128x1024 .bf16) (x2 : Vec F S1024x1 .f32) : Vec F S1024x128 .f32 :=
  VO0_3.read (Elt F) (VO0_3.writes (Elt F) VO0_3.junk (kernelRun0_A c i arg2 harg2 arg3 harg3 arg4 harg4 arg5 harg5 arg6 harg6 hc0 hc1 x0 x1 x2).1)
theorem scover0_A_0 (c : Dev nD) (i : grid0.Coords) (arg2 : Memref sig .tc .vmem S1024x1024 .bf16) (harg2 : arg2.IsWhole) (arg3 : Memref sig .tc .vmem S128x1024 .bf16) (harg3 : arg3.IsWhole) (arg4 : Memref sig .tc .vmem S1024x1 .f32) (harg4 : arg4.IsWhole) (arg5 : Memref sig .tc .vmem S1024x128 .f32) (harg5 : arg5.IsWhole) (arg6 : Memref sig .tc .vmem S1024x128 .f32) (harg6 : arg6.IsWhole) (hc0 : cond0_0 i) (hc1 : ¬cond0_1 i)
    (x0 : Vec F S1024x1024 .bf16) (x1 : Vec F S128x1024 .bf16) (x2 : Vec F S1024x1 .f32) (y : S1024x128.Idx) :
    ∃ pc ∈ (kernelRun0_A c i arg2 harg2 arg3 harg3 arg4 harg4 arg5 harg5 arg6 harg6 hc0 hc1 x0 x1 x2).2.1, y ∈ pc.1.set :=
  View.cover_of_tiledL (kernelRun0_A c i arg2 harg2 arg3 harg3 arg4 harg4 arg5 harg5 arg6 harg6 hc0 hc1 x0 x1 x2).2.1 S1024x128.size (by sl_kernel_rfl) y
def sout0_A_0 (c : Dev nD) (i : grid0.Coords) (arg2 : Memref sig .tc .vmem S1024x1024 .bf16) (harg2 : arg2.IsWhole) (arg3 : Memref sig .tc .vmem S128x1024 .bf16) (harg3 : arg3.IsWhole) (arg4 : Memref sig .tc .vmem S1024x1 .f32) (harg4 : arg4.IsWhole) (arg5 : Memref sig .tc .vmem S1024x128 .f32) (harg5 : arg5.IsWhole) (arg6 : Memref sig .tc .vmem S1024x128 .f32) (harg6 : arg6.IsWhole) (hc0 : cond0_0 i) (hc1 : ¬cond0_1 i)
    (x0 : Vec F S1024x1024 .bf16) (x1 : Vec F S128x1024 .bf16) (x2 : Vec F S1024x1 .f32) : Vec F S1024x128 .f32 :=
  VS0_0.read (Elt F) (VS0_0.writes (Elt F) VS0_0.junk (kernelRun0_A c i arg2 harg2 arg3 harg3 arg4 harg4 arg5 harg5 arg6 harg6 hc0 hc1 x0 x1 x2).2.1)

def out0_B_3 (c : Dev nD) (i : grid0.Coords) (arg2 : Memref sig .tc .vmem S1024x1024 .bf16) (harg2 : arg2.IsWhole) (arg3 : Memref sig .tc .vmem S128x1024 .bf16) (harg3 : arg3.IsWhole) (arg4 : Memref sig .tc .vmem S1024x1 .f32) (harg4 : arg4.IsWhole) (arg5 : Memref sig .tc .vmem S1024x128 .f32) (harg5 : arg5.IsWhole) (arg6 : Memref sig .tc .vmem S1024x128 .f32) (harg6 : arg6.IsWhole) (hc0 : ¬cond0_0 i) (hc1 : ¬cond0_1 i)
    (x0 : Vec F S1024x1024 .bf16) (x1 : Vec F S128x1024 .bf16) (x2 : Vec F S1024x1 .f32) (xs0 : Vec F S1024x128 .f32) : Vec F S1024x128 .f32 :=
  VO0_3.read (Elt F) (VO0_3.writes (Elt F) VO0_3.junk (kernelRun0_B c i arg2 harg2 arg3 harg3 arg4 harg4 arg5 harg5 arg6 harg6 hc0 hc1 x0 x1 x2 xs0).1)
theorem scover0_B_0 (c : Dev nD) (i : grid0.Coords) (arg2 : Memref sig .tc .vmem S1024x1024 .bf16) (harg2 : arg2.IsWhole) (arg3 : Memref sig .tc .vmem S128x1024 .bf16) (harg3 : arg3.IsWhole) (arg4 : Memref sig .tc .vmem S1024x1 .f32) (harg4 : arg4.IsWhole) (arg5 : Memref sig .tc .vmem S1024x128 .f32) (harg5 : arg5.IsWhole) (arg6 : Memref sig .tc .vmem S1024x128 .f32) (harg6 : arg6.IsWhole) (hc0 : ¬cond0_0 i) (hc1 : ¬cond0_1 i)
    (x0 : Vec F S1024x1024 .bf16) (x1 : Vec F S128x1024 .bf16) (x2 : Vec F S1024x1 .f32) (xs0 : Vec F S1024x128 .f32) (y : S1024x128.Idx) :
    ∃ pc ∈ (kernelRun0_B c i arg2 harg2 arg3 harg3 arg4 harg4 arg5 harg5 arg6 harg6 hc0 hc1 x0 x1 x2 xs0).2.1, y ∈ pc.1.set :=
  View.cover_of_tiledL (kernelRun0_B c i arg2 harg2 arg3 harg3 arg4 harg4 arg5 harg5 arg6 harg6 hc0 hc1 x0 x1 x2 xs0).2.1 S1024x128.size (by sl_kernel_rfl) y
def sout0_B_0 (c : Dev nD) (i : grid0.Coords) (arg2 : Memref sig .tc .vmem S1024x1024 .bf16) (harg2 : arg2.IsWhole) (arg3 : Memref sig .tc .vmem S128x1024 .bf16) (harg3 : arg3.IsWhole) (arg4 : Memref sig .tc .vmem S1024x1 .f32) (harg4 : arg4.IsWhole) (arg5 : Memref sig .tc .vmem S1024x128 .f32) (harg5 : arg5.IsWhole) (arg6 : Memref sig .tc .vmem S1024x128 .f32) (harg6 : arg6.IsWhole) (hc0 : ¬cond0_0 i) (hc1 : ¬cond0_1 i)
    (x0 : Vec F S1024x1024 .bf16) (x1 : Vec F S128x1024 .bf16) (x2 : Vec F S1024x1 .f32) (xs0 : Vec F S1024x128 .f32) : Vec F S1024x128 .f32 :=
  VS0_0.read (Elt F) (VS0_0.writes (Elt F) VS0_0.junk (kernelRun0_B c i arg2 harg2 arg3 harg3 arg4 harg4 arg5 harg5 arg6 harg6 hc0 hc1 x0 x1 x2 xs0).2.1)

/-- Case C's one store covers the output block. -/
theorem cover0_C_3 (c : Dev nD) (i : grid0.Coords) (arg2 : Memref sig .tc .vmem S1024x1024 .bf16) (harg2 : arg2.IsWhole) (arg3 : Memref sig .tc .vmem S128x1024 .bf16) (harg3 : arg3.IsWhole) (arg4 : Memref sig .tc .vmem S1024x1 .f32) (harg4 : arg4.IsWhole) (arg5 : Memref sig .tc .vmem S1024x128 .f32) (harg5 : arg5.IsWhole) (arg6 : Memref sig .tc .vmem S1024x128 .f32) (harg6 : arg6.IsWhole) (hc0 : ¬cond0_0 i) (hc1 : cond0_1 i)
    (x0 : Vec F S1024x1024 .bf16) (x1 : Vec F S128x1024 .bf16) (x2 : Vec F S1024x1 .f32) (xs0 : Vec F S1024x128 .f32) (y : S1024x128.Idx) :
    ∃ pc ∈ (kernelRun0_C c i arg2 harg2 arg3 harg3 arg4 harg4 arg5 harg5 arg6 harg6 hc0 hc1 x0 x1 x2 xs0).1, y ∈ pc.1.set :=
  View.cover_of_tiledL (kernelRun0_C c i arg2 harg2 arg3 harg3 arg4 harg4 arg5 harg5 arg6 harg6 hc0 hc1 x0 x1 x2 xs0).1 S1024x128.size (by sl_kernel_rfl) y
def out0_C_3 (c : Dev nD) (i : grid0.Coords) (arg2 : Memref sig .tc .vmem S1024x1024 .bf16) (harg2 : arg2.IsWhole) (arg3 : Memref sig .tc .vmem S128x1024 .bf16) (harg3 : arg3.IsWhole) (arg4 : Memref sig .tc .vmem S1024x1 .f32) (harg4 : arg4.IsWhole) (arg5 : Memref sig .tc .vmem S1024x128 .f32) (harg5 : arg5.IsWhole) (arg6 : Memref sig .tc .vmem S1024x128 .f32) (harg6 : arg6.IsWhole) (hc0 : ¬cond0_0 i) (hc1 : cond0_1 i)
    (x0 : Vec F S1024x1024 .bf16) (x1 : Vec F S128x1024 .bf16) (x2 : Vec F S1024x1 .f32) (xs0 : Vec F S1024x128 .f32) : Vec F S1024x128 .f32 :=
  VO0_3.read (Elt F) (VO0_3.writes (Elt F) VO0_3.junk (kernelRun0_C c i arg2 harg2 arg3 harg3 arg4 harg4 arg5 harg5 arg6 harg6 hc0 hc1 x0 x1 x2 xs0).1)
theorem scover0_C_0 (c : Dev nD) (i : grid0.Coords) (arg2 : Memref sig .tc .vmem S1024x1024 .bf16) (harg2 : arg2.IsWhole) (arg3 : Memref sig .tc .vmem S128x1024 .bf16) (harg3 : arg3.IsWhole) (arg4 : Memref sig .tc .vmem S1024x1 .f32) (harg4 : arg4.IsWhole) (arg5 : Memref sig .tc .vmem S1024x128 .f32) (harg5 : arg5.IsWhole) (arg6 : Memref sig .tc .vmem S1024x128 .f32) (harg6 : arg6.IsWhole) (hc0 : ¬cond0_0 i) (hc1 : cond0_1 i)
    (x0 : Vec F S1024x1024 .bf16) (x1 : Vec F S128x1024 .bf16) (x2 : Vec F S1024x1 .f32) (xs0 : Vec F S1024x128 .f32) (y : S1024x128.Idx) :
    ∃ pc ∈ (kernelRun0_C c i arg2 harg2 arg3 harg3 arg4 harg4 arg5 harg5 arg6 harg6 hc0 hc1 x0 x1 x2 xs0).2.1, y ∈ pc.1.set :=
  View.cover_of_tiledL (kernelRun0_C c i arg2 harg2 arg3 harg3 arg4 harg4 arg5 harg5 arg6 harg6 hc0 hc1 x0 x1 x2 xs0).2.1 S1024x128.size (by sl_kernel_rfl) y
def sout0_C_0 (c : Dev nD) (i : grid0.Coords) (arg2 : Memref sig .tc .vmem S1024x1024 .bf16) (harg2 : arg2.IsWhole) (arg3 : Memref sig .tc .vmem S128x1024 .bf16) (harg3 : arg3.IsWhole) (arg4 : Memref sig .tc .vmem S1024x1 .f32) (harg4 : arg4.IsWhole) (arg5 : Memref sig .tc .vmem S1024x128 .f32) (harg5 : arg5.IsWhole) (arg6 : Memref sig .tc .vmem S1024x128 .f32) (harg6 : arg6.IsWhole) (hc0 : ¬cond0_0 i) (hc1 : cond0_1 i)
    (x0 : Vec F S1024x1024 .bf16) (x1 : Vec F S128x1024 .bf16) (x2 : Vec F S1024x1 .f32) (xs0 : Vec F S1024x128 .f32) : Vec F S1024x128 .f32 :=
  VS0_0.read (Elt F) (VS0_0.writes (Elt F) VS0_0.junk (kernelRun0_C c i arg2 harg2 arg3 harg3 arg4 harg4 arg5 harg5 arg6 harg6 hc0 hc1 x0 x1 x2 xs0).2.1)

/-! ## The accumulation, point by point -/

/-- What the output block and the scratch hold after the body at position n (output first, scratch second). -/
def outsAt0 (c : Dev nD) : (n : ℕ) → n < cfg0.N → Vec F S1024x128 .f32 × Vec F S1024x128 .f32
  | 0, hn => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩),
      sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩))
  | n + 1, hn =>
    if h0 : (n + 1) % 4 = 0 then
      if h1 : (n + 1) % 4 = 3 then
        False.elim (by omega)
      else
        (out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩),
          sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩))
    else
      if h1 : (n + 1) % 4 = 3 then
        (out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2,
          sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2)
      else
        (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2,
          sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2)

theorem outsAt0_A (c : Dev nD) (t : Fin cfg0.N) (h0 : t.val % 4 = 0) (h1 : ¬t.val % 4 = 3) :
    outsAt0 V c t.val t.isLt = (out0_A_3 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk0 V c 0 t) (iblk0 V c 1 t) (iblk0 V c 2 t),
      sout0_A_0 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk0 V c 0 t) (iblk0 V c 1 t) (iblk0 V c 2 t)) := by
  obtain ⟨n, hn⟩ := t
  cases n with
  | zero => exact rfl
  | succ n => exact (dif_pos h0).trans ((dif_neg h1).trans rfl)

theorem outsAt0_B (c : Dev nD) (t : Fin cfg0.N) (h0 : ¬t.val % 4 = 0) (h1 : ¬t.val % 4 = 3) :
    outsAt0 V c t.val t.isLt = (out0_B_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2,
      sout0_B_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 4 = 0) (h1 : t.val % 4 = 3) :
    outsAt0 V c t.val t.isLt = (out0_C_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2,
      sout0_C_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region's invariant: the scratch carried at the running sum -/

def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ others0 c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) scM0_0 fullShare ((outsAt0 V c n hn).2) ∗ others0 c) ∗ (∃ r, prngReg c r)) := rfl
theorem PhiS_pos (c : Dev nD) (n : ℕ) (h : n ≤ cfg0.N) (hz : n ≠ 0) :
    PhiS V c n h = iprop(iprop(owns (c : Thread nD τ) scM0_0 fullShare ((outsAt0 V c (n - 1) (by omega)).2) ∗ others0 c) ∗ (∃ r, prngReg c r)) := by
  cases n with
  | zero => exact absurd rfl hz
  | succ n => rfl

/-! ## The pipeline's proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS_castSucc (c : Dev nD) (t : Fin cfg0.N) :
    (dat0 V c).Φ t.castSucc = PhiS V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point: the inputs' memrefs hold their blocks; the point's k says which case runs; the invariant
    hands the scratch over at what the point before left (at anything at the very first point) and takes it back at
    this point's running sum. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS V c (t.val + 1) t.isLt from rfl, PhiS_succ]
  have hN : t.val < 64 := lt_of_lt_of_eq t.isLt (show cfg0.N = 64 from N_0)
  by_cases h0 : t.val % 4 = 0
  · by_cases h1 : t.val % 4 = 3
    · exfalso; omega
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [Dat.leavesExact_idle (dat0 V c) 3 t (idleAt0_3 t (fun h => h1 ((hcond0_1 t).mp h))) (noFlush0_3 t (fun h => h1 ((hcond0_1 t).mp h)))]
      rw [outsAt0_A V c t h0 h1]
      unfold sout0_A_0; (try dsimp only)
      by_cases hz : t.val = 0
      · rw [PhiS_castSucc V c t, PhiS_zero V c _ _ hz, PhiA0_eq]
        iintro ⟨⟨⟨HS0, Hoth⟩, Hg⟩, Ho, ⟨%d0, H0⟩, ⟨%d1, H1⟩, ⟨%d2, H2⟩, ⟨%d3, H3⟩⟩
        iapply ((kernelRun0_A c (grid0.coords t) _ _ _ _ _ _ _ _ _ _ ((hcond0_0 t).mpr h0) (fun h => h1 ((hcond0_1 t).mp h)) (iblk0 V c 0 t) (iblk0 V c 1 t) (iblk0 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover0_A_0 c _ _ _ _ _ _ _ _ _ _ _ _ _ _ _ _)
            iexact Hoth
          iexact Hg
        isplitl [Ho]; · iexact Ho
        isplitl [H0]; · iexact H0
        isplitl [H1]; · iexact H1
        isplitl [H2]; · iexact H2
        iexists _; iexact H3
      · rw [PhiS_castSucc V c t, PhiS_pos V c _ _ hz]
        iintro ⟨⟨⟨HS0, Hoth⟩, Hg⟩, Ho, ⟨%d0, H0⟩, ⟨%d1, H1⟩, ⟨%d2, H2⟩, ⟨%d3, H3⟩⟩
        iapply ((kernelRun0_A c (grid0.coords t) _ _ _ _ _ _ _ _ _ _ ((hcond0_0 t).mpr h0) (fun h => h1 ((hcond0_1 t).mp h)) (iblk0 V c 0 t) (iblk0 V c 1 t) (iblk0 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover0_A_0 c _ _ _ _ _ _ _ _ _ _ _ _ _ _ _ _)
            iexact Hoth
          iexact Hg
        isplitl [Ho]; · iexact Ho
        isplitl [H0]; · iexact H0
        isplitl [H1]; · iexact H1
        isplitl [H2]; · iexact H2
        iexists _; iexact H3
  · by_cases h1 : t.val % 4 = 3
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t ((hcond0_1 t).mpr h1)], after0_3]
      rw [outsAt0_C V c t h0 h1]
      unfold out0_C_3 sout0_C_0; (try dsimp only)
      by_cases hz : t.val = 0
      · exfalso; omega
      · rw [PhiS_castSucc V c t, PhiS_pos V c _ _ hz]
        iintro ⟨⟨⟨HS0, Hoth⟩, Hg⟩, Ho, ⟨%d0, H0⟩, ⟨%d1, H1⟩, ⟨%d2, H2⟩, ⟨%d3, H3⟩⟩
        iapply ((kernelRun0_C c (grid0.coords t) _ _ _ _ _ _ _ _ _ _ (fun h => h0 ((hcond0_0 t).mp h)) ((hcond0_1 t).mpr h1) (iblk0 V c 0 t) (iblk0 V c 1 t) (iblk0 V c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover0_C_0 c _ _ _ _ _ _ _ _ _ _ _ _ _ _ _ _ _)
            iexact Hoth
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover0_C_3 c _ _ _ _ _ _ _ _ _ _ _ _ _ _ _ _ _)
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [Dat.leavesExact_idle (dat0 V c) 3 t (idleAt0_3 t (fun h => h1 ((hcond0_1 t).mp h))) (noFlush0_3 t (fun h => h1 ((hcond0_1 t).mp h)))]
      rw [outsAt0_B V c t h0 h1]
      unfold sout0_B_0; (try dsimp only)
      by_cases hz : t.val = 0
      · exfalso; omega
      · rw [PhiS_castSucc V c t, PhiS_pos V c _ _ hz]
        iintro ⟨⟨⟨HS0, Hoth⟩, Hg⟩, Ho, ⟨%d0, H0⟩, ⟨%d1, H1⟩, ⟨%d2, H2⟩, ⟨%d3, H3⟩⟩
        iapply ((kernelRun0_B c (grid0.coords t) _ _ _ _ _ _ _ _ _ _ (fun h => h0 ((hcond0_0 t).mp h)) (fun h => h1 ((hcond0_1 t).mp h)) (iblk0 V c 0 t) (iblk0 V c 1 t) (iblk0 V c 2 t) _).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover0_B_0 c _ _ _ _ _ _ _ _ _ _ _ _ _ _ _ _ _)
            iexact Hoth
          iexact Hg
        isplitl [Ho]; · iexact Ho
        isplitl [H0]; · iexact H0
        isplitl [H1]; · iexact H1
        isplitl [H2]; · iexact H2
        iexists _; iexact H3

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

/-- Entering the region: the class invariant is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- Leaving it: the scratch's contents are forgotten and the class invariant comes back. -/
theorem hout0 (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 64 := N_0; omega), PhiA0_eq]
  iintro ⟨⟨HS0, Hoth⟩, Hg⟩
  isplitl [HS0 Hoth]
  · isplitl [HS0]
    · iexists _; iexact HS0
    iexact Hoth
  iexact Hg

end Cert.KernelIdeal.R0

end
-- ==== Proof.Run.lean ====
/-
  The whole program as a chain of segments: seven stretches of host operations, the low-rank pre-pass, the main
  matrix product, and the final reshape.  Between two segments every unscoped buffer is held at contents that are
  a fold from the launch memory: a host stretch applies its operations, a pallas_call leaves its output array at
  what its write-backs leave and every other buffer as it found it.  Run from any memory, every weakly fair
  execution ends with every unscoped buffer at the last contents of that fold; the six arguments, which no
  segment writes, therefore end as launched, and the result buffer ends at the reshape of what the main product
  leaves.  Of the second region's proof data only what its body leaves in each staging buffer is a parameter here, with the body obligation as a hypothesis.
-/
import proofs.«160741_j498216206382_2_alg».proof.Proof.Gen.KernelIdeal.Launch
import proofs.«160741_j498216206382_2_alg».proof.Proof.Gen.KernelIdeal.Skeleton
import proofs.«160741_j498216206382_2_alg».proof.Proof.Gen.KernelIdeal.Points
import proofs.«160741_j498216206382_2_alg».proof.Proof.Gen.KernelIdeal.Regions
import proofs.«160741_j498216206382_2_alg».proof.Proof.R0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Cert.KernelIdeal Cert.KernelIdeal.Gen Cert.KernelIdeal.R0
open Idealize.ShloMosaic.Pipeline (Seg HostSeg RegionSeg)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Buffer contents of the TensorCore's references, per core. -/
abbrev VT (F : FTy → Type) [FloatOps F] : Type := (c : Dev nD) → (b : Ref sig .tc) → Buf (Elt F) ((c : Thread nD τ).loc b)

-- What the main product's body leaves in each window's staging buffer at each point: the one part of its proof
-- data this module takes as a parameter.
variable (aft1 : VT F → (c : Dev nD) → (w : Fin cfg1.W) → Fin cfg1.N → (cfg1.win w).block.Idx → Elt F (cfg1.win w).elt)

/-- The main product's proof data at entry contents V: the arrays as found, the class invariant, full shares,
    nothing owed. -/
def D1 (V : VT F) (c : Dev nD) : Dat τ (Elt F) Unit ℕ (UR sig nD τ) ℕ cfg1 c where
  A w := V c (Pipeline.arrRef spec1 w)
  after := aft1 V c
  Φ _ := Pipeline.ΦA spec1 c
  q _ := fullShare
  owed _ := 0

variable (m : (ℓ : Loc nD τ sig) → Buf (Elt F) ℓ)

/-! ## The buffer contents at the regions' boundaries -/

/-- Entering the pre-pass: after the seven host stretches. -/
abbrev E7 : VT F := fun c b => V7 m c b
/-- Leaving it: its output array at what the write-backs leave, everything else as entered. -/
def W8 (c : Dev nD) : Valuation τ sig (Elt F) :=
  Pipeline.withArrays spec0 c (V7 m c) fun w => (dat0 (E7 m) c).arrAt w cfg0.N
theorem W8_arr (c : Dev nD) (w : Fin cfg0.W) :
    W8 m c (Proc.devRef .tc (Pipeline.arrRef spec0 w)) = (dat0 (E7 m) c).arrAt w cfg0.N := by
  unfold W8; exact Pipeline.withArrays_arr spec0 launch0.win.arr_inj c _ _ w
theorem W8_of_ne (c : Dev nD) (b : Ref sig .tc) (hb : ∀ w, Pipeline.arrRef spec0 w ≠ b) :
    W8 m c (Proc.devRef .tc b) = V7 m c (Proc.devRef .tc b) := by
  unfold W8; exact Pipeline.withArrays_of_ne spec0 c _ _ b hb
abbrev E8 : VT F := fun c b => W8 m c b
theorem hF0 (c : Dev nD) (w : Fin cfg0.W) : (dat0 (E7 m) c).arrAt w cfg0.N = E8 m c (Pipeline.arrRef spec0 w) :=
  (W8_arr m c w).symm
theorem hrest0 (c : Dev nD) : ∀ b, b ∉ Finset.univ.image (Pipeline.arrRef spec0) → E8 m c b = E7 m c b :=
  fun b hb => W8_of_ne m c b fun w e => hb (Finset.mem_image.mpr ⟨w, Finset.mem_univ _, e⟩)

/-- Leaving the main product: the same, from what the pre-pass left. -/
def W9 (c : Dev nD) : Valuation τ sig (Elt F) :=
  Pipeline.withArrays spec1 c (W8 m c) fun w => (D1 aft1 (E8 m) c).arrAt w cfg1.N
theorem W9_arr (c : Dev nD) (w : Fin cfg1.W) :
    W9 aft1 m c (Proc.devRef .tc (Pipeline.arrRef spec1 w)) = (D1 aft1 (E8 m) c).arrAt w cfg1.N := by
  unfold W9; exact Pipeline.withArrays_arr spec1 launch1.win.arr_inj c _ _ w
theorem W9_of_ne (c : Dev nD) (b : Ref sig .tc) (hb : ∀ w, Pipeline.arrRef spec1 w ≠ b) :
    W9 aft1 m c (Proc.devRef .tc b) = W8 m c (Proc.devRef .tc b) := by
  unfold W9; exact Pipeline.withArrays_of_ne spec1 c _ _ b hb
abbrev E9 : VT F := fun c b => W9 aft1 m c b
theorem hF1 (c : Dev nD) (w : Fin cfg1.W) : (D1 aft1 (E8 m) c).arrAt w cfg1.N = E9 aft1 m c (Pipeline.arrRef spec1 w) :=
  (W9_arr aft1 m c w).symm
theorem hrest1 (c : Dev nD) : ∀ b, b ∉ Finset.univ.image (Pipeline.arrRef spec1) → E9 aft1 m c b = E8 m c b :=
  fun b hb => W9_of_ne aft1 m c b fun w e => hb (Finset.mem_image.mpr ⟨w, Finset.mem_univ _, e⟩)

/-- At the end: after the final reshape. -/
abbrev W10 (c : Dev nD) : Valuation τ sig (Elt F) := StableHlo.after hostOps2 (W9 aft1 m c)

/-! ## No segment writes an argument -/

theorem W10_main_arg0 (c : Dev nD) : W10 aft1 m c main_arg0 = m ((c : Thread nD τ).loc main_arg0) :=
  (StableHlo.after_of_writes_sub hostOps2 _ hostOps2_writes (by decide : main_arg0 ∉ hostOps2_W)).trans <|
    (W9_of_ne aft1 m c main_arg0 (by decide)).trans <| (W8_of_ne m c main_arg0 (by decide)).trans <|
    (V7_of m c main_arg0 (by decide)).trans <| (V6_of m c main_arg0 (by decide)).trans <| (V5_of m c main_arg0 (by decide)).trans <|
    (V4_of m c main_arg0 (by decide)).trans <| (V3_of m c main_arg0 (by decide)).trans <| (V2_of m c main_arg0 (by decide)).trans <|
    (V1_of m c main_arg0 (by decide)).trans rfl
theorem W10_main_arg1 (c : Dev nD) : W10 aft1 m c main_arg1 = m ((c : Thread nD τ).loc main_arg1) :=
  (StableHlo.after_of_writes_sub hostOps2 _ hostOps2_writes (by decide : main_arg1 ∉ hostOps2_W)).trans <|
    (W9_of_ne aft1 m c main_arg1 (by decide)).trans <| (W8_of_ne m c main_arg1 (by decide)).trans <|
    (V7_of m c main_arg1 (by decide)).trans <| (V6_of m c main_arg1 (by decide)).trans <| (V5_of m c main_arg1 (by decide)).trans <|
    (V4_of m c main_arg1 (by decide)).trans <| (V3_of m c main_arg1 (by decide)).trans <| (V2_of m c main_arg1 (by decide)).trans <|
    (V1_of m c main_arg1 (by decide)).trans rfl
theorem W10_main_arg2 (c : Dev nD) : W10 aft1 m c main_arg2 = m ((c : Thread nD τ).loc main_arg2) :=
  (StableHlo.after_of_writes_sub hostOps2 _ hostOps2_writes (by decide : main_arg2 ∉ hostOps2_W)).trans <|
    (W9_of_ne aft1 m c main_arg2 (by decide)).trans <| (W8_of_ne m c main_arg2 (by decide)).trans <|
    (V7_of m c main_arg2 (by decide)).trans <| (V6_of m c main_arg2 (by decide)).trans <| (V5_of m c main_arg2 (by decide)).trans <|
    (V4_of m c main_arg2 (by decide)).trans <| (V3_of m c main_arg2 (by decide)).trans <| (V2_of m c main_arg2 (by decide)).trans <|
    (V1_of m c main_arg2 (by decide)).trans rfl
theorem W10_main_arg3 (c : Dev nD) : W10 aft1 m c main_arg3 = m ((c : Thread nD τ).loc main_arg3) :=
  (StableHlo.after_of_writes_sub hostOps2 _ hostOps2_writes (by decide : main_arg3 ∉ hostOps2_W)).trans <|
    (W9_of_ne aft1 m c main_arg3 (by decide)).trans <| (W8_of_ne m c main_arg3 (by decide)).trans <|
    (V7_of m c main_arg3 (by decide)).trans <| (V6_of m c main_arg3 (by decide)).trans <| (V5_of m c main_arg3 (by decide)).trans <|
    (V4_of m c main_arg3 (by decide)).trans <| (V3_of m c main_arg3 (by decide)).trans <| (V2_of m c main_arg3 (by decide)).trans <|
    (V1_of m c main_arg3 (by decide)).trans rfl
theorem W10_main_arg4 (c : Dev nD) : W10 aft1 m c main_arg4 = m ((c : Thread nD τ).loc main_arg4) :=
  (StableHlo.after_of_writes_sub hostOps2 _ hostOps2_writes (by decide : main_arg4 ∉ hostOps2_W)).trans <|
    (W9_of_ne aft1 m c main_arg4 (by decide)).trans <| (W8_of_ne m c main_arg4 (by decide)).trans <|
    (V7_of m c main_arg4 (by decide)).trans <| (V6_of m c main_arg4 (by decide)).trans <| (V5_of m c main_arg4 (by decide)).trans <|
    (V4_of m c main_arg4 (by decide)).trans <| (V3_of m c main_arg4 (by decide)).trans <| (V2_of m c main_arg4 (by decide)).trans <|
    (V1_of m c main_arg4 (by decide)).trans rfl
theorem W10_main_arg5 (c : Dev nD) : W10 aft1 m c main_arg5 = m ((c : Thread nD τ).loc main_arg5) :=
  (StableHlo.after_of_writes_sub hostOps2 _ hostOps2_writes (by decide : main_arg5 ∉ hostOps2_W)).trans <|
    (W9_of_ne aft1 m c main_arg5 (by decide)).trans <| (W8_of_ne m c main_arg5 (by decide)).trans <|
    (V7_of m c main_arg5 (by decide)).trans <| (V6_of m c main_arg5 (by decide)).trans <| (V5_of m c main_arg5 (by decide)).trans <|
    (V4_of m c main_arg5 (by decide)).trans <| (V3_of m c main_arg5 (by decide)).trans <| (V2_of m c main_arg5 (by decide)).trans <|
    (V1_of m c main_arg5 (by decide)).trans rfl

/-! ## The proof data family and the thread state -/

/-- Both pipelines' proof data, each at its region's entry contents. -/
def pdats : (p : Fin 2) → (c : Dev nD) → Dat τ (Elt F) Unit ℕ (UR sig nD τ) ℕ (Pipeline.pin (pcfgs (F := F)) adm p) c
  | ⟨0, _⟩ => fun c => dat0 (E7 m) c
  | ⟨1, _⟩ => fun c => D1 aft1 (E8 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev ER : Fin 3 → Dev nD → sProp 𝕄 := fun _ => R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W10 aft1 m c) ∗ ∃ r, prngReg c r)

variable (hB1 : ∀ V c, BodyObligation (D1 aft1 V c) (defs₀ (F := F)) Variants.none () Set.univ)

/-! ## The regions as segments -/

/-- The generator register and the scoped buffers the pre-pass does not stage make the class invariant, -/
theorem hΦin0 (c : Dev nD) :
    iprop((∃ r, prngReg c r) ∗ Pipeline.prefHeld (Ix := Unit) (Name := ℕ) (U := UR sig nD τ) (Lvl := ℕ) (pcfgs (F := F) 0).pre c (fun _ => fullShare) (adm (F := F) 0).1
        ∗ Pipeline.scopedRest (Ix := Unit) (Name := ℕ) (U := UR sig nD τ) (Lvl := ℕ) (Val := Elt F) spec0 c)
      ⊢ (Pipeline.ΦA spec0 c : sProp 𝕄) := by
  unfold Pipeline.ΦA
  iintro ⟨Hp, -, Hr⟩
  isplitl [Hr]; · iexact Hr
  iexact Hp
/-- and the class invariant gives them back. -/
theorem hΦout0 (c : Dev nD) :
    (Pipeline.ΦA spec0 c : sProp 𝕄)
      ⊢ iprop((∃ r, prngReg c r) ∗ BI.emp ∗ Pipeline.scopedRest (Ix := Unit) (Name := ℕ) (U := UR sig nD τ) (Lvl := ℕ) (Val := Elt F) spec0 c) := by
  unfold Pipeline.ΦA
  iintro ⟨Hr, Hp⟩
  isplitl [Hp]; · iexact Hp
  isplitr; · iempintro
  iexact Hr

set_option backward.isDefEq.respectTransparency.types false in
/-- The pre-pass over the thread state: its arrays split out of the unscoped buffers and put back at the exit
    contents; the generator register and the scoped rest into its invariant and out. -/
def reg0 : Pipeline.RegionSeg (pcfgs (F := F)) adm (pdats aft1 m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E7 m) c).loose
  hwaits := Pipeline.hwaits_of_owed_zero _ _ _ _ L lv 0 fun _ _ => rfl
  pre c := iprop(StableHlo.held (c : Thread nD τ) (Pipeline.ucRefs τ sig) (V7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec0 c (E7 m c)
  hentry c := by
    rw [Pipeline.ownSems0_none]
    have hsplit := Pipeline.arrays_of_unscopedBufs (p := 0) (pcfgs (F := F)) adm (pdats aft1 m) launch0.win launch0.arr_whole c
      ((pdats aft1 m 0 c).share_full fun _ => rfl) (E7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (hΦin0 c).trans (hin0 (E7 m) c)
  hout c := by
    rw [Pipeline.ownSems0_none]
    exact (hout0 (E7 m) c).trans (hΦout0 c)
  hexit c := by
    have hjoin := Pipeline.unscopedBufs_of_arrays (p := 0) (pcfgs (F := F)) adm (Ix := Unit) (Name := ℕ) (U := UR sig nD τ) (Lvl := ℕ)
      launch0.win launch0.arr_whole c (pdats aft1 m) ((pdats aft1 m 0 c).share_full fun _ => rfl)
      (E7 m c) (E8 m c) ((pdats aft1 m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The main product over the thread state, in the same way; its invariant is the class's throughout. -/
def reg1 : Pipeline.RegionSeg (pcfgs (F := F)) adm (pdats aft1 m) () defs₀ 𝒱₀ L lv 1 where
  win := launch1.win.to₀
  block_pos := launch1.block_pos
  stage_whole := launch1.stage_whole
  K := PEmpty
  osem k := k.elim
  ho := Pipeline.OwnSemFacts.none _
  hbody c := (hB1 (E8 m) c).loose
  hwaits := Pipeline.hwaits_of_owed_zero _ _ _ _ L lv 1 fun _ _ => rfl
  pre c := iprop(StableHlo.held (c : Thread nD τ) (Pipeline.ucRefs τ sig) (W8 m c) ∗ R c)
  post c := iprop(StableHlo.held (c : Thread nD τ) (Pipeline.ucRefs τ sig) (W9 aft1 m c) ∗ R c)
  X c := iprop(∃ r, prngReg c r)
  Y c := iprop(∃ r, prngReg c r)
  Z c := Pipeline.unscopedRest (Ix := Unit) (Name := ℕ) (U := UR sig nD τ) (Lvl := ℕ) spec1 c (E8 m c)
  hentry c := by
    rw [Pipeline.ownSems0_none]
    have hsplit := Pipeline.arrays_of_unscopedBufs (p := 1) (pcfgs (F := F)) adm (pdats aft1 m) launch1.win launch1.arr_whole c
      ((pdats aft1 m 1 c).share_full fun _ => rfl) (E8 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats aft1 m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats aft1 m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats aft1 m) ((pdats aft1 m 1 c).share_full fun _ => rfl)
      (E8 m c) (E9 aft1 m c) ((pdats aft1 m 1 c).arrAt · cfg1.N) (hF1 aft1 m c) (hrest1 aft1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The final reshape as a host segment from what the main product left. -/
def seg9' : HostSeg (Ix := Unit) (Name := ℕ) (U := UR sig nD τ) (Lvl := ℕ) (pcfgs (F := F)) defs₀ 𝒱₀ L lv :=
  HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (W9 aft1 m) R

/-- The ten segments in order. -/
abbrev segs (c : Dev nD) : List (Seg (pcfgs (F := F)) adm (pdats aft1 m) () defs₀ 𝒱₀ L lv) :=
  [.host (seg0 m 𝒱₀ L lv ER), .host (seg1 m 𝒱₀ L lv ER), .host (seg2 m 𝒱₀ L lv ER), .host (seg3 m 𝒱₀ L lv ER),
   .host (seg4 m 𝒱₀ L lv ER), .host (seg5 m 𝒱₀ L lv ER), .host (seg6 m 𝒱₀ L lv ER),
   .region (reg0 aft1 m), .region (reg1 aft1 m hB1), .host (seg9' aft1 m)]

/-! ## The launch -/

/-- The last thread state: the generator register beside the buffers, and nothing owed. -/
theorem hlast (c : Dev nD) :
    iprop(StableHlo.held (c : Thread nD τ) (Pipeline.ucRefs τ sig) (W10 aft1 m c) ∗ R (F := F) c)
      ⊢ iprop(Tₙ aft1 m c ∗ ∃ W, owes (c : Thread nD τ) (0 : CellTallies nD τ sig Unit) W) := by
  iintro ⟨Hh, Hp, Ho⟩
  isplitr [Ho]
  · isplitl [Hh]; · iexact Hh
    iexact Hp
  iexact Ho

include hB1

set_option backward.isDefEq.respectTransparency.types false in
/-- From any memory with zero counters every weakly fair execution terminates, nothing faulting, and every final
    state holds every unscoped buffer at the last contents of the fold. -/
theorem run_all (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = W10 aft1 m c b) := by
  refine Pipeline.θ_run_regions_kit_dev (pcfgs (F := F)) adm (pdats aft1 m) () cellOf_inj emb₁ defs₀ 𝒱₀ L lv m ρ main
    (segs aft1 m hB1)
    (fun c Q => by
      rewrite [main_chain c, Seg.run_eq_chain,
        show (segs aft1 m hB1 c).map Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          Prog.lift (.customCall (Pipeline.entry 0) ()),
          Prog.lift (.customCall (Pipeline.entry 1) ()),
          StableHlo.seq hostOps2 ] from rfl]
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c)) (Tₙ := Tₙ aft1 m)
    (hch := fun c => ⟨.rfl, .rfl, .rfl, .rfl, .rfl, .rfl, .rfl, .rfl, .rfl, .rfl, hlast aft1 m c⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 aft1 m c b)
    (hfin := fun c s' => by
      iintro ⟨⟨Hh, -⟩, HSI⟩
      unfold StableHlo.held
      imodintro
      iapply (pointsTo_read_all (Pipeline.ucRefs τ sig) (fun b => (((c : Thread nD τ)).1, b)) (W10 aft1 m c) s')
      isplitl [Hh] <;> iassumption)
    (hQ := fun s h => h)

/-- The frame claim's post: each argument ends as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_arg0 (by decide))).trans (W10_main_arg0 aft1 m c),
     (h c _ (mem_uc main_arg1 (by decide))).trans (W10_main_arg1 aft1 m c),
     (h c _ (mem_uc main_arg2 (by decide))).trans (W10_main_arg2 aft1 m c),
     (h c _ (mem_uc main_arg3 (by decide))).trans (W10_main_arg3 aft1 m c),
     (h c _ (mem_uc main_arg4 (by decide))).trans (W10_main_arg4 aft1 m c),
     (h c _ (mem_uc main_arg5 (by decide))).trans (W10_main_arg5 aft1 m c)⟩) (run_all aft1 m hB1 ρ)

/-- The same run with the result buffer named: it ends at the fold's last contents of it. -/
theorem run_value (ρ : Dev nD → PrngReg) :
    θ_run defs (onTc (τ := τ) (main (F := F))) ⟨m, fun _ => 0, ρ⟩ (fun r => ∀ c : Dev nD,
      r.2.mem ((c.tc : Thread nD τ).loc main_v22) = W10 aft1 m c main_v22
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨h c _ (mem_uc main_v22 (by decide)),
     (h c _ (mem_uc main_arg0 (by decide))).trans (W10_main_arg0 aft1 m c),
     (h c _ (mem_uc main_arg1 (by decide))).trans (W10_main_arg1 aft1 m c),
     (h c _ (mem_uc main_arg2 (by decide))).trans (W10_main_arg2 aft1 m c),
     (h c _ (mem_uc main_arg3 (by decide))).trans (W10_main_arg3 aft1 m c),
     (h c _ (mem_uc main_arg4 (by decide))).trans (W10_main_arg4 aft1 m c),
     (h c _ (mem_uc main_arg5 (by decide))).trans (W10_main_arg5 aft1 m c)⟩) (run_all aft1 m hB1 ρ)

end Cert.KernelIdeal.Run

end
-- ==== Proof.R0RunsW.lean ====
/-
  The first pallas_call, the low-rank pre-pass: over a 16 x 4 grid of points t = 4 * mi + k it keeps, in a
  scratch block of 1024 x 128 numbers carried from point to point, the running sum over k of the products
  x[mi-th row block, k-th column block] * A_pad[:, k-th column block]^T.  The scratch is cleared at k = 0,
  added to at every k, and at k = 3 its rows are scaled by the mask column and stored as the output block.
  This module states the body's run in each of the three control cases (k = 0, k = 1 or 2, k = 3) on
  arbitrary whole staging memrefs: which pieces each case leaves in the output block and in the scratch.
-/
import proofs.«160741_j498216206382_2_alg».proof.Proof.Gen.Kernel.Launch
import proofs.«160741_j498216206382_2_alg».proof.Proof.Gen.Kernel.Skeleton
import proofs.«160741_j498216206382_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions of the body, decided over the grid -/

/-- The first branch (clear the scratch): the point's second coordinate is zero. -/
abbrev cond0_0 (i : grid0.Coords) : Prop :=
  (Scalar.cmpi .ne (Scalar.extui (Scalar.cmpi .eq (BitVec.ofNat 32 (i 1).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)

/-- The second branch (scale and store the output block): the point's second coordinate is three. -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Away from k = 3 the output block is neither stored into nor written back. -/
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
theorem liveAt0_3 : ∀ t : Fin cfg0.N, cond0_1 (grid0.coords t) → cfg0.idle 3 (grid0.coords t) = false := by decide +kernel

/-! ## The memrefs the body is called with -/

abbrev VO0_3 : View sig .tc .vmem S1024x128 .f32 := (Memref.whole cc0_stg3_0 : Memref sig .tc .vmem S1024x128 .f32).view
abbrev ms0_0 (t : Fin cfg0.N) : Memref sig .tc .vmem S1024x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x128 .f32 := win0_3.stage (cfg0.slots t 3)
abbrev hs0_3 (t : Fin cfg0.N) : (ms0_3 t).IsWhole := hstage0_3 ((cfg0.slots t 3).cast nbuf0_3)
/-- The scratch block, a whole buffer of the kernel's own. -/
abbrev scM0_0 : Memref sig .tc .vmem S1024x128 .f32 := Memref.whole cc0_scratch0
abbrev VS0_0 : View sig .tc .vmem S1024x128 .f32 := scM0_0.view

/-- The scoped buffers this call neither stages nor uses as scratch (the other call's staging buffers), each at
    some contents: they ride along untouched. -/
abbrev others0 (c : Dev nD) : sProp 𝕄 :=
  Pipeline.scopedRestBut (Ix := Unit) (Name := ℕ) (U := UR sig nD τ) (Lvl := ℕ) (Val := Elt F) spec0 c [cc0_scratch0]

/-- The class invariant with the scratch block split off, owned at some contents. -/
theorem PhiA0_eq (c : Dev nD) :
    (Pipeline.ΦA spec0 c : sProp 𝕄)
      = iprop(iprop((∃ d, owns (c : Thread nD τ) scM0_0 fullShare d) ∗ others0 c) ∗ (∃ r, prngReg c r)) := by
  unfold Pipeline.ΦA
  rw [Pipeline.scopedRest_split_of_list spec0 c [cc0_scratch0] (by decide) (by decide)]
  simp only [bigSepL, scM0_0, owns_whole, others0]
  rfl

/-! ## Case A (k = 0): the scratch cleared, then the first product added; the output block untouched -/

set_option maxHeartbeats 1000000 in
noncomputable def kernelRun0_A (c : Dev nD) (i : grid0.Coords) (arg2 : Memref sig .tc .vmem S1024x1024 .bf16) (harg2 : arg2.IsWhole) (arg3 : Memref sig .tc .vmem S128x1024 .bf16) (harg3 : arg3.IsWhole) (arg4 : Memref sig .tc .vmem S1024x1 .f32) (harg4 : arg4.IsWhole) (arg5 : Memref sig .tc .vmem S1024x128 .f32) (harg5 : arg5.IsWhole) (arg6 : Memref sig .tc .vmem S1024x128 .f32) (harg6 : arg6.IsWhole) (hc0 : cond0_0 i) (hc1 : ¬cond0_1 i)
    (x0 : Vec F S1024x1024 .bf16) (x1 : Vec F S128x1024 .bf16) (x2 : Vec F S1024x1 .f32) :
    Σ' (L3 : List (View.Piece (Elt F) S1024x128 .f32)), { LS0 : List (View.Piece (Elt F) S1024x128 .f32) //
      ∀ (xi3 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__h_prepass_kernel i arg2 harg2 arg3 harg3 arg4 harg4 arg5 harg5 arg6 harg6) K } := by
  refine ⟨[], ?_, fun xi3 E K => ?run⟩
  case run =>
    simp only [cc0__h_prepass_kernel_eq_skeleton]; unfold cc0__h_prepass_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

/-! ## Case B (k = 1, 2): one more product added to the scratch; the output block untouched -/

set_option maxHeartbeats 1000000 in
noncomputable def kernelRun0_B (c : Dev nD) (i : grid0.Coords) (arg2 : Memref sig .tc .vmem S1024x1024 .bf16) (harg2 : arg2.IsWhole) (arg3 : Memref sig .tc .vmem S128x1024 .bf16) (harg3 : arg3.IsWhole) (arg4 : Memref sig .tc .vmem S1024x1 .f32) (harg4 : arg4.IsWhole) (arg5 : Memref sig .tc .vmem S1024x128 .f32) (harg5 : arg5.IsWhole) (arg6 : Memref sig .tc .vmem S1024x128 .f32) (harg6 : arg6.IsWhole) (hc0 : ¬cond0_0 i) (hc1 : ¬cond0_1 i)
    (x0 : Vec F S1024x1024 .bf16) (x1 : Vec F S128x1024 .bf16) (x2 : Vec F S1024x1 .f32) (xs0 : Vec F S1024x128 .f32) :
    Σ' (L3 : List (View.Piece (Elt F) S1024x128 .f32)), { LS0 : List (View.Piece (Elt F) S1024x128 .f32) //
      ∀ (xi3 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__h_prepass_kernel i arg2 harg2 arg3 harg3 arg4 harg4 arg5 harg5 arg6 harg6) K } := by
  refine ⟨[], ?_, fun xi3 E K => ?run⟩
  case run =>
    simp only [cc0__h_prepass_kernel_eq_skeleton]; unfold cc0__h_prepass_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

/-! ## Case C (k = 3): the last product added, then the scratch scaled row by row into the output block -/

set_option maxHeartbeats 1000000 in
noncomputable def kernelRun0_C (c : Dev nD) (i : grid0.Coords) (arg2 : Memref sig .tc .vmem S1024x1024 .bf16) (harg2 : arg2.IsWhole) (arg3 : Memref sig .tc .vmem S128x1024 .bf16) (harg3 : arg3.IsWhole) (arg4 : Memref sig .tc .vmem S1024x1 .f32) (harg4 : arg4.IsWhole) (arg5 : Memref sig .tc .vmem S1024x128 .f32) (harg5 : arg5.IsWhole) (arg6 : Memref sig .tc .vmem S1024x128 .f32) (harg6 : arg6.IsWhole) (hc0 : ¬cond0_0 i) (hc1 : cond0_1 i)
    (x0 : Vec F S1024x1024 .bf16) (x1 : Vec F S128x1024 .bf16) (x2 : Vec F S1024x1 .f32) (xs0 : Vec F S1024x128 .f32) :
    Σ' (L3 : List (View.Piece (Elt F) S1024x128 .f32)), { LS0 : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc0__h_prepass_kernel i arg2 harg2 arg3 harg3 arg4 harg4 arg5 harg5 arg6 harg6) K } := by
  refine ⟨?_, ?_, fun E K => ?run⟩
  case run =>
    simp only [cc0__h_prepass_kernel_eq_skeleton]; unfold cc0__h_prepass_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Kernel.R0

end
-- ==== Proof.R0W.lean ====
/-
  The low-rank pre-pass as one pipeline region, at any contents V of the buffers when the region is entered.
  What the output block and the scratch block hold after each grid point is defined by recursion on the point:
  at k = 0 the scratch restarts from the cleared block, at every k the product of the point's x block and
  A_pad block is added, and at k = 3 the scaled scratch is the output block.  The region's invariant carries
  the scratch at exactly these contents from point to point; the body's run in each control case then
  discharges the pipeline's obligation at every point.
-/
import proofs.«160741_j498216206382_2_alg».proof.Proof.Gen.Kernel.Launch
import proofs.«160741_j498216206382_2_alg».proof.Proof.Gen.Kernel.Skeleton
import proofs.«160741_j498216206382_2_alg».proof.Proof.Gen.Kernel.Points
import proofs.«160741_j498216206382_2_alg».proof.Proof.R0RunsW
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## What each case leaves in the output block and in the scratch -/

/-- Cases A and B store nothing into the output block: a placeholder nothing consults. -/
def out0_A_3 (c : Dev nD) (i : grid0.Coords) (arg2 : Memref sig .tc .vmem S1024x1024 .bf16) (harg2 : arg2.IsWhole) (arg3 : Memref sig .tc .vmem S128x1024 .bf16) (harg3 : arg3.IsWhole) (arg4 : Memref sig .tc .vmem S1024x1 .f32) (harg4 : arg4.IsWhole) (arg5 : Memref sig .tc .vmem S1024x128 .f32) (harg5 : arg5.IsWhole) (arg6 : Memref sig .tc .vmem S1024x128 .f32) (harg6 : arg6.IsWhole) (hc0 : cond0_0 i) (hc1 : ¬cond0_1 i)
    (x0 : Vec F S1024x1024 .bf16) (x1 : Vec F S128x1024 .bf16) (x2 : Vec F S1024x1 .f32) : Vec F S1024x128 .f32 :=
  VO0_3.read (Elt F) (VO0_3.writes (Elt F) VO0_3.junk (kernelRun0_A c i arg2 harg2 arg3 harg3 arg4 harg4 arg5 harg5 arg6 harg6 hc0 hc1 x0 x1 x2).1)
theorem scover0_A_0 (c : Dev nD) (i : grid0.Coords) (arg2 : Memref sig .tc .vmem S1024x1024 .bf16) (harg2 : arg2.IsWhole) (arg3 : Memref sig .tc .vmem S128x1024 .bf16) (harg3 : arg3.IsWhole) (arg4 : Memref sig .tc .vmem S1024x1 .f32) (harg4 : arg4.IsWhole) (arg5 : Memref sig .tc .vmem S1024x128 .f32) (harg5 : arg5.IsWhole) (arg6 : Memref sig .tc .vmem S1024x128 .f32) (harg6 : arg6.IsWhole) (hc0 : cond0_0 i) (hc1 : ¬cond0_1 i)
    (x0 : Vec F S1024x1024 .bf16) (x1 : Vec F S128x1024 .bf16) (x2 : Vec F S1024x1 .f32) (y : S1024x128.Idx) :
    ∃ pc ∈ (kernelRun0_A c i arg2 harg2 arg3 harg3 arg4 harg4 arg5 harg5 arg6 harg6 hc0 hc1 x0 x1 x2).2.1, y ∈ pc.1.set :=
  View.cover_of_tiledL (kernelRun0_A c i arg2 harg2 arg3 harg3 arg4 harg4 arg5 harg5 arg6 harg6 hc0 hc1 x0 x1 x2).2.1 S1024x128.size (by sl_kernel_rfl) y
def sout0_A_0 (c : Dev nD) (i : grid0.Coords) (arg2 : Memref sig .tc .vmem S1024x1024 .bf16) (harg2 : arg2.IsWhole) (arg3 : Memref sig .tc .vmem S128x1024 .bf16) (harg3 : arg3.IsWhole) (arg4 : Memref sig .tc .vmem S1024x1 .f32) (harg4 : arg4.IsWhole) (arg5 : Memref sig .tc .vmem S1024x128 .f32) (harg5 : arg5.IsWhole) (arg6 : Memref sig .tc .vmem S1024x128 .f32) (harg6 : arg6.IsWhole) (hc0 : cond0_0 i) (hc1 : ¬cond0_1 i)
    (x0 : Vec F S1024x1024 .bf16) (x1 : Vec F S128x1024 .bf16) (x2 : Vec F S1024x1 .f32) : Vec F S1024x128 .f32 :=
  VS0_0.read (Elt F) (VS0_0.writes (Elt F) VS0_0.junk (kernelRun0_A c i arg2 harg2 arg3 harg3 arg4 harg4 arg5 harg5 arg6 harg6 hc0 hc1 x0 x1 x2).2.1)

def out0_B_3 (c : Dev nD) (i : grid0.Coords) (arg2 : Memref sig .tc .vmem S1024x1024 .bf16) (harg2 : arg2.IsWhole) (arg3 : Memref sig .tc .vmem S128x1024 .bf16) (harg3 : arg3.IsWhole) (arg4 : Memref sig .tc .vmem S1024x1 .f32) (harg4 : arg4.IsWhole) (arg5 : Memref sig .tc .vmem S1024x128 .f32) (harg5 : arg5.IsWhole) (arg6 : Memref sig .tc .vmem S1024x128 .f32) (harg6 : arg6.IsWhole) (hc0 : ¬cond0_0 i) (hc1 : ¬cond0_1 i)
    (x0 : Vec F S1024x1024 .bf16) (x1 : Vec F S128x1024 .bf16) (x2 : Vec F S1024x1 .f32) (xs0 : Vec F S1024x128 .f32) : Vec F S1024x128 .f32 :=
  VO0_3.read (Elt F) (VO0_3.writes (Elt F) VO0_3.junk (kernelRun0_B c i arg2 harg2 arg3 harg3 arg4 harg4 arg5 harg5 arg6 harg6 hc0 hc1 x0 x1 x2 xs0).1)
theorem scover0_B_0 (c : Dev nD) (i : grid0.Coords) (arg2 : Memref sig .tc .vmem S1024x1024 .bf16) (harg2 : arg2.IsWhole) (arg3 : Memref sig .tc .vmem S128x1024 .bf16) (harg3 : arg3.IsWhole) (arg4 : Memref sig .tc .vmem S1024x1 .f32) (harg4 : arg4.IsWhole) (arg5 : Memref sig .tc .vmem S1024x128 .f32) (harg5 : arg5.IsWhole) (arg6 : Memref sig .tc .vmem S1024x128 .f32) (harg6 : arg6.IsWhole) (hc0 : ¬cond0_0 i) (hc1 : ¬cond0_1 i)
    (x0 : Vec F S1024x1024 .bf16) (x1 : Vec F S128x1024 .bf16) (x2 : Vec F S1024x1 .f32) (xs0 : Vec F S1024x128 .f32) (y : S1024x128.Idx) :
    ∃ pc ∈ (kernelRun0_B c i arg2 harg2 arg3 harg3 arg4 harg4 arg5 harg5 arg6 harg6 hc0 hc1 x0 x1 x2 xs0).2.1, y ∈ pc.1.set :=
  View.cover_of_tiledL (kernelRun0_B c i arg2 harg2 arg3 harg3 arg4 harg4 arg5 harg5 arg6 harg6 hc0 hc1 x0 x1 x2 xs0).2.1 S1024x128.size (by sl_kernel_rfl) y
def sout0_B_0 (c : Dev nD) (i : grid0.Coords) (arg2 : Memref sig .tc .vmem S1024x1024 .bf16) (harg2 : arg2.IsWhole) (arg3 : Memref sig .tc .vmem S128x1024 .bf16) (harg3 : arg3.IsWhole) (arg4 : Memref sig .tc .vmem S1024x1 .f32) (harg4 : arg4.IsWhole) (arg5 : Memref sig .tc .vmem S1024x128 .f32) (harg5 : arg5.IsWhole) (arg6 : Memref sig .tc .vmem S1024x128 .f32) (harg6 : arg6.IsWhole) (hc0 : ¬cond0_0 i) (hc1 : ¬cond0_1 i)
    (x0 : Vec F S1024x1024 .bf16) (x1 : Vec F S128x1024 .bf16) (x2 : Vec F S1024x1 .f32) (xs0 : Vec F S1024x128 .f32) : Vec F S1024x128 .f32 :=
  VS0_0.read (Elt F) (VS0_0.writes (Elt F) VS0_0.junk (kernelRun0_B c i arg2 harg2 arg3 harg3 arg4 harg4 arg5 harg5 arg6 harg6 hc0 hc1 x0 x1 x2 xs0).2.1)

/-- Case C's one store covers the output block. -/
theorem cover0_C_3 (c : Dev nD) (i : grid0.Coords) (arg2 : Memref sig .tc .vmem S1024x1024 .bf16) (harg2 : arg2.IsWhole) (arg3 : Memref sig .tc .vmem S128x1024 .bf16) (harg3 : arg3.IsWhole) (arg4 : Memref sig .tc .vmem S1024x1 .f32) (harg4 : arg4.IsWhole) (arg5 : Memref sig .tc .vmem S1024x128 .f32) (harg5 : arg5.IsWhole) (arg6 : Memref sig .tc .vmem S1024x128 .f32) (harg6 : arg6.IsWhole) (hc0 : ¬cond0_0 i) (hc1 : cond0_1 i)
    (x0 : Vec F S1024x1024 .bf16) (x1 : Vec F S128x1024 .bf16) (x2 : Vec F S1024x1 .f32) (xs0 : Vec F S1024x128 .f32) (y : S1024x128.Idx) :
    ∃ pc ∈ (kernelRun0_C c i arg2 harg2 arg3 harg3 arg4 harg4 arg5 harg5 arg6 harg6 hc0 hc1 x0 x1 x2 xs0).1, y ∈ pc.1.set :=
  View.cover_of_tiledL (kernelRun0_C c i arg2 harg2 arg3 harg3 arg4 harg4 arg5 harg5 arg6 harg6 hc0 hc1 x0 x1 x2 xs0).1 S1024x128.size (by sl_kernel_rfl) y
def out0_C_3 (c : Dev nD) (i : grid0.Coords) (arg2 : Memref sig .tc .vmem S1024x1024 .bf16) (harg2 : arg2.IsWhole) (arg3 : Memref sig .tc .vmem S128x1024 .bf16) (harg3 : arg3.IsWhole) (arg4 : Memref sig .tc .vmem S1024x1 .f32) (harg4 : arg4.IsWhole) (arg5 : Memref sig .tc .vmem S1024x128 .f32) (harg5 : arg5.IsWhole) (arg6 : Memref sig .tc .vmem S1024x128 .f32) (harg6 : arg6.IsWhole) (hc0 : ¬cond0_0 i) (hc1 : cond0_1 i)
    (x0 : Vec F S1024x1024 .bf16) (x1 : Vec F S128x1024 .bf16) (x2 : Vec F S1024x1 .f32) (xs0 : Vec F S1024x128 .f32) : Vec F S1024x128 .f32 :=
  VO0_3.read (Elt F) (VO0_3.writes (Elt F) VO0_3.junk (kernelRun0_C c i arg2 harg2 arg3 harg3 arg4 harg4 arg5 harg5 arg6 harg6 hc0 hc1 x0 x1 x2 xs0).1)
theorem scover0_C_0 (c : Dev nD) (i : grid0.Coords) (arg2 : Memref sig .tc .vmem S1024x1024 .bf16) (harg2 : arg2.IsWhole) (arg3 : Memref sig .tc .vmem S128x1024 .bf16) (harg3 : arg3.IsWhole) (arg4 : Memref sig .tc .vmem S1024x1 .f32) (harg4 : arg4.IsWhole) (arg5 : Memref sig .tc .vmem S1024x128 .f32) (harg5 : arg5.IsWhole) (arg6 : Memref sig .tc .vmem S1024x128 .f32) (harg6 : arg6.IsWhole) (hc0 : ¬cond0_0 i) (hc1 : cond0_1 i)
    (x0 : Vec F S1024x1024 .bf16) (x1 : Vec F S128x1024 .bf16) (x2 : Vec F S1024x1 .f32) (xs0 : Vec F S1024x128 .f32) (y : S1024x128.Idx) :
    ∃ pc ∈ (kernelRun0_C c i arg2 harg2 arg3 harg3 arg4 harg4 arg5 harg5 arg6 harg6 hc0 hc1 x0 x1 x2 xs0).2.1, y ∈ pc.1.set :=
  View.cover_of_tiledL (kernelRun0_C c i arg2 harg2 arg3 harg3 arg4 harg4 arg5 harg5 arg6 harg6 hc0 hc1 x0 x1 x2 xs0).2.1 S1024x128.size (by sl_kernel_rfl) y
def sout0_C_0 (c : Dev nD) (i : grid0.Coords) (arg2 : Memref sig .tc .vmem S1024x1024 .bf16) (harg2 : arg2.IsWhole) (arg3 : Memref sig .tc .vmem S128x1024 .bf16) (harg3 : arg3.IsWhole) (arg4 : Memref sig .tc .vmem S1024x1 .f32) (harg4 : arg4.IsWhole) (arg5 : Memref sig .tc .vmem S1024x128 .f32) (harg5 : arg5.IsWhole) (arg6 : Memref sig .tc .vmem S1024x128 .f32) (harg6 : arg6.IsWhole) (hc0 : ¬cond0_0 i) (hc1 : cond0_1 i)
    (x0 : Vec F S1024x1024 .bf16) (x1 : Vec F S128x1024 .bf16) (x2 : Vec F S1024x1 .f32) (xs0 : Vec F S1024x128 .f32) : Vec F S1024x128 .f32 :=
  VS0_0.read (Elt F) (VS0_0.writes (Elt F) VS0_0.junk (kernelRun0_C c i arg2 harg2 arg3 harg3 arg4 harg4 arg5 harg5 arg6 harg6 hc0 hc1 x0 x1 x2 xs0).2.1)

/-! ## The accumulation, point by point -/

/-- What the output block and the scratch hold after the body at position n (output first, scratch second). -/
def outsAt0 (c : Dev nD) : (n : ℕ) → n < cfg0.N → Vec F S1024x128 .f32 × Vec F S1024x128 .f32
  | 0, hn => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩),
      sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩))
  | n + 1, hn =>
    if h0 : (n + 1) % 4 = 0 then
      if h1 : (n + 1) % 4 = 3 then
        False.elim (by omega)
      else
        (out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩),
          sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩))
    else
      if h1 : (n + 1) % 4 = 3 then
        (out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2,
          sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2)
      else
        (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2,
          sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2)

theorem outsAt0_A (c : Dev nD) (t : Fin cfg0.N) (h0 : t.val % 4 = 0) (h1 : ¬t.val % 4 = 3) :
    outsAt0 V c t.val t.isLt = (out0_A_3 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk0 V c 0 t) (iblk0 V c 1 t) (iblk0 V c 2 t),
      sout0_A_0 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk0 V c 0 t) (iblk0 V c 1 t) (iblk0 V c 2 t)) := by
  obtain ⟨n, hn⟩ := t
  cases n with
  | zero => exact rfl
  | succ n => exact (dif_pos h0).trans ((dif_neg h1).trans rfl)

theorem outsAt0_B (c : Dev nD) (t : Fin cfg0.N) (h0 : ¬t.val % 4 = 0) (h1 : ¬t.val % 4 = 3) :
    outsAt0 V c t.val t.isLt = (out0_B_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2,
      sout0_B_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 4 = 0) (h1 : t.val % 4 = 3) :
    outsAt0 V c t.val t.isLt = (out0_C_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2,
      sout0_C_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region's invariant: the scratch carried at the running sum -/

def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ others0 c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) scM0_0 fullShare ((outsAt0 V c n hn).2) ∗ others0 c) ∗ (∃ r, prngReg c r)) := rfl
theorem PhiS_pos (c : Dev nD) (n : ℕ) (h : n ≤ cfg0.N) (hz : n ≠ 0) :
    PhiS V c n h = iprop(iprop(owns (c : Thread nD τ) scM0_0 fullShare ((outsAt0 V c (n - 1) (by omega)).2) ∗ others0 c) ∗ (∃ r, prngReg c r)) := by
  cases n with
  | zero => exact absurd rfl hz
  | succ n => rfl

/-! ## The pipeline's proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS_castSucc (c : Dev nD) (t : Fin cfg0.N) :
    (dat0 V c).Φ t.castSucc = PhiS V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point: the inputs' memrefs hold their blocks; the point's k says which case runs; the invariant
    hands the scratch over at what the point before left (at anything at the very first point) and takes it back at
    this point's running sum. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS V c (t.val + 1) t.isLt from rfl, PhiS_succ]
  have hN : t.val < 64 := lt_of_lt_of_eq t.isLt (show cfg0.N = 64 from N_0)
  by_cases h0 : t.val % 4 = 0
  · by_cases h1 : t.val % 4 = 3
    · exfalso; omega
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [Dat.leavesExact_idle (dat0 V c) 3 t (idleAt0_3 t (fun h => h1 ((hcond0_1 t).mp h))) (noFlush0_3 t (fun h => h1 ((hcond0_1 t).mp h)))]
      rw [outsAt0_A V c t h0 h1]
      unfold sout0_A_0; (try dsimp only)
      by_cases hz : t.val = 0
      · rw [PhiS_castSucc V c t, PhiS_zero V c _ _ hz, PhiA0_eq]
        iintro ⟨⟨⟨HS0, Hoth⟩, Hg⟩, Ho, ⟨%d0, H0⟩, ⟨%d1, H1⟩, ⟨%d2, H2⟩, ⟨%d3, H3⟩⟩
        iapply ((kernelRun0_A c (grid0.coords t) _ _ _ _ _ _ _ _ _ _ ((hcond0_0 t).mpr h0) (fun h => h1 ((hcond0_1 t).mp h)) (iblk0 V c 0 t) (iblk0 V c 1 t) (iblk0 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover0_A_0 c _ _ _ _ _ _ _ _ _ _ _ _ _ _ _ _)
            iexact Hoth
          iexact Hg
        isplitl [Ho]; · iexact Ho
        isplitl [H0]; · iexact H0
        isplitl [H1]; · iexact H1
        isplitl [H2]; · iexact H2
        iexists _; iexact H3
      · rw [PhiS_castSucc V c t, PhiS_pos V c _ _ hz]
        iintro ⟨⟨⟨HS0, Hoth⟩, Hg⟩, Ho, ⟨%d0, H0⟩, ⟨%d1, H1⟩, ⟨%d2, H2⟩, ⟨%d3, H3⟩⟩
        iapply ((kernelRun0_A c (grid0.coords t) _ _ _ _ _ _ _ _ _ _ ((hcond0_0 t).mpr h0) (fun h => h1 ((hcond0_1 t).mp h)) (iblk0 V c 0 t) (iblk0 V c 1 t) (iblk0 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover0_A_0 c _ _ _ _ _ _ _ _ _ _ _ _ _ _ _ _)
            iexact Hoth
          iexact Hg
        isplitl [Ho]; · iexact Ho
        isplitl [H0]; · iexact H0
        isplitl [H1]; · iexact H1
        isplitl [H2]; · iexact H2
        iexists _; iexact H3
  · by_cases h1 : t.val % 4 = 3
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t ((hcond0_1 t).mpr h1)], after0_3]
      rw [outsAt0_C V c t h0 h1]
      unfold out0_C_3 sout0_C_0; (try dsimp only)
      by_cases hz : t.val = 0
      · exfalso; omega
      · rw [PhiS_castSucc V c t, PhiS_pos V c _ _ hz]
        iintro ⟨⟨⟨HS0, Hoth⟩, Hg⟩, Ho, ⟨%d0, H0⟩, ⟨%d1, H1⟩, ⟨%d2, H2⟩, ⟨%d3, H3⟩⟩
        iapply ((kernelRun0_C c (grid0.coords t) _ _ _ _ _ _ _ _ _ _ (fun h => h0 ((hcond0_0 t).mp h)) ((hcond0_1 t).mpr h1) (iblk0 V c 0 t) (iblk0 V c 1 t) (iblk0 V c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover0_C_0 c _ _ _ _ _ _ _ _ _ _ _ _ _ _ _ _ _)
            iexact Hoth
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover0_C_3 c _ _ _ _ _ _ _ _ _ _ _ _ _ _ _ _ _)
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [Dat.leavesExact_idle (dat0 V c) 3 t (idleAt0_3 t (fun h => h1 ((hcond0_1 t).mp h))) (noFlush0_3 t (fun h => h1 ((hcond0_1 t).mp h)))]
      rw [outsAt0_B V c t h0 h1]
      unfold sout0_B_0; (try dsimp only)
      by_cases hz : t.val = 0
      · exfalso; omega
      · rw [PhiS_castSucc V c t, PhiS_pos V c _ _ hz]
        iintro ⟨⟨⟨HS0, Hoth⟩, Hg⟩, Ho, ⟨%d0, H0⟩, ⟨%d1, H1⟩, ⟨%d2, H2⟩, ⟨%d3, H3⟩⟩
        iapply ((kernelRun0_B c (grid0.coords t) _ _ _ _ _ _ _ _ _ _ (fun h => h0 ((hcond0_0 t).mp h)) (fun h => h1 ((hcond0_1 t).mp h)) (iblk0 V c 0 t) (iblk0 V c 1 t) (iblk0 V c 2 t) _).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover0_B_0 c _ _ _ _ _ _ _ _ _ _ _ _ _ _ _ _ _)
            iexact Hoth
          iexact Hg
        isplitl [Ho]; · iexact Ho
        isplitl [H0]; · iexact H0
        isplitl [H1]; · iexact H1
        isplitl [H2]; · iexact H2
        iexists _; iexact H3

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

/-- Entering the region: the class invariant is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- Leaving it: the scratch's contents are forgotten and the class invariant comes back. -/
theorem hout0 (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 64 := N_0; omega), PhiA0_eq]
  iintro ⟨⟨HS0, Hoth⟩, Hg⟩
  isplitl [HS0 Hoth]
  · isplitl [HS0]
    · iexists _; iexact HS0
    iexact Hoth
  iexact Hg

end Cert.Kernel.R0

end
-- ==== Proof.RunW.lean ====
/-
  The whole program as a chain of segments: seven stretches of host operations, the low-rank pre-pass, the main
  matrix product, and the final reshape.  Between two segments every unscoped buffer is held at contents that are
  a fold from the launch memory: a host stretch applies its operations, a pallas_call leaves its output array at
  what its write-backs leave and every other buffer as it found it.  Run from any memory, every weakly fair
  execution ends with every unscoped buffer at the last contents of that fold; the six arguments, which no
  segment writes, therefore end as launched, and the result buffer ends at the reshape of what the main product
  leaves.  Of the second region's proof data only what its body leaves in each staging buffer is a parameter here, with the body obligation as a hypothesis.
-/
import proofs.«160741_j498216206382_2_alg».proof.Proof.Gen.Kernel.Launch
import proofs.«160741_j498216206382_2_alg».proof.Proof.Gen.Kernel.Skeleton
import proofs.«160741_j498216206382_2_alg».proof.Proof.Gen.Kernel.Points
import proofs.«160741_j498216206382_2_alg».proof.Proof.Gen.Kernel.Regions
import proofs.«160741_j498216206382_2_alg».proof.Proof.R0W
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Run

open Cert.Kernel Cert.Kernel.Gen Cert.Kernel.R0
open Idealize.ShloMosaic.Pipeline (Seg HostSeg RegionSeg)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Buffer contents of the TensorCore's references, per core. -/
abbrev VT (F : FTy → Type) [FloatOps F] : Type := (c : Dev nD) → (b : Ref sig .tc) → Buf (Elt F) ((c : Thread nD τ).loc b)

-- What the main product's body leaves in each window's staging buffer at each point: the one part of its proof
-- data this module takes as a parameter.
variable (aft1 : VT F → (c : Dev nD) → (w : Fin cfg1.W) → Fin cfg1.N → (cfg1.win w).block.Idx → Elt F (cfg1.win w).elt)

/-- The main product's proof data at entry contents V: the arrays as found, the class invariant, full shares,
    nothing owed. -/
def D1 (V : VT F) (c : Dev nD) : Dat τ (Elt F) Unit ℕ (UR sig nD τ) ℕ cfg1 c where
  A w := V c (Pipeline.arrRef spec1 w)
  after := aft1 V c
  Φ _ := Pipeline.ΦA spec1 c
  q _ := fullShare
  owed _ := 0

variable (m : (ℓ : Loc nD τ sig) → Buf (Elt F) ℓ)

/-! ## The buffer contents at the regions' boundaries -/

/-- Entering the pre-pass: after the seven host stretches. -/
abbrev E7 : VT F := fun c b => V7 m c b
/-- Leaving it: its output array at what the write-backs leave, everything else as entered. -/
def W8 (c : Dev nD) : Valuation τ sig (Elt F) :=
  Pipeline.withArrays spec0 c (V7 m c) fun w => (dat0 (E7 m) c).arrAt w cfg0.N
theorem W8_arr (c : Dev nD) (w : Fin cfg0.W) :
    W8 m c (Proc.devRef .tc (Pipeline.arrRef spec0 w)) = (dat0 (E7 m) c).arrAt w cfg0.N := by
  unfold W8; exact Pipeline.withArrays_arr spec0 launch0.win.arr_inj c _ _ w
theorem W8_of_ne (c : Dev nD) (b : Ref sig .tc) (hb : ∀ w, Pipeline.arrRef spec0 w ≠ b) :
    W8 m c (Proc.devRef .tc b) = V7 m c (Proc.devRef .tc b) := by
  unfold W8; exact Pipeline.withArrays_of_ne spec0 c _ _ b hb
abbrev E8 : VT F := fun c b => W8 m c b
theorem hF0 (c : Dev nD) (w : Fin cfg0.W) : (dat0 (E7 m) c).arrAt w cfg0.N = E8 m c (Pipeline.arrRef spec0 w) :=
  (W8_arr m c w).symm
theorem hrest0 (c : Dev nD) : ∀ b, b ∉ Finset.univ.image (Pipeline.arrRef spec0) → E8 m c b = E7 m c b :=
  fun b hb => W8_of_ne m c b fun w e => hb (Finset.mem_image.mpr ⟨w, Finset.mem_univ _, e⟩)

/-- Leaving the main product: the same, from what the pre-pass left. -/
def W9 (c : Dev nD) : Valuation τ sig (Elt F) :=
  Pipeline.withArrays spec1 c (W8 m c) fun w => (D1 aft1 (E8 m) c).arrAt w cfg1.N
theorem W9_arr (c : Dev nD) (w : Fin cfg1.W) :
    W9 aft1 m c (Proc.devRef .tc (Pipeline.arrRef spec1 w)) = (D1 aft1 (E8 m) c).arrAt w cfg1.N := by
  unfold W9; exact Pipeline.withArrays_arr spec1 launch1.win.arr_inj c _ _ w
theorem W9_of_ne (c : Dev nD) (b : Ref sig .tc) (hb : ∀ w, Pipeline.arrRef spec1 w ≠ b) :
    W9 aft1 m c (Proc.devRef .tc b) = W8 m c (Proc.devRef .tc b) := by
  unfold W9; exact Pipeline.withArrays_of_ne spec1 c _ _ b hb
abbrev E9 : VT F := fun c b => W9 aft1 m c b
theorem hF1 (c : Dev nD) (w : Fin cfg1.W) : (D1 aft1 (E8 m) c).arrAt w cfg1.N = E9 aft1 m c (Pipeline.arrRef spec1 w) :=
  (W9_arr aft1 m c w).symm
theorem hrest1 (c : Dev nD) : ∀ b, b ∉ Finset.univ.image (Pipeline.arrRef spec1) → E9 aft1 m c b = E8 m c b :=
  fun b hb => W9_of_ne aft1 m c b fun w e => hb (Finset.mem_image.mpr ⟨w, Finset.mem_univ _, e⟩)

/-- At the end: after the final reshape. -/
abbrev W10 (c : Dev nD) : Valuation τ sig (Elt F) := StableHlo.after hostOps2 (W9 aft1 m c)

/-! ## No segment writes an argument -/

theorem W10_main_arg0 (c : Dev nD) : W10 aft1 m c main_arg0 = m ((c : Thread nD τ).loc main_arg0) :=
  (StableHlo.after_of_writes_sub hostOps2 _ hostOps2_writes (by decide : main_arg0 ∉ hostOps2_W)).trans <|
    (W9_of_ne aft1 m c main_arg0 (by decide)).trans <| (W8_of_ne m c main_arg0 (by decide)).trans <|
    (V7_of m c main_arg0 (by decide)).trans <| (V6_of m c main_arg0 (by decide)).trans <| (V5_of m c main_arg0 (by decide)).trans <|
    (V4_of m c main_arg0 (by decide)).trans <| (V3_of m c main_arg0 (by decide)).trans <| (V2_of m c main_arg0 (by decide)).trans <|
    (V1_of m c main_arg0 (by decide)).trans rfl
theorem W10_main_arg1 (c : Dev nD) : W10 aft1 m c main_arg1 = m ((c : Thread nD τ).loc main_arg1) :=
  (StableHlo.after_of_writes_sub hostOps2 _ hostOps2_writes (by decide : main_arg1 ∉ hostOps2_W)).trans <|
    (W9_of_ne aft1 m c main_arg1 (by decide)).trans <| (W8_of_ne m c main_arg1 (by decide)).trans <|
    (V7_of m c main_arg1 (by decide)).trans <| (V6_of m c main_arg1 (by decide)).trans <| (V5_of m c main_arg1 (by decide)).trans <|
    (V4_of m c main_arg1 (by decide)).trans <| (V3_of m c main_arg1 (by decide)).trans <| (V2_of m c main_arg1 (by decide)).trans <|
    (V1_of m c main_arg1 (by decide)).trans rfl
theorem W10_main_arg2 (c : Dev nD) : W10 aft1 m c main_arg2 = m ((c : Thread nD τ).loc main_arg2) :=
  (StableHlo.after_of_writes_sub hostOps2 _ hostOps2_writes (by decide : main_arg2 ∉ hostOps2_W)).trans <|
    (W9_of_ne aft1 m c main_arg2 (by decide)).trans <| (W8_of_ne m c main_arg2 (by decide)).trans <|
    (V7_of m c main_arg2 (by decide)).trans <| (V6_of m c main_arg2 (by decide)).trans <| (V5_of m c main_arg2 (by decide)).trans <|
    (V4_of m c main_arg2 (by decide)).trans <| (V3_of m c main_arg2 (by decide)).trans <| (V2_of m c main_arg2 (by decide)).trans <|
    (V1_of m c main_arg2 (by decide)).trans rfl
theorem W10_main_arg3 (c : Dev nD) : W10 aft1 m c main_arg3 = m ((c : Thread nD τ).loc main_arg3) :=
  (StableHlo.after_of_writes_sub hostOps2 _ hostOps2_writes (by decide : main_arg3 ∉ hostOps2_W)).trans <|
    (W9_of_ne aft1 m c main_arg3 (by decide)).trans <| (W8_of_ne m c main_arg3 (by decide)).trans <|
    (V7_of m c main_arg3 (by decide)).trans <| (V6_of m c main_arg3 (by decide)).trans <| (V5_of m c main_arg3 (by decide)).trans <|
    (V4_of m c main_arg3 (by decide)).trans <| (V3_of m c main_arg3 (by decide)).trans <| (V2_of m c main_arg3 (by decide)).trans <|
    (V1_of m c main_arg3 (by decide)).trans rfl
theorem W10_main_arg4 (c : Dev nD) : W10 aft1 m c main_arg4 = m ((c : Thread nD τ).loc main_arg4) :=
  (StableHlo.after_of_writes_sub hostOps2 _ hostOps2_writes (by decide : main_arg4 ∉ hostOps2_W)).trans <|
    (W9_of_ne aft1 m c main_arg4 (by decide)).trans <| (W8_of_ne m c main_arg4 (by decide)).trans <|
    (V7_of m c main_arg4 (by decide)).trans <| (V6_of m c main_arg4 (by decide)).trans <| (V5_of m c main_arg4 (by decide)).trans <|
    (V4_of m c main_arg4 (by decide)).trans <| (V3_of m c main_arg4 (by decide)).trans <| (V2_of m c main_arg4 (by decide)).trans <|
    (V1_of m c main_arg4 (by decide)).trans rfl
theorem W10_main_arg5 (c : Dev nD) : W10 aft1 m c main_arg5 = m ((c : Thread nD τ).loc main_arg5) :=
  (StableHlo.after_of_writes_sub hostOps2 _ hostOps2_writes (by decide : main_arg5 ∉ hostOps2_W)).trans <|
    (W9_of_ne aft1 m c main_arg5 (by decide)).trans <| (W8_of_ne m c main_arg5 (by decide)).trans <|
    (V7_of m c main_arg5 (by decide)).trans <| (V6_of m c main_arg5 (by decide)).trans <| (V5_of m c main_arg5 (by decide)).trans <|
    (V4_of m c main_arg5 (by decide)).trans <| (V3_of m c main_arg5 (by decide)).trans <| (V2_of m c main_arg5 (by decide)).trans <|
    (V1_of m c main_arg5 (by decide)).trans rfl

/-! ## The proof data family and the thread state -/

/-- Both pipelines' proof data, each at its region's entry contents. -/
def pdats : (p : Fin 2) → (c : Dev nD) → Dat τ (Elt F) Unit ℕ (UR sig nD τ) ℕ (Pipeline.pin (pcfgs (F := F)) adm p) c
  | ⟨0, _⟩ => fun c => dat0 (E7 m) c
  | ⟨1, _⟩ => fun c => D1 aft1 (E8 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev ER : Fin 3 → Dev nD → sProp 𝕄 := fun _ => R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W10 aft1 m c) ∗ ∃ r, prngReg c r)

variable (hB1 : ∀ V c, BodyObligation (D1 aft1 V c) (defs₀ (F := F)) Variants.none () Set.univ)

/-! ## The regions as segments -/

/-- The generator register and the scoped buffers the pre-pass does not stage make the class invariant, -/
theorem hΦin0 (c : Dev nD) :
    iprop((∃ r, prngReg c r) ∗ Pipeline.prefHeld (Ix := Unit) (Name := ℕ) (U := UR sig nD τ) (Lvl := ℕ) (pcfgs (F := F) 0).pre c (fun _ => fullShare) (adm (F := F) 0).1
        ∗ Pipeline.scopedRest (Ix := Unit) (Name := ℕ) (U := UR sig nD τ) (Lvl := ℕ) (Val := Elt F) spec0 c)
      ⊢ (Pipeline.ΦA spec0 c : sProp 𝕄) := by
  unfold Pipeline.ΦA
  iintro ⟨Hp, -, Hr⟩
  isplitl [Hr]; · iexact Hr
  iexact Hp
/-- and the class invariant gives them back. -/
theorem hΦout0 (c : Dev nD) :
    (Pipeline.ΦA spec0 c : sProp 𝕄)
      ⊢ iprop((∃ r, prngReg c r) ∗ BI.emp ∗ Pipeline.scopedRest (Ix := Unit) (Name := ℕ) (U := UR sig nD τ) (Lvl := ℕ) (Val := Elt F) spec0 c) := by
  unfold Pipeline.ΦA
  iintro ⟨Hr, Hp⟩
  isplitl [Hp]; · iexact Hp
  isplitr; · iempintro
  iexact Hr

set_option backward.isDefEq.respectTransparency.types false in
/-- The pre-pass over the thread state: its arrays split out of the unscoped buffers and put back at the exit
    contents; the generator register and the scoped rest into its invariant and out. -/
def reg0 : Pipeline.RegionSeg (pcfgs (F := F)) adm (pdats aft1 m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E7 m) c).loose
  hwaits := Pipeline.hwaits_of_owed_zero _ _ _ _ L lv 0 fun _ _ => rfl
  pre c := iprop(StableHlo.held (c : Thread nD τ) (Pipeline.ucRefs τ sig) (V7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec0 c (E7 m c)
  hentry c := by
    rw [Pipeline.ownSems0_none]
    have hsplit := Pipeline.arrays_of_unscopedBufs (p := 0) (pcfgs (F := F)) adm (pdats aft1 m) launch0.win launch0.arr_whole c
      ((pdats aft1 m 0 c).share_full fun _ => rfl) (E7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (hΦin0 c).trans (hin0 (E7 m) c)
  hout c := by
    rw [Pipeline.ownSems0_none]
    exact (hout0 (E7 m) c).trans (hΦout0 c)
  hexit c := by
    have hjoin := Pipeline.unscopedBufs_of_arrays (p := 0) (pcfgs (F := F)) adm (Ix := Unit) (Name := ℕ) (U := UR sig nD τ) (Lvl := ℕ)
      launch0.win launch0.arr_whole c (pdats aft1 m) ((pdats aft1 m 0 c).share_full fun _ => rfl)
      (E7 m c) (E8 m c) ((pdats aft1 m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The main product over the thread state, in the same way; its invariant is the class's throughout. -/
def reg1 : Pipeline.RegionSeg (pcfgs (F := F)) adm (pdats aft1 m) () defs₀ 𝒱₀ L lv 1 where
  win := launch1.win.to₀
  block_pos := launch1.block_pos
  stage_whole := launch1.stage_whole
  K := PEmpty
  osem k := k.elim
  ho := Pipeline.OwnSemFacts.none _
  hbody c := (hB1 (E8 m) c).loose
  hwaits := Pipeline.hwaits_of_owed_zero _ _ _ _ L lv 1 fun _ _ => rfl
  pre c := iprop(StableHlo.held (c : Thread nD τ) (Pipeline.ucRefs τ sig) (W8 m c) ∗ R c)
  post c := iprop(StableHlo.held (c : Thread nD τ) (Pipeline.ucRefs τ sig) (W9 aft1 m c) ∗ R c)
  X c := iprop(∃ r, prngReg c r)
  Y c := iprop(∃ r, prngReg c r)
  Z c := Pipeline.unscopedRest (Ix := Unit) (Name := ℕ) (U := UR sig nD τ) (Lvl := ℕ) spec1 c (E8 m c)
  hentry c := by
    rw [Pipeline.ownSems0_none]
    have hsplit := Pipeline.arrays_of_unscopedBufs (p := 1) (pcfgs (F := F)) adm (pdats aft1 m) launch1.win launch1.arr_whole c
      ((pdats aft1 m 1 c).share_full fun _ => rfl) (E8 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats aft1 m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats aft1 m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats aft1 m) ((pdats aft1 m 1 c).share_full fun _ => rfl)
      (E8 m c) (E9 aft1 m c) ((pdats aft1 m 1 c).arrAt · cfg1.N) (hF1 aft1 m c) (hrest1 aft1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The final reshape as a host segment from what the main product left. -/
def seg9' : HostSeg (Ix := Unit) (Name := ℕ) (U := UR sig nD τ) (Lvl := ℕ) (pcfgs (F := F)) defs₀ 𝒱₀ L lv :=
  HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (W9 aft1 m) R

/-- The ten segments in order. -/
abbrev segs (c : Dev nD) : List (Seg (pcfgs (F := F)) adm (pdats aft1 m) () defs₀ 𝒱₀ L lv) :=
  [.host (seg0 m 𝒱₀ L lv ER), .host (seg1 m 𝒱₀ L lv ER), .host (seg2 m 𝒱₀ L lv ER), .host (seg3 m 𝒱₀ L lv ER),
   .host (seg4 m 𝒱₀ L lv ER), .host (seg5 m 𝒱₀ L lv ER), .host (seg6 m 𝒱₀ L lv ER),
   .region (reg0 aft1 m), .region (reg1 aft1 m hB1), .host (seg9' aft1 m)]

/-! ## The launch -/

/-- The last thread state: the generator register beside the buffers, and nothing owed. -/
theorem hlast (c : Dev nD) :
    iprop(StableHlo.held (c : Thread nD τ) (Pipeline.ucRefs τ sig) (W10 aft1 m c) ∗ R (F := F) c)
      ⊢ iprop(Tₙ aft1 m c ∗ ∃ W, owes (c : Thread nD τ) (0 : CellTallies nD τ sig Unit) W) := by
  iintro ⟨Hh, Hp, Ho⟩
  isplitr [Ho]
  · isplitl [Hh]; · iexact Hh
    iexact Hp
  iexact Ho

include hB1

set_option backward.isDefEq.respectTransparency.types false in
/-- From any memory with zero counters every weakly fair execution terminates, nothing faulting, and every final
    state holds every unscoped buffer at the last contents of the fold. -/
theorem run_all (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = W10 aft1 m c b) := by
  refine Pipeline.θ_run_regions_kit_dev (pcfgs (F := F)) adm (pdats aft1 m) () cellOf_inj emb₁ defs₀ 𝒱₀ L lv m ρ main
    (segs aft1 m hB1)
    (fun c Q => by
      rewrite [main_chain c, Seg.run_eq_chain,
        show (segs aft1 m hB1 c).map Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          Prog.lift (.customCall (Pipeline.entry 0) ()),
          Prog.lift (.customCall (Pipeline.entry 1) ()),
          StableHlo.seq hostOps2 ] from rfl]
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c)) (Tₙ := Tₙ aft1 m)
    (hch := fun c => ⟨.rfl, .rfl, .rfl, .rfl, .rfl, .rfl, .rfl, .rfl, .rfl, .rfl, hlast aft1 m c⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 aft1 m c b)
    (hfin := fun c s' => by
      iintro ⟨⟨Hh, -⟩, HSI⟩
      unfold StableHlo.held
      imodintro
      iapply (pointsTo_read_all (Pipeline.ucRefs τ sig) (fun b => (((c : Thread nD τ)).1, b)) (W10 aft1 m c) s')
      isplitl [Hh] <;> iassumption)
    (hQ := fun s h => h)

/-- The frame claim's post: each argument ends as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_arg0 (by decide))).trans (W10_main_arg0 aft1 m c),
     (h c _ (mem_uc main_arg1 (by decide))).trans (W10_main_arg1 aft1 m c),
     (h c _ (mem_uc main_arg2 (by decide))).trans (W10_main_arg2 aft1 m c),
     (h c _ (mem_uc main_arg3 (by decide))).trans (W10_main_arg3 aft1 m c),
     (h c _ (mem_uc main_arg4 (by decide))).trans (W10_main_arg4 aft1 m c),
     (h c _ (mem_uc main_arg5 (by decide))).trans (W10_main_arg5 aft1 m c)⟩) (run_all aft1 m hB1 ρ)

/-- The same run with the result buffer named: it ends at the fold's last contents of it. -/
theorem run_value (ρ : Dev nD → PrngReg) :
    θ_run defs (onTc (τ := τ) (main (F := F))) ⟨m, fun _ => 0, ρ⟩ (fun r => ∀ c : Dev nD,
      r.2.mem ((c.tc : Thread nD τ).loc main_v22) = W10 aft1 m c main_v22
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨h c _ (mem_uc main_v22 (by decide)),
     (h c _ (mem_uc main_arg0 (by decide))).trans (W10_main_arg0 aft1 m c),
     (h c _ (mem_uc main_arg1 (by decide))).trans (W10_main_arg1 aft1 m c),
     (h c _ (mem_uc main_arg2 (by decide))).trans (W10_main_arg2 aft1 m c),
     (h c _ (mem_uc main_arg3 (by decide))).trans (W10_main_arg3 aft1 m c),
     (h c _ (mem_uc main_arg4 (by decide))).trans (W10_main_arg4 aft1 m c),
     (h c _ (mem_uc main_arg5 (by decide))).trans (W10_main_arg5 aft1 m c)⟩) (run_all aft1 m hB1 ρ)

end Cert.Kernel.Run

end
-- ==== Proof.R1RunA.lean ====
/- The second pipelined region (the main matmul kernel, grid 16 x 4 x 4): what its three case runs share, and the run of the case k = 0.
   The block of each window at a point, read off the array as the region finds it; the two branch
   conditions of the body in closed form over the grid (the reduction index is k = t mod 4; the first
   holds exactly at k = 0, the second exactly at k = 3); the staging memrefs at a point. -/
import proofs.«160741_j498216206382_2_alg».proof.Proof.Gen.KernelIdeal.Launch
import proofs.«160741_j498216206382_2_alg».proof.Proof.Gen.KernelIdeal.Skeleton
import proofs.«160741_j498216206382_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered: the parameter the region's half is stated at
variable (V : (c : Dev nD) → (b : Ref sig .tc) → Buf (Elt F) ((c : Thread nD τ).loc b))

/-! ## The windows' blocks -/

/-- Window `w`'s block at point `t`: the rectangle of its array that the index map selects there, read off the
    array's contents at region entry. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input window's staging buffer holds its block at every point, whether the block was fetched there or the
    index map did not move since the point before (then the block is the same one), for any proof data whose array
    is the entry contents and whose body leaves the block in place. One statement per input window. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The first conditional of the body: the reduction index (grid coordinate 2) is 0. -/
abbrev cond1_0 (i : grid1.Coords) : Prop := (Scalar.cmpi .ne (Scalar.extui (Scalar.cmpi .eq (BitVec.ofNat 32 (i 2).val) 0#32)) 0#32) = 1#1
/-- It holds exactly at the points t with t mod 4 = 0 (the last grid axis has extent 4 and moves fastest). -/
theorem hcond1_0 : ∀ t : Fin cfg1.N, cond1_0 (grid1.coords t) ↔ t.val % 4 = 0 :=
  (by decide +kernel : ∀ t : Fin grid1.N, cond1_0 (grid1.coords t) ↔ t.val % 4 = 0)

/-- The second conditional of the body: the reduction index is 3, the last. -/
abbrev cond1_1 (i : grid1.Coords) : Prop := (Scalar.cmpi .ne (Scalar.extui (Scalar.cmpi .eq (BitVec.ofNat 32 (i 2).val) 3#32)) 0#32) = 1#1
/-- It holds exactly at the points t with t mod 4 = 3. -/
theorem hcond1_1 : ∀ t : Fin cfg1.N, cond1_1 (grid1.coords t) ↔ t.val % 4 = 3 :=
  (by decide +kernel : ∀ t : Fin grid1.N, cond1_1 (grid1.coords t) ↔ t.val % 4 = 3)

/-! ## The staging memrefs -/

/-- One staging buffer of the output window, through which its contents are stated (stores that cover the block
    read back the same through any whole view). -/
abbrev VO1_5 : View sig .tc .vmem S1024x1024 .f32 := (Memref.whole cc1_stg5_0 : Memref sig .tc .vmem S1024x1024 .f32).view
/-- Each window's current staging memref at point `t`, as the pipeline passes it to the body, and its wholeness. -/
abbrev ms1_0 (t : Fin cfg1.N) : Memref sig .tc .vmem S1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x128 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1024 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1024x1024 .f32 := win1_5.stage (cfg1.slots t 5)
abbrev hs1_5 (t : Fin cfg1.N) : (ms1_5 t).IsWhole := hstage1_5 ((cfg1.slots t 5).cast nbuf1_5)

set_option maxHeartbeats 4000000 in
/-- CASE k = 0 (first conditional taken, second not). On whole staging memrefs, the inputs' at their contents and the output's at anything, the body runs to the continuation holding the inputs' as they were and the output's buffer with the stores of this case written: the zero block, then the zero block plus the product of the two bf16 blocks. The list of pieces (last store first) is the witness the symbolic run finds. -/
noncomputable def kernelRun1_A (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x128 .f32) (harg5 : arg5.IsWhole) (arg6 : Memref sig .tc .vmem S1024x128 .bf16) (harg6 : arg6.IsWhole) (arg7 : Memref sig .tc .vmem S1x1024 .f32) (harg7 : arg7.IsWhole) (arg8 : Memref sig .tc .vmem S1024x1024 .f32) (harg8 : arg8.IsWhole) (hc0 : cond1_0 i) (hc1 : ¬cond1_1 i)
    (x0 : Vec F S1024x1024 .bf16) (x1 : Vec F S1024x1024 .bf16) (x2 : Vec F S1024x128 .f32) (x3 : Vec F S1024x128 .bf16) (x4 : Vec F S1x1024 .f32) :
    { L5 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5)) -∗ K ⟨⟩))
          ⊢ wp frame (wpE (defs₀ (F := F)) Variants.none c none) E (cc1__main_kernel i arg3 harg3 arg4 harg4 arg5 harg5 arg6 harg6 arg7 harg7 arg8 harg8) K } := by
  refine ⟨?_, fun E K => ?run⟩
  case run =>
    simp only [cc1__main_kernel_eq_skeleton]; unfold cc1__main_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
    obtain rfl := harg3.eq_unread hf0; obtain rfl := harg4.eq_unread hf1; obtain rfl := harg5.eq_unread hf2
    obtain rfl := harg6.eq_unread hf3; obtain rfl := harg7.eq_unread hf4
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact H5

end Cert.KernelIdeal.R1

end
-- ==== Proof.R1RunB.lean ====
/- The main matmul kernel's run in the case k = 1, 2 (neither conditional taken): accumulate only. -/
import proofs.«160741_j498216206382_2_alg».proof.Proof.R1RunA

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- CASE k = 1, 2 (neither conditional taken). On whole staging memrefs, the inputs' at their contents and the output's at its running contents `xo5` (what the point before left), the body runs to the continuation holding the inputs' as they were and the output's buffer with the one store of this case written: the running contents plus the product of the two bf16 blocks. -/
noncomputable def kernelRun1_B (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x128 .f32) (harg5 : arg5.IsWhole) (arg6 : Memref sig .tc .vmem S1024x128 .bf16) (harg6 : arg6.IsWhole) (arg7 : Memref sig .tc .vmem S1x1024 .f32) (harg7 : arg7.IsWhole) (arg8 : Memref sig .tc .vmem S1024x1024 .f32) (harg8 : arg8.IsWhole) (hc0 : ¬cond1_0 i) (hc1 : ¬cond1_1 i)
    (x0 : Vec F S1024x1024 .bf16) (x1 : Vec F S1024x1024 .bf16) (x2 : Vec F S1024x128 .f32) (x3 : Vec F S1024x128 .bf16) (x4 : Vec F S1x1024 .f32) (xo5 : Vec F S1024x1024 .f32) :
    { L5 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xo5
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5)) -∗ K ⟨⟩))
          ⊢ wp frame (wpE (defs₀ (F := F)) Variants.none c none) E (cc1__main_kernel i arg3 harg3 arg4 harg4 arg5 harg5 arg6 harg6 arg7 harg7 arg8 harg8) K } := by
  refine ⟨?_, fun E K => ?run⟩
  case run =>
    simp only [cc1__main_kernel_eq_skeleton]; unfold cc1__main_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
    obtain rfl := harg3.eq_unread hf0; obtain rfl := harg4.eq_unread hf1; obtain rfl := harg5.eq_unread hf2
    obtain rfl := harg6.eq_unread hf3; obtain rfl := harg7.eq_unread hf4; obtain rfl := harg8.eq_unread hf5
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact H5

end Cert.KernelIdeal.R1

end
-- ==== Proof.R1RunC.lean ====
/- The main matmul kernel's run in the case k = 3 (second conditional taken): accumulate, then add the bias row and the low-rank product. -/
import proofs.«160741_j498216206382_2_alg».proof.Proof.R1RunB

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- CASE k = 3 (second conditional taken). On whole staging memrefs, the inputs' at their contents and the output's at its running contents `xo5`, the body runs to the continuation holding the inputs' as they were and the output's buffer with the two stores of this case written: the running contents plus the product of the two bf16 blocks, then that plus (the bias row broadcast down the rows plus the product of the truncated h block with the padded low-rank block). -/
noncomputable def kernelRun1_C (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x128 .f32) (harg5 : arg5.IsWhole) (arg6 : Memref sig .tc .vmem S1024x128 .bf16) (harg6 : arg6.IsWhole) (arg7 : Memref sig .tc .vmem S1x1024 .f32) (harg7 : arg7.IsWhole) (arg8 : Memref sig .tc .vmem S1024x1024 .f32) (harg8 : arg8.IsWhole) (hc0 : ¬cond1_0 i) (hc1 : cond1_1 i)
    (x0 : Vec F S1024x1024 .bf16) (x1 : Vec F S1024x1024 .bf16) (x2 : Vec F S1024x128 .f32) (x3 : Vec F S1024x128 .bf16) (x4 : Vec F S1x1024 .f32) (xo5 : Vec F S1024x1024 .f32) :
    { L5 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xo5
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5)) -∗ K ⟨⟩))
          ⊢ wp frame (wpE (defs₀ (F := F)) Variants.none c none) E (cc1__main_kernel i arg3 harg3 arg4 harg4 arg5 harg5 arg6 harg6 arg7 harg7 arg8 harg8) K } := by
  refine ⟨?_, fun E K => ?run⟩
  case run =>
    simp only [cc1__main_kernel_eq_skeleton]; unfold cc1__main_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
    obtain rfl := harg3.eq_unread hf0; obtain rfl := harg4.eq_unread hf1; obtain rfl := harg5.eq_unread hf2
    obtain rfl := harg6.eq_unread hf3; obtain rfl := harg7.eq_unread hf4; obtain rfl := harg8.eq_unread hf5
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact H5

end Cert.KernelIdeal.R1

end
-- ==== Proof.R1.lean ====
/- The second pipelined region (the main matmul kernel) at a parameter V, the buffer contents at region entry:
   what its output block holds after each grid point, the region's proof data, and the body obligation.
   The grid is 16 x 4 x 4 with the reduction axis k fastest, so the point t has k = t mod 4. At k = 0 the body
   resets the output block and accumulates the first partial product; at k = 1, 2 it accumulates onto what the
   point before left (the block is not written back in between); at k = 3 it accumulates and then adds the bias
   row and the low-rank product, and only then is the block written back. -/
import proofs.«160741_j498216206382_2_alg».proof.Proof.R1RunC

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered: the parameter the region's half is stated at
variable (V : (c : Dev nD) → (b : Ref sig .tc) → Buf (Elt F) ((c : Thread nD τ).loc b))

/-! ## What each case leaves in the output window's buffer -/

/-- The pieces of the case k = 0 tile the output block (2 whole-block stores; checked by evaluating the tiling test on the list of rectangles), so they cover it. -/
theorem cover1_A_5 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x128 .f32) (harg5 : arg5.IsWhole) (arg6 : Memref sig .tc .vmem S1024x128 .bf16) (harg6 : arg6.IsWhole) (arg7 : Memref sig .tc .vmem S1x1024 .f32) (harg7 : arg7.IsWhole) (arg8 : Memref sig .tc .vmem S1024x1024 .f32) (harg8 : arg8.IsWhole) (hc0 : cond1_0 i) (hc1 : ¬cond1_1 i)
    (x0 : Vec F S1024x1024 .bf16) (x1 : Vec F S1024x1024 .bf16) (x2 : Vec F S1024x128 .f32) (x3 : Vec F S1024x128 .bf16) (x4 : Vec F S1x1024 .f32) (y : S1024x1024.Idx) :
    ∃ pc ∈ (kernelRun1_A c i arg3 harg3 arg4 harg4 arg5 harg5 arg6 harg6 arg7 harg7 arg8 harg8 hc0 hc1 x0 x1 x2 x3 x4).1, y ∈ pc.1.set :=
  View.cover_of_tiledL (kernelRun1_A c i arg3 harg3 arg4 harg4 arg5 harg5 arg6 harg6 arg7 harg7 arg8 harg8 hc0 hc1 x0 x1 x2 x3 x4).1 S1024x1024.size (by sl_kernel_rfl) y

/-- What the case k = 0 leaves in the output's staging buffer: its pieces read back (over arbitrary prior contents, which a cover hides). -/
def out1_A_5 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x128 .f32) (harg5 : arg5.IsWhole) (arg6 : Memref sig .tc .vmem S1024x128 .bf16) (harg6 : arg6.IsWhole) (arg7 : Memref sig .tc .vmem S1x1024 .f32) (harg7 : arg7.IsWhole) (arg8 : Memref sig .tc .vmem S1024x1024 .f32) (harg8 : arg8.IsWhole) (hc0 : cond1_0 i) (hc1 : ¬cond1_1 i)
    (x0 : Vec F S1024x1024 .bf16) (x1 : Vec F S1024x1024 .bf16) (x2 : Vec F S1024x128 .f32) (x3 : Vec F S1024x128 .bf16) (x4 : Vec F S1x1024 .f32) : Vec F S1024x1024 .f32 :=
  VO1_5.read (Elt F) (VO1_5.writes (Elt F) VO1_5.junk (kernelRun1_A c i arg3 harg3 arg4 harg4 arg5 harg5 arg6 harg6 arg7 harg7 arg8 harg8 hc0 hc1 x0 x1 x2 x3 x4).1)

/-- The pieces of the case k = 1, 2 tile the output block (1 whole-block store; checked by evaluating the tiling test on the list of rectangles), so they cover it. -/
theorem cover1_B_5 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x128 .f32) (harg5 : arg5.IsWhole) (arg6 : Memref sig .tc .vmem S1024x128 .bf16) (harg6 : arg6.IsWhole) (arg7 : Memref sig .tc .vmem S1x1024 .f32) (harg7 : arg7.IsWhole) (arg8 : Memref sig .tc .vmem S1024x1024 .f32) (harg8 : arg8.IsWhole) (hc0 : ¬cond1_0 i) (hc1 : ¬cond1_1 i)
    (x0 : Vec F S1024x1024 .bf16) (x1 : Vec F S1024x1024 .bf16) (x2 : Vec F S1024x128 .f32) (x3 : Vec F S1024x128 .bf16) (x4 : Vec F S1x1024 .f32) (xo5 : Vec F S1024x1024 .f32) (y : S1024x1024.Idx) :
    ∃ pc ∈ (kernelRun1_B c i arg3 harg3 arg4 harg4 arg5 harg5 arg6 harg6 arg7 harg7 arg8 harg8 hc0 hc1 x0 x1 x2 x3 x4 xo5).1, y ∈ pc.1.set :=
  View.cover_of_tiledL (kernelRun1_B c i arg3 harg3 arg4 harg4 arg5 harg5 arg6 harg6 arg7 harg7 arg8 harg8 hc0 hc1 x0 x1 x2 x3 x4 xo5).1 S1024x1024.size (by sl_kernel_rfl) y

/-- What the case k = 1, 2 leaves in the output's staging buffer: its pieces read back (over arbitrary prior contents, which a cover hides). -/
def out1_B_5 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x128 .f32) (harg5 : arg5.IsWhole) (arg6 : Memref sig .tc .vmem S1024x128 .bf16) (harg6 : arg6.IsWhole) (arg7 : Memref sig .tc .vmem S1x1024 .f32) (harg7 : arg7.IsWhole) (arg8 : Memref sig .tc .vmem S1024x1024 .f32) (harg8 : arg8.IsWhole) (hc0 : ¬cond1_0 i) (hc1 : ¬cond1_1 i)
    (x0 : Vec F S1024x1024 .bf16) (x1 : Vec F S1024x1024 .bf16) (x2 : Vec F S1024x128 .f32) (x3 : Vec F S1024x128 .bf16) (x4 : Vec F S1x1024 .f32) (xo5 : Vec F S1024x1024 .f32) : Vec F S1024x1024 .f32 :=
  VO1_5.read (Elt F) (VO1_5.writes (Elt F) VO1_5.junk (kernelRun1_B c i arg3 harg3 arg4 harg4 arg5 harg5 arg6 harg6 arg7 harg7 arg8 harg8 hc0 hc1 x0 x1 x2 x3 x4 xo5).1)

/-- The pieces of the case k = 3 tile the output block (2 whole-block stores; checked by evaluating the tiling test on the list of rectangles), so they cover it. -/
theorem cover1_C_5 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x128 .f32) (harg5 : arg5.IsWhole) (arg6 : Memref sig .tc .vmem S1024x128 .bf16) (harg6 : arg6.IsWhole) (arg7 : Memref sig .tc .vmem S1x1024 .f32) (harg7 : arg7.IsWhole) (arg8 : Memref sig .tc .vmem S1024x1024 .f32) (harg8 : arg8.IsWhole) (hc0 : ¬cond1_0 i) (hc1 : cond1_1 i)
    (x0 : Vec F S1024x1024 .bf16) (x1 : Vec F S1024x1024 .bf16) (x2 : Vec F S1024x128 .f32) (x3 : Vec F S1024x128 .bf16) (x4 : Vec F S1x1024 .f32) (xo5 : Vec F S1024x1024 .f32) (y : S1024x1024.Idx) :
    ∃ pc ∈ (kernelRun1_C c i arg3 harg3 arg4 harg4 arg5 harg5 arg6 harg6 arg7 harg7 arg8 harg8 hc0 hc1 x0 x1 x2 x3 x4 xo5).1, y ∈ pc.1.set :=
  View.cover_of_tiledL (kernelRun1_C c i arg3 harg3 arg4 harg4 arg5 harg5 arg6 harg6 arg7 harg7 arg8 harg8 hc0 hc1 x0 x1 x2 x3 x4 xo5).1 S1024x1024.size (by sl_kernel_rfl) y

/-- What the case k = 3 leaves in the output's staging buffer: its pieces read back (over arbitrary prior contents, which a cover hides). -/
def out1_C_5 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x128 .f32) (harg5 : arg5.IsWhole) (arg6 : Memref sig .tc .vmem S1024x128 .bf16) (harg6 : arg6.IsWhole) (arg7 : Memref sig .tc .vmem S1x1024 .f32) (harg7 : arg7.IsWhole) (arg8 : Memref sig .tc .vmem S1024x1024 .f32) (harg8 : arg8.IsWhole) (hc0 : ¬cond1_0 i) (hc1 : cond1_1 i)
    (x0 : Vec F S1024x1024 .bf16) (x1 : Vec F S1024x1024 .bf16) (x2 : Vec F S1024x128 .f32) (x3 : Vec F S1024x128 .bf16) (x4 : Vec F S1x1024 .f32) (xo5 : Vec F S1024x1024 .f32) : Vec F S1024x1024 .f32 :=
  VO1_5.read (Elt F) (VO1_5.writes (Elt F) VO1_5.junk (kernelRun1_C c i arg3 harg3 arg4 harg4 arg5 harg5 arg6 harg6 arg7 harg7 arg8 harg8 hc0 hc1 x0 x1 x2 x3 x4 xo5).1)

/-! ## What the output block holds after each point -/

/-- THE ACCUMULATION. What the output window's staging buffer holds after the body at position `n`: the case that
    n mod 4 selects, run at the point's memrefs and input blocks; for k ≠ 0 over what this function gives at `n - 1`
    (the buffer is not written back between). No n has both n mod 4 = 0 and n mod 4 = 3. -/
def outsAt1 (c : Dev nD) : (n : ℕ) → n < cfg1.N → Vec F S1024x1024 .f32
  | 0, hn => out1_A_5 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩)
  | n + 1, hn =>
    if h0 : (n + 1) % 4 = 0 then
      if h1 : (n + 1) % 4 = 3 then
        False.elim (by omega)
      else
        out1_A_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩)
    else
      if h1 : (n + 1) % 4 = 3 then
        out1_C_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn))
      else
        out1_B_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn))

/-- At a point with k = 0: the reset-and-accumulate contents. -/
theorem outsAt1_A (c : Dev nD) (t : Fin cfg1.N) (h0 : t.val % 4 = 0) (h1 : ¬t.val % 4 = 3) :
    outsAt1 V c t.val t.isLt = out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) ((hcond1_0 t).mpr h0) (fun h => h1 ((hcond1_1 t).mp h)) (iblk1 V c 0 t) (iblk1 V c 1 t) (iblk1 V c 2 t) (iblk1 V c 3 t) (iblk1 V c 4 t) := by
  obtain ⟨n, hn⟩ := t
  cases n with
  | zero => exact rfl
  | succ n => exact (dif_pos h0).trans ((dif_neg h1).trans rfl)

/-- At a point with k = 1, 2: the accumulate contents, over what the point before left. -/
theorem outsAt1_B (c : Dev nD) (t : Fin cfg1.N) (h0 : ¬t.val % 4 = 0) (h1 : ¬t.val % 4 = 3) :
    outsAt1 V c t.val t.isLt = out1_B_5 c (grid1.coords t) (ms1_0 t) (hs1_0 t) (ms1_1 t) (hs1_1 t) (ms1_2 t) (hs1_2 t) (ms1_3 t) (hs1_3 t) (ms1_4 t) (hs1_4 t) (ms1_5 t) (hs1_5 t) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

/-- At a point with k = 3: the accumulate-and-finish contents, over what the point before left. -/
theorem outsAt1_C (c : Dev nD) (t : Fin cfg1.N) (h0 : ¬t.val % 4 = 0) (h1 : t.val % 4 = 3) :
    outsAt1 V c t.val t.isLt = out1_C_5 c (grid1.coords t) (ms1_0 t) (hs1_0 t) (ms1_1 t) (hs1_1 t) (ms1_2 t) (hs1_2 t) (ms1_3 t) (hs1_3 t) (ms1_4 t) (hs1_4 t) (ms1_5 t) (hs1_5 t) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-! ## The region's proof data -/

/-- The proof data of the region on core `c`: the arrays as the region finds them (`V`); after the body at point `t`
    each input's buffer at its block and the output's at `outsAt1`; the invariant is the scoped rest and the generator
    register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => outsAt1 V c t.val t.isLt
  Φ _ := Pipeline.ΦA spec1 c
  q _ := fullShare
  owed _ := 0

/-- The proof data's arrays are the region-entry contents (the definition projected). -/
theorem A_eq1 (c : Dev nD) (w : Fin cfg1.W) : (dat1 V c).A w = V c (Pipeline.arrRef spec1 w) := by
  dsimp only [dat1]

/-- What the body leaves, window by window (the definition's `match` reduced). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = outsAt1 V c t.val t.isLt := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- At a point with k ≠ 0 the output's current staging buffer holds what the body left at the point before: the point
    is not the first, and the block was not written back after the point before (write-backs happen after k = 3 only),
    the window live and uncut. -/
theorem before1_5_acc (c : Dev nD) (t : Fin cfg1.N) (h0 : ¬t.val % 4 = 0) (d) :
    (dat1 V c).before 5 t d = (outsAt1 V c (t.val - 1) (Nat.lt_of_le_of_lt (Nat.sub_le _ _) t.isLt)) := by
  have hN : t.val < 256 := lt_of_lt_of_eq t.isLt (show cfg1.N = 256 from N_1)
  rw [Dat.before_out_kept _ 5 rfl t (by omega) (Bool.eq_false_iff.mpr fun h => by have := (flush1_5 _).mp h; dsimp only at this; omega)
    (fun _ => rfl) (fun _ _ => rfl)]
  dsimp only [dat1]

/-! ## The body obligation, at a generic point -/

/-- What the body is called with at point `t` (the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

set_option maxHeartbeats 4000000 in
/-- The body at any point: the inputs' memrefs hold their blocks; k = t mod 4 says which case the point is in; for
    k ≠ 0 the output's memref holds what the point before left; so that case's run applies, and its pieces cover the
    block; the invariant and what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  have hN : t.val < 256 := lt_of_lt_of_eq t.isLt (show cfg1.N = 256 from N_1)
  by_cases h0 : t.val % 4 = 0
  · by_cases h1 : t.val % 4 = 3
    · exfalso; omega
    · rw [outsAt1_A V c t h0 h1]
      unfold out1_A_5
      iintro ⟨HΦ, Ho, ⟨%d0, H0⟩, ⟨%d1, H1⟩, ⟨%d2, H2⟩, ⟨%d3, H3⟩, ⟨%d4, H4⟩, ⟨%d5, H5⟩⟩
      iapply ((kernelRun1_A c (grid1.coords t) _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t)).2 Set.univ _)
      isplitl [H0]; · iexact H0
      isplitl [H1]; · iexact H1
      isplitl [H2]; · iexact H2
      isplitl [H3]; · iexact H3
      isplitl [H4]; · iexact H4
      isplitl [H5]; · iexists _; iexact H5
      iintro ⟨H0, H1, H2, H3, H4, ⟨%e5, H5⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover1_A_5 c _ _ _ _ _ _ _ _ _ _ _ _ _ _ _ _ _ _ _ _)
  · by_cases h1 : t.val % 4 = 3
    · rw [outsAt1_C V c t h0 h1]
      simp only [before1_5_acc V c t h0]
      unfold out1_C_5
      iintro ⟨HΦ, Ho, ⟨%d0, H0⟩, ⟨%d1, H1⟩, ⟨%d2, H2⟩, ⟨%d3, H3⟩, ⟨%d4, H4⟩, ⟨%d5, H5⟩⟩
      iapply ((kernelRun1_C c (grid1.coords t) _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) _).2 Set.univ _)
      isplitl [H0]; · iexact H0
      isplitl [H1]; · iexact H1
      isplitl [H2]; · iexact H2
      isplitl [H3]; · iexact H3
      isplitl [H4]; · iexact H4
      isplitl [H5]; · iexact H5
      iintro ⟨H0, H1, H2, H3, H4, ⟨%e5, H5⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover1_C_5 c _ _ _ _ _ _ _ _ _ _ _ _ _ _ _ _ _ _ _ _ _)
    · rw [outsAt1_B V c t h0 h1]
      simp only [before1_5_acc V c t h0]
      unfold out1_B_5
      iintro ⟨HΦ, Ho, ⟨%d0, H0⟩, ⟨%d1, H1⟩, ⟨%d2, H2⟩, ⟨%d3, H3⟩, ⟨%d4, H4⟩, ⟨%d5, H5⟩⟩
      iapply ((kernelRun1_B c (grid1.coords t) _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) _).2 Set.univ _)
      isplitl [H0]; · iexact H0
      isplitl [H1]; · iexact H1
      isplitl [H2]; · iexact H2
      isplitl [H3]; · iexact H3
      isplitl [H4]; · iexact H4
      isplitl [H5]; · iexact H5
      iintro ⟨H0, H1, H2, H3, H4, ⟨%e5, H5⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover1_B_5 c _ _ _ _ _ _ _ _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.R1

end
-- ==== Proof.R1RunAW.lean ====
/- The second pipelined region (the main matmul kernel, grid 16 x 4 x 4): what its three case runs share, and the run of the case k = 0.
   The block of each window at a point, read off the array as the region finds it; the two branch
   conditions of the body in closed form over the grid (the reduction index is k = t mod 4; the first
   holds exactly at k = 0, the second exactly at k = 3); the staging memrefs at a point. -/
import proofs.«160741_j498216206382_2_alg».proof.Proof.Gen.Kernel.Launch
import proofs.«160741_j498216206382_2_alg».proof.Proof.Gen.Kernel.Skeleton
import proofs.«160741_j498216206382_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered: the parameter the region's half is stated at
variable (V : (c : Dev nD) → (b : Ref sig .tc) → Buf (Elt F) ((c : Thread nD τ).loc b))

/-! ## The windows' blocks -/

/-- Window `w`'s block at point `t`: the rectangle of its array that the index map selects there, read off the
    array's contents at region entry. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input window's staging buffer holds its block at every point, whether the block was fetched there or the
    index map did not move since the point before (then the block is the same one), for any proof data whose array
    is the entry contents and whose body leaves the block in place. One statement per input window. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The first conditional of the body: the reduction index (grid coordinate 2) is 0. -/
abbrev cond1_0 (i : grid1.Coords) : Prop := (Scalar.cmpi .ne (Scalar.extui (Scalar.cmpi .eq (BitVec.ofNat 32 (i 2).val) 0#32)) 0#32) = 1#1
/-- It holds exactly at the points t with t mod 4 = 0 (the last grid axis has extent 4 and moves fastest). -/
theorem hcond1_0 : ∀ t : Fin cfg1.N, cond1_0 (grid1.coords t) ↔ t.val % 4 = 0 :=
  (by decide +kernel : ∀ t : Fin grid1.N, cond1_0 (grid1.coords t) ↔ t.val % 4 = 0)

/-- The second conditional of the body: the reduction index is 3, the last. -/
abbrev cond1_1 (i : grid1.Coords) : Prop := (Scalar.cmpi .ne (Scalar.extui (Scalar.cmpi .eq (BitVec.ofNat 32 (i 2).val) 3#32)) 0#32) = 1#1
/-- It holds exactly at the points t with t mod 4 = 3. -/
theorem hcond1_1 : ∀ t : Fin cfg1.N, cond1_1 (grid1.coords t) ↔ t.val % 4 = 3 :=
  (by decide +kernel : ∀ t : Fin grid1.N, cond1_1 (grid1.coords t) ↔ t.val % 4 = 3)

/-! ## The staging memrefs -/

/-- One staging buffer of the output window, through which its contents are stated (stores that cover the block
    read back the same through any whole view). -/
abbrev VO1_5 : View sig .tc .vmem S1024x1024 .f32 := (Memref.whole cc1_stg5_0 : Memref sig .tc .vmem S1024x1024 .f32).view
/-- Each window's current staging memref at point `t`, as the pipeline passes it to the body, and its wholeness. -/
abbrev ms1_0 (t : Fin cfg1.N) : Memref sig .tc .vmem S1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x128 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1024 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1024x1024 .f32 := win1_5.stage (cfg1.slots t 5)
abbrev hs1_5 (t : Fin cfg1.N) : (ms1_5 t).IsWhole := hstage1_5 ((cfg1.slots t 5).cast nbuf1_5)

set_option maxHeartbeats 4000000 in
/-- CASE k = 0 (first conditional taken, second not). On whole staging memrefs, the inputs' at their contents and the output's at anything, the body runs to the continuation holding the inputs' as they were and the output's buffer with the stores of this case written: the zero block, then the zero block plus the product of the two bf16 blocks. The list of pieces (last store first) is the witness the symbolic run finds. -/
noncomputable def kernelRun1_A (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x128 .f32) (harg5 : arg5.IsWhole) (arg6 : Memref sig .tc .vmem S1024x128 .bf16) (harg6 : arg6.IsWhole) (arg7 : Memref sig .tc .vmem S1x1024 .f32) (harg7 : arg7.IsWhole) (arg8 : Memref sig .tc .vmem S1024x1024 .f32) (harg8 : arg8.IsWhole) (hc0 : cond1_0 i) (hc1 : ¬cond1_1 i)
    (x0 : Vec F S1024x1024 .bf16) (x1 : Vec F S1024x1024 .bf16) (x2 : Vec F S1024x128 .f32) (x3 : Vec F S1024x128 .bf16) (x4 : Vec F S1x1024 .f32) :
    { L5 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5)) -∗ K ⟨⟩))
          ⊢ wp frame (wpE (defs₀ (F := F)) Variants.none c none) E (cc1__main_kernel i arg3 harg3 arg4 harg4 arg5 harg5 arg6 harg6 arg7 harg7 arg8 harg8) K } := by
  refine ⟨?_, fun E K => ?run⟩
  case run =>
    simp only [cc1__main_kernel_eq_skeleton]; unfold cc1__main_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
    obtain rfl := harg3.eq_unread hf0; obtain rfl := harg4.eq_unread hf1; obtain rfl := harg5.eq_unread hf2
    obtain rfl := harg6.eq_unread hf3; obtain rfl := harg7.eq_unread hf4
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact H5

end Cert.Kernel.R1

end
-- ==== Proof.R1RunBW.lean ====
/- The main matmul kernel's run in the case k = 1, 2 (neither conditional taken): accumulate only. -/
import proofs.«160741_j498216206382_2_alg».proof.Proof.R1RunAW

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- CASE k = 1, 2 (neither conditional taken). On whole staging memrefs, the inputs' at their contents and the output's at its running contents `xo5` (what the point before left), the body runs to the continuation holding the inputs' as they were and the output's buffer with the one store of this case written: the running contents plus the product of the two bf16 blocks. -/
noncomputable def kernelRun1_B (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x128 .f32) (harg5 : arg5.IsWhole) (arg6 : Memref sig .tc .vmem S1024x128 .bf16) (harg6 : arg6.IsWhole) (arg7 : Memref sig .tc .vmem S1x1024 .f32) (harg7 : arg7.IsWhole) (arg8 : Memref sig .tc .vmem S1024x1024 .f32) (harg8 : arg8.IsWhole) (hc0 : ¬cond1_0 i) (hc1 : ¬cond1_1 i)
    (x0 : Vec F S1024x1024 .bf16) (x1 : Vec F S1024x1024 .bf16) (x2 : Vec F S1024x128 .f32) (x3 : Vec F S1024x128 .bf16) (x4 : Vec F S1x1024 .f32) (xo5 : Vec F S1024x1024 .f32) :
    { L5 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xo5
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5)) -∗ K ⟨⟩))
          ⊢ wp frame (wpE (defs₀ (F := F)) Variants.none c none) E (cc1__main_kernel i arg3 harg3 arg4 harg4 arg5 harg5 arg6 harg6 arg7 harg7 arg8 harg8) K } := by
  refine ⟨?_, fun E K => ?run⟩
  case run =>
    simp only [cc1__main_kernel_eq_skeleton]; unfold cc1__main_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
    obtain rfl := harg3.eq_unread hf0; obtain rfl := harg4.eq_unread hf1; obtain rfl := harg5.eq_unread hf2
    obtain rfl := harg6.eq_unread hf3; obtain rfl := harg7.eq_unread hf4; obtain rfl := harg8.eq_unread hf5
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact H5

end Cert.Kernel.R1

end
-- ==== Proof.R1RunCW.lean ====
/- The main matmul kernel's run in the case k = 3 (second conditional taken): accumulate, then add the bias row and the low-rank product. -/
import proofs.«160741_j498216206382_2_alg».proof.Proof.R1RunBW

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- CASE k = 3 (second conditional taken). On whole staging memrefs, the inputs' at their contents and the output's at its running contents `xo5`, the body runs to the continuation holding the inputs' as they were and the output's buffer with the two stores of this case written: the running contents plus the product of the two bf16 blocks, then that plus (the bias row broadcast down the rows plus the product of the truncated h block with the padded low-rank block). -/
noncomputable def kernelRun1_C (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x128 .f32) (harg5 : arg5.IsWhole) (arg6 : Memref sig .tc .vmem S1024x128 .bf16) (harg6 : arg6.IsWhole) (arg7 : Memref sig .tc .vmem S1x1024 .f32) (harg7 : arg7.IsWhole) (arg8 : Memref sig .tc .vmem S1024x1024 .f32) (harg8 : arg8.IsWhole) (hc0 : ¬cond1_0 i) (hc1 : cond1_1 i)
    (x0 : Vec F S1024x1024 .bf16) (x1 : Vec F S1024x1024 .bf16) (x2 : Vec F S1024x128 .f32) (x3 : Vec F S1024x128 .bf16) (x4 : Vec F S1x1024 .f32) (xo5 : Vec F S1024x1024 .f32) :
    { L5 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xo5
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5)) -∗ K ⟨⟩))
          ⊢ wp frame (wpE (defs₀ (F := F)) Variants.none c none) E (cc1__main_kernel i arg3 harg3 arg4 harg4 arg5 harg5 arg6 harg6 arg7 harg7 arg8 harg8) K } := by
  refine ⟨?_, fun E K => ?run⟩
  case run =>
    simp only [cc1__main_kernel_eq_skeleton]; unfold cc1__main_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
    obtain rfl := harg3.eq_unread hf0; obtain rfl := harg4.eq_unread hf1; obtain rfl := harg5.eq_unread hf2
    obtain rfl := harg6.eq_unread hf3; obtain rfl := harg7.eq_unread hf4; obtain rfl := harg8.eq_unread hf5
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact H5

end Cert.Kernel.R1

end
-- ==== Proof.R1W.lean ====
/- The second pipelined region (the main matmul kernel) at a parameter V, the buffer contents at region entry:
   what its output block holds after each grid point, the region's proof data, and the body obligation.
   The grid is 16 x 4 x 4 with the reduction axis k fastest, so the point t has k = t mod 4. At k = 0 the body
   resets the output block and accumulates the first partial product; at k = 1, 2 it accumulates onto what the
   point before left (the block is not written back in between); at k = 3 it accumulates and then adds the bias
   row and the low-rank product, and only then is the block written back. -/
import proofs.«160741_j498216206382_2_alg».proof.Proof.R1RunCW

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered: the parameter the region's half is stated at
variable (V : (c : Dev nD) → (b : Ref sig .tc) → Buf (Elt F) ((c : Thread nD τ).loc b))

/-! ## What each case leaves in the output window's buffer -/

/-- The pieces of the case k = 0 tile the output block (2 whole-block stores; checked by evaluating the tiling test on the list of rectangles), so they cover it. -/
theorem cover1_A_5 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x128 .f32) (harg5 : arg5.IsWhole) (arg6 : Memref sig .tc .vmem S1024x128 .bf16) (harg6 : arg6.IsWhole) (arg7 : Memref sig .tc .vmem S1x1024 .f32) (harg7 : arg7.IsWhole) (arg8 : Memref sig .tc .vmem S1024x1024 .f32) (harg8 : arg8.IsWhole) (hc0 : cond1_0 i) (hc1 : ¬cond1_1 i)
    (x0 : Vec F S1024x1024 .bf16) (x1 : Vec F S1024x1024 .bf16) (x2 : Vec F S1024x128 .f32) (x3 : Vec F S1024x128 .bf16) (x4 : Vec F S1x1024 .f32) (y : S1024x1024.Idx) :
    ∃ pc ∈ (kernelRun1_A c i arg3 harg3 arg4 harg4 arg5 harg5 arg6 harg6 arg7 harg7 arg8 harg8 hc0 hc1 x0 x1 x2 x3 x4).1, y ∈ pc.1.set :=
  View.cover_of_tiledL (kernelRun1_A c i arg3 harg3 arg4 harg4 arg5 harg5 arg6 harg6 arg7 harg7 arg8 harg8 hc0 hc1 x0 x1 x2 x3 x4).1 S1024x1024.size (by sl_kernel_rfl) y

/-- What the case k = 0 leaves in the output's staging buffer: its pieces read back (over arbitrary prior contents, which a cover hides). -/
def out1_A_5 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x128 .f32) (harg5 : arg5.IsWhole) (arg6 : Memref sig .tc .vmem S1024x128 .bf16) (harg6 : arg6.IsWhole) (arg7 : Memref sig .tc .vmem S1x1024 .f32) (harg7 : arg7.IsWhole) (arg8 : Memref sig .tc .vmem S1024x1024 .f32) (harg8 : arg8.IsWhole) (hc0 : cond1_0 i) (hc1 : ¬cond1_1 i)
    (x0 : Vec F S1024x1024 .bf16) (x1 : Vec F S1024x1024 .bf16) (x2 : Vec F S1024x128 .f32) (x3 : Vec F S1024x128 .bf16) (x4 : Vec F S1x1024 .f32) : Vec F S1024x1024 .f32 :=
  VO1_5.read (Elt F) (VO1_5.writes (Elt F) VO1_5.junk (kernelRun1_A c i arg3 harg3 arg4 harg4 arg5 harg5 arg6 harg6 arg7 harg7 arg8 harg8 hc0 hc1 x0 x1 x2 x3 x4).1)

/-- The pieces of the case k = 1, 2 tile the output block (1 whole-block store; checked by evaluating the tiling test on the list of rectangles), so they cover it. -/
theorem cover1_B_5 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x128 .f32) (harg5 : arg5.IsWhole) (arg6 : Memref sig .tc .vmem S1024x128 .bf16) (harg6 : arg6.IsWhole) (arg7 : Memref sig .tc .vmem S1x1024 .f32) (harg7 : arg7.IsWhole) (arg8 : Memref sig .tc .vmem S1024x1024 .f32) (harg8 : arg8.IsWhole) (hc0 : ¬cond1_0 i) (hc1 : ¬cond1_1 i)
    (x0 : Vec F S1024x1024 .bf16) (x1 : Vec F S1024x1024 .bf16) (x2 : Vec F S1024x128 .f32) (x3 : Vec F S1024x128 .bf16) (x4 : Vec F S1x1024 .f32) (xo5 : Vec F S1024x1024 .f32) (y : S1024x1024.Idx) :
    ∃ pc ∈ (kernelRun1_B c i arg3 harg3 arg4 harg4 arg5 harg5 arg6 harg6 arg7 harg7 arg8 harg8 hc0 hc1 x0 x1 x2 x3 x4 xo5).1, y ∈ pc.1.set :=
  View.cover_of_tiledL (kernelRun1_B c i arg3 harg3 arg4 harg4 arg5 harg5 arg6 harg6 arg7 harg7 arg8 harg8 hc0 hc1 x0 x1 x2 x3 x4 xo5).1 S1024x1024.size (by sl_kernel_rfl) y

/-- What the case k = 1, 2 leaves in the output's staging buffer: its pieces read back (over arbitrary prior contents, which a cover hides). -/
def out1_B_5 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x128 .f32) (harg5 : arg5.IsWhole) (arg6 : Memref sig .tc .vmem S1024x128 .bf16) (harg6 : arg6.IsWhole) (arg7 : Memref sig .tc .vmem S1x1024 .f32) (harg7 : arg7.IsWhole) (arg8 : Memref sig .tc .vmem S1024x1024 .f32) (harg8 : arg8.IsWhole) (hc0 : ¬cond1_0 i) (hc1 : ¬cond1_1 i)
    (x0 : Vec F S1024x1024 .bf16) (x1 : Vec F S1024x1024 .bf16) (x2 : Vec F S1024x128 .f32) (x3 : Vec F S1024x128 .bf16) (x4 : Vec F S1x1024 .f32) (xo5 : Vec F S1024x1024 .f32) : Vec F S1024x1024 .f32 :=
  VO1_5.read (Elt F) (VO1_5.writes (Elt F) VO1_5.junk (kernelRun1_B c i arg3 harg3 arg4 harg4 arg5 harg5 arg6 harg6 arg7 harg7 arg8 harg8 hc0 hc1 x0 x1 x2 x3 x4 xo5).1)

/-- The pieces of the case k = 3 tile the output block (2 whole-block stores; checked by evaluating the tiling test on the list of rectangles), so they cover it. -/
theorem cover1_C_5 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x128 .f32) (harg5 : arg5.IsWhole) (arg6 : Memref sig .tc .vmem S1024x128 .bf16) (harg6 : arg6.IsWhole) (arg7 : Memref sig .tc .vmem S1x1024 .f32) (harg7 : arg7.IsWhole) (arg8 : Memref sig .tc .vmem S1024x1024 .f32) (harg8 : arg8.IsWhole) (hc0 : ¬cond1_0 i) (hc1 : cond1_1 i)
    (x0 : Vec F S1024x1024 .bf16) (x1 : Vec F S1024x1024 .bf16) (x2 : Vec F S1024x128 .f32) (x3 : Vec F S1024x128 .bf16) (x4 : Vec F S1x1024 .f32) (xo5 : Vec F S1024x1024 .f32) (y : S1024x1024.Idx) :
    ∃ pc ∈ (kernelRun1_C c i arg3 harg3 arg4 harg4 arg5 harg5 arg6 harg6 arg7 harg7 arg8 harg8 hc0 hc1 x0 x1 x2 x3 x4 xo5).1, y ∈ pc.1.set :=
  View.cover_of_tiledL (kernelRun1_C c i arg3 harg3 arg4 harg4 arg5 harg5 arg6 harg6 arg7 harg7 arg8 harg8 hc0 hc1 x0 x1 x2 x3 x4 xo5).1 S1024x1024.size (by sl_kernel_rfl) y

/-- What the case k = 3 leaves in the output's staging buffer: its pieces read back (over arbitrary prior contents, which a cover hides). -/
def out1_C_5 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x128 .f32) (harg5 : arg5.IsWhole) (arg6 : Memref sig .tc .vmem S1024x128 .bf16) (harg6 : arg6.IsWhole) (arg7 : Memref sig .tc .vmem S1x1024 .f32) (harg7 : arg7.IsWhole) (arg8 : Memref sig .tc .vmem S1024x1024 .f32) (harg8 : arg8.IsWhole) (hc0 : ¬cond1_0 i) (hc1 : cond1_1 i)
    (x0 : Vec F S1024x1024 .bf16) (x1 : Vec F S1024x1024 .bf16) (x2 : Vec F S1024x128 .f32) (x3 : Vec F S1024x128 .bf16) (x4 : Vec F S1x1024 .f32) (xo5 : Vec F S1024x1024 .f32) : Vec F S1024x1024 .f32 :=
  VO1_5.read (Elt F) (VO1_5.writes (Elt F) VO1_5.junk (kernelRun1_C c i arg3 harg3 arg4 harg4 arg5 harg5 arg6 harg6 arg7 harg7 arg8 harg8 hc0 hc1 x0 x1 x2 x3 x4 xo5).1)

/-! ## What the output block holds after each point -/

/-- THE ACCUMULATION. What the output window's staging buffer holds after the body at position `n`: the case that
    n mod 4 selects, run at the point's memrefs and input blocks; for k ≠ 0 over what this function gives at `n - 1`
    (the buffer is not written back between). No n has both n mod 4 = 0 and n mod 4 = 3. -/
def outsAt1 (c : Dev nD) : (n : ℕ) → n < cfg1.N → Vec F S1024x1024 .f32
  | 0, hn => out1_A_5 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩)
  | n + 1, hn =>
    if h0 : (n + 1) % 4 = 0 then
      if h1 : (n + 1) % 4 = 3 then
        False.elim (by omega)
      else
        out1_A_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩)
    else
      if h1 : (n + 1) % 4 = 3 then
        out1_C_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn))
      else
        out1_B_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn))

/-- At a point with k = 0: the reset-and-accumulate contents. -/
theorem outsAt1_A (c : Dev nD) (t : Fin cfg1.N) (h0 : t.val % 4 = 0) (h1 : ¬t.val % 4 = 3) :
    outsAt1 V c t.val t.isLt = out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) ((hcond1_0 t).mpr h0) (fun h => h1 ((hcond1_1 t).mp h)) (iblk1 V c 0 t) (iblk1 V c 1 t) (iblk1 V c 2 t) (iblk1 V c 3 t) (iblk1 V c 4 t) := by
  obtain ⟨n, hn⟩ := t
  cases n with
  | zero => exact rfl
  | succ n => exact (dif_pos h0).trans ((dif_neg h1).trans rfl)

/-- At a point with k = 1, 2: the accumulate contents, over what the point before left. -/
theorem outsAt1_B (c : Dev nD) (t : Fin cfg1.N) (h0 : ¬t.val % 4 = 0) (h1 : ¬t.val % 4 = 3) :
    outsAt1 V c t.val t.isLt = out1_B_5 c (grid1.coords t) (ms1_0 t) (hs1_0 t) (ms1_1 t) (hs1_1 t) (ms1_2 t) (hs1_2 t) (ms1_3 t) (hs1_3 t) (ms1_4 t) (hs1_4 t) (ms1_5 t) (hs1_5 t) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

/-- At a point with k = 3: the accumulate-and-finish contents, over what the point before left. -/
theorem outsAt1_C (c : Dev nD) (t : Fin cfg1.N) (h0 : ¬t.val % 4 = 0) (h1 : t.val % 4 = 3) :
    outsAt1 V c t.val t.isLt = out1_C_5 c (grid1.coords t) (ms1_0 t) (hs1_0 t) (ms1_1 t) (hs1_1 t) (ms1_2 t) (hs1_2 t) (ms1_3 t) (hs1_3 t) (ms1_4 t) (hs1_4 t) (ms1_5 t) (hs1_5 t) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-! ## The region's proof data -/

/-- The proof data of the region on core `c`: the arrays as the region finds them (`V`); after the body at point `t`
    each input's buffer at its block and the output's at `outsAt1`; the invariant is the scoped rest and the generator
    register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => outsAt1 V c t.val t.isLt
  Φ _ := Pipeline.ΦA spec1 c
  q _ := fullShare
  owed _ := 0

/-- The proof data's arrays are the region-entry contents (the definition projected). -/
theorem A_eq1 (c : Dev nD) (w : Fin cfg1.W) : (dat1 V c).A w = V c (Pipeline.arrRef spec1 w) := by
  dsimp only [dat1]

/-- What the body leaves, window by window (the definition's `match` reduced). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = outsAt1 V c t.val t.isLt := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- At a point with k ≠ 0 the output's current staging buffer holds what the body left at the point before: the point
    is not the first, and the block was not written back after the point before (write-backs happen after k = 3 only),
    the window live and uncut. -/
theorem before1_5_acc (c : Dev nD) (t : Fin cfg1.N) (h0 : ¬t.val % 4 = 0) (d) :
    (dat1 V c).before 5 t d = (outsAt1 V c (t.val - 1) (Nat.lt_of_le_of_lt (Nat.sub_le _ _) t.isLt)) := by
  have hN : t.val < 256 := lt_of_lt_of_eq t.isLt (show cfg1.N = 256 from N_1)
  rw [Dat.before_out_kept _ 5 rfl t (by omega) (Bool.eq_false_iff.mpr fun h => by have := (flush1_5 _).mp h; dsimp only at this; omega)
    (fun _ => rfl) (fun _ _ => rfl)]
  dsimp only [dat1]

/-! ## The body obligation, at a generic point -/

/-- What the body is called with at point `t` (the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

set_option maxHeartbeats 4000000 in
/-- The body at any point: the inputs' memrefs hold their blocks; k = t mod 4 says which case the point is in; for
    k ≠ 0 the output's memref holds what the point before left; so that case's run applies, and its pieces cover the
    block; the invariant and what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  have hN : t.val < 256 := lt_of_lt_of_eq t.isLt (show cfg1.N = 256 from N_1)
  by_cases h0 : t.val % 4 = 0
  · by_cases h1 : t.val % 4 = 3
    · exfalso; omega
    · rw [outsAt1_A V c t h0 h1]
      unfold out1_A_5
      iintro ⟨HΦ, Ho, ⟨%d0, H0⟩, ⟨%d1, H1⟩, ⟨%d2, H2⟩, ⟨%d3, H3⟩, ⟨%d4, H4⟩, ⟨%d5, H5⟩⟩
      iapply ((kernelRun1_A c (grid1.coords t) _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t)).2 Set.univ _)
      isplitl [H0]; · iexact H0
      isplitl [H1]; · iexact H1
      isplitl [H2]; · iexact H2
      isplitl [H3]; · iexact H3
      isplitl [H4]; · iexact H4
      isplitl [H5]; · iexists _; iexact H5
      iintro ⟨H0, H1, H2, H3, H4, ⟨%e5, H5⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover1_A_5 c _ _ _ _ _ _ _ _ _ _ _ _ _ _ _ _ _ _ _ _)
  · by_cases h1 : t.val % 4 = 3
    · rw [outsAt1_C V c t h0 h1]
      simp only [before1_5_acc V c t h0]
      unfold out1_C_5
      iintro ⟨HΦ, Ho, ⟨%d0, H0⟩, ⟨%d1, H1⟩, ⟨%d2, H2⟩, ⟨%d3, H3⟩, ⟨%d4, H4⟩, ⟨%d5, H5⟩⟩
      iapply ((kernelRun1_C c (grid1.coords t) _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) _).2 Set.univ _)
      isplitl [H0]; · iexact H0
      isplitl [H1]; · iexact H1
      isplitl [H2]; · iexact H2
      isplitl [H3]; · iexact H3
      isplitl [H4]; · iexact H4
      isplitl [H5]; · iexact H5
      iintro ⟨H0, H1, H2, H3, H4, ⟨%e5, H5⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover1_C_5 c _ _ _ _ _ _ _ _ _ _ _ _ _ _ _ _ _ _ _ _ _)
    · rw [outsAt1_B V c t h0 h1]
      simp only [before1_5_acc V c t h0]
      unfold out1_B_5
      iintro ⟨HΦ, Ho, ⟨%d0, H0⟩, ⟨%d1, H1⟩, ⟨%d2, H2⟩, ⟨%d3, H3⟩, ⟨%d4, H4⟩, ⟨%d5, H5⟩⟩
      iapply ((kernelRun1_B c (grid1.coords t) _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) _).2 Set.univ _)
      isplitl [H0]; · iexact H0
      isplitl [H1]; · iexact H1
      isplitl [H2]; · iexact H2
      isplitl [H3]; · iexact H3
      isplitl [H4]; · iexact H4
      isplitl [H5]; · iexact H5
      iintro ⟨H0, H1, H2, H3, H4, ⟨%e5, H5⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover1_B_5 c _ _ _ _ _ _ _ _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.R1

end
-- ==== Proof.Spec.lean ====
/- The specification. For x : [4,4096,4096], offsets : [4], W : [4096,4096], bias : [4096], A : [32,4096],
   B : [4096,32] (real-valued arrays; the offsets 32-bit integers), the result at (b, s, o) is

     (∑ d, x[b,s,d] · W[o,d]) + bias[o] + (if s lies on the tail of sample b then 2 · ∑ r, (∑ d, x[b,s,d] · A[r,d]) · B[o,r] else 0),

   where position s lies on the tail of sample b when s ≥ 4096 − min(offsets[b], 4096), compared as signed
   32-bit integers. No program is mentioned here. -/
import Idealize.ShloMosaic.PureOps.Ideal
import Idealize.ShloMosaic.Lib.ValueIdx

noncomputable section

namespace Cert.Spec

open Idealize.ShloMosaic Idealize.ShloMosaic.ValueIdx
open scoped BigOperators

abbrev SX : Shape := ⟨3, ![4, 4096, 4096]⟩
abbrev SO : Shape := ⟨1, ![4]⟩
abbrev SW : Shape := ⟨2, ![4096, 4096]⟩
abbrev SB : Shape := ⟨1, ![4096]⟩
abbrev SA : Shape := ⟨2, ![32, 4096]⟩
abbrev SBw : Shape := ⟨2, ![4096, 32]⟩

/-- The tail test as a one-bit word: position `s` is on the tail of sample `b` when, as signed 32-bit integers,
    `s ≥ 4096 − min(offs[b], 4096)`. -/
def maskBit (offs : SO.Idx → BitVec 32) (b : Fin 4) (s : Fin 4096) : BitVec 1 :=
  IntOp.cmpi .sge (BitVec.ofNat 32 s.val) (IntOp.subi 4096#32 (IntOp.minsi (offs (ix1 b)) 4096#32))

/-- The result at the coordinates `(b, s, o)`: the base linear map plus, on the tail, twice the low-rank update. -/
def outAt (xr : SX.Idx → ℝ) (offs : SO.Idx → BitVec 32) (Wr : SW.Idx → ℝ) (br : SB.Idx → ℝ)
    (Ar : SA.Idx → ℝ) (Bwr : SBw.Idx → ℝ) (b : Fin 4) (s : Fin 4096) (o : Fin 4096) : ℝ :=
  (∑ d : Fin 4096, xr (ix3 b s d) * Wr (ix2 o d)) + br (ix1 o)
    + (if maskBit offs b s = 1#1 then
        (∑ r : Fin 32, (∑ d : Fin 4096, xr (ix3 b s d) * Ar (ix2 r d)) * Bwr (ix2 o r)) * 2
       else 0)

/-- The result array, index by index. -/
def outR (xr : SX.Idx → ℝ) (offs : SO.Idx → BitVec 32) (Wr : SW.Idx → ℝ) (br : SB.Idx → ℝ)
    (Ar : SA.Idx → ℝ) (Bwr : SBw.Idx → ℝ) : SX.Idx → ℝ :=
  fun i => outAt xr offs Wr br Ar Bwr (i 0) (i 1) (i 2)

/-- At an index given by its coordinates the result array is the formula at those coordinates. -/
theorem outR_ix3 (xr : SX.Idx → ℝ) (offs : SO.Idx → BitVec 32) (Wr : SW.Idx → ℝ) (br : SB.Idx → ℝ)
    (Ar : SA.Idx → ℝ) (Bwr : SBw.Idx → ℝ) (b : Fin 4) (s : Fin 4096) (o : Fin 4096) :
    outR xr offs Wr br Ar Bwr (ix3 b s o) = outAt xr offs Wr br Ar Bwr b s o := rfl

end Cert.Spec

end
-- ==== Proof.RefSide.lean ====
/- The reference program computes the specification: its result array, read index by index, is the real-valued
   formula of Spec.lean coerced into the extended reals, whenever the float arguments are real arrays coerced.
   The reference forms  (x·Wᵀ + bias) + select(tail, ((x·Aᵀ)·Bᵀ)·2, 0);  every product and sum of reals is computed
   exactly in the extended reals, so the coercion moves outward through the sums, the products and the select. -/
import proofs.«160741_j498216206382_2_alg».proof.Proof.Gen.ReferenceIdeal.Run
import proofs.«160741_j498216206382_2_alg».proof.Proof.Gen.ReferenceIdeal.Read
import proofs.«160741_j498216206382_2_alg».proof.Proof.Spec

noncomputable section

namespace Cert.RefSide

open Cert.ReferenceIdeal Cert.ReferenceIdeal.Gen Cert.ReferenceIdeal.Read
open Idealize.ShloMosaic Idealize.ShloMosaic.TcCoe Idealize.SL.Sem Idealize.ShloMosaic.StableHlo
open Idealize.ShloMosaic.ValueIdx
open scoped BigOperators

/-- A finite sum of coerced reals is the coerced real sum. -/
theorem coe_sum {ι : Type} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- The word `0x40000000` is the real number 2. -/
theorem two_word : Ideal.ofBits .f32 0x40000000#32 = ((2 : ℝ) : EReal) := by
  simp [Ideal.ofBits, Ideal.ieee, -EReal.coe_mul]; norm_num

/-- A select on a one-bit word is the `if` on "the bit is 1". -/
theorem select_eq_ite (c : BitVec 1) (a b : EReal) : Scalar.select c a b = if c = 1#1 then a else b := rfl

/-! ## The reference's stages at the coordinates (p, q, r), over arbitrary arrays -/

section Stages
variable (x0 : FVec Ideal S4x4096x4096 .f32) (x1 : IVec S4 32) (x2 : FVec Ideal S4096x4096 .f32)
  (x3 : FVec Ideal S4096 .f32) (x4 : FVec Ideal S32x4096 .f32) (x5 : FVec Ideal S4096x32 .f32)
  (p : Fin 4) (q : Fin 4096) (r : Fin 4096)

/-- The base linear map: a row of x against a row of W, plus the bias entry. -/
theorem base_at : val_main_v3 (F := Ideal) x0 x2 x3 (ix3 p q r)
    = (∑ d : Fin 4096, x0 (ix3 p q d) * x2 (ix2 r d)) + x3 (ix1 r) := by
  rw [val_main_v3_apply, val_main_v0_apply, val_main_v2_apply, val_main_v1_apply]
  have el : ∀ k : Fin 4096, lidx_main_v0 (ix3 p q r) k = ix3 p q k := fun k =>
    funext fun a => by match a with | ⟨0, _⟩ => rfl | ⟨1, _⟩ => rfl | ⟨2, _⟩ => rfl
  have er : ∀ k : Fin 4096, ridx_main_v0 (ix3 p q r) k = ix2 r k := fun k =>
    funext fun a => by match a with | ⟨0, _⟩ => rfl | ⟨1, _⟩ => rfl
  have eb : idx_main_v1 (idx_main_v2 (ix3 p q r)) = ix1 r :=
    funext fun a => by match a with | ⟨0, _⟩ => rfl
  rw [eb, Finset.sum_congr rfl (fun k _ => by rw [el k, er k])]
  rfl

/-- The tail bit, broadcast along the output axis, is the specification's. -/
theorem mask_at : val_main_call0_v0 (F := Ideal) x1 (ix3 p q r) = Cert.Spec.maskBit x1 p q := by
  rw [val_main_call0_v0_apply, val_main_v18_apply, val_main_v17_apply, val_main_v15_apply, val_main_v11_apply,
    val_main_v10_apply, val_main_v16_apply, val_main_v14_apply, val_main_v13_apply, val_main_v12_apply,
    val_main_c_0_apply, val_main_v9_apply, val_main_v8_apply, val_main_c_apply]
  have eo : idx_main_v14 (idx_main_v16 (idx_main_v18 (idx_main_call0_v0 (ix3 p q r)))) = ix1 p :=
    funext fun a => by match a with | ⟨0, _⟩ => rfl
  rw [eo]
  rfl

/-- The low-rank update: (x·Aᵀ)·Bᵀ at (p, q, r), times the constant 2.0. -/
theorem lora_at : val_main_v7 (F := Ideal) x0 x4 x5 (ix3 p q r)
    = (∑ k : Fin 32, (∑ d : Fin 4096, x0 (ix3 p q d) * x4 (ix2 k d)) * x5 (ix2 r k))
        * Ideal.ofBits .f32 0x40000000#32 := by
  rw [val_main_v7_apply, val_main_v5_apply, val_main_v6_apply, val_main_cst_apply]
  have e5r : ∀ k : Fin 32, ridx_main_v5 (ix3 p q r) k = ix2 r k := fun k =>
    funext fun a => by match a with | ⟨0, _⟩ => rfl | ⟨1, _⟩ => rfl
  have e4 : ∀ k : Fin 32, val_main_v4 (F := Ideal) x0 x4 (lidx_main_v5 (ix3 p q r) k)
      = ∑ d : Fin 4096, x0 (ix3 p q d) * x4 (ix2 k d) := fun k => by
    rw [val_main_v4_apply]
    have el : ∀ d : Fin 4096, lidx_main_v4 (lidx_main_v5 (ix3 p q r) k) d = ix3 p q d := fun d =>
      funext fun a => by match a with | ⟨0, _⟩ => rfl | ⟨1, _⟩ => rfl | ⟨2, _⟩ => rfl
    have er : ∀ d : Fin 4096, ridx_main_v4 (lidx_main_v5 (ix3 p q r) k) d = ix2 k d := fun d =>
      funext fun a => by match a with | ⟨0, _⟩ => rfl | ⟨1, _⟩ => rfl
    exact Finset.sum_congr rfl (fun d _ => by rw [el d, er d])
  rw [Finset.sum_congr rfl (fun k _ => by rw [e4 k, e5r k])]
  rfl

/-- The select's other branch is the constant 0.0. -/
theorem zero_at (i : S4x4096x4096.Idx) : val_main_call0_v1 (F := Ideal) i = 0 := by
  rw [val_main_call0_v1_apply, val_main_cst_1_apply]
  exact Ideal.ofBits_zero_f32

/-- The reference's result at (p, q, r): base plus the selected update. -/
theorem result_at : val_main_v20 (F := Ideal) x0 x1 x2 x3 x4 x5 (ix3 p q r)
    = ((∑ d : Fin 4096, x0 (ix3 p q d) * x2 (ix2 r d)) + x3 (ix1 r))
      + (if Cert.Spec.maskBit x1 p q = 1#1 then
          (∑ k : Fin 32, (∑ d : Fin 4096, x0 (ix3 p q d) * x4 (ix2 k d)) * x5 (ix2 r k))
            * Ideal.ofBits .f32 0x40000000#32
         else 0) := by
  rw [val_main_v20_apply, val_main_v19_apply, base_at, mask_at, lora_at, zero_at, select_eq_ite]
  rfl

end Stages

/-! ## At real arguments -/

/-- THE REFERENCE IS THE SPECIFICATION: at real arguments the reference's result array is the specification's
    array, coerced. -/
theorem ref_is_spec (xr : Cert.Spec.SX.Idx → ℝ) (offs : Cert.Spec.SO.Idx → BitVec 32) (Wr : Cert.Spec.SW.Idx → ℝ)
    (br : Cert.Spec.SB.Idx → ℝ) (Ar : Cert.Spec.SA.Idx → ℝ) (Bwr : Cert.Spec.SBw.Idx → ℝ) :
    val_main_v20 (F := Ideal) (fun i => ((xr i : ℝ) : EReal)) offs (fun i => ((Wr i : ℝ) : EReal))
        (fun i => ((br i : ℝ) : EReal)) (fun i => ((Ar i : ℝ) : EReal)) (fun i => ((Bwr i : ℝ) : EReal))
      = fun i => ((Cert.Spec.outR xr offs Wr br Ar Bwr i : ℝ) : EReal) := by
  funext i
  obtain ⟨p, q, r, rfl⟩ : ∃ (p : Fin 4) (q : Fin 4096) (r : Fin 4096), i = ix3 p q r := ⟨i 0, i 1, i 2, eq_ix3 i⟩
  rw [result_at, Cert.Spec.outR_ix3, two_word]
  unfold Cert.Spec.outAt
  simp only [← EReal.coe_mul, ← coe_sum]
  by_cases hm : Cert.Spec.maskBit offs p q = 1#1
  · rw [if_pos hm, if_pos hm, ← EReal.coe_add, ← EReal.coe_add]
  · rw [if_neg hm, if_neg hm, ← EReal.coe_add, EReal.coe_add _ 0, EReal.coe_zero]

/-! ## The reference's run, read as the specification -/

/-- The frame: every weakly fair execution of the reference terminates with its six arguments unchanged (the
    run's statement with the result forgotten). -/
theorem frame (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => (h c).2) (Cert.ReferenceIdeal.Value.run (F := Ideal) m ρ)

/-- The value: from any memory whose float argument buffers are real arrays coerced, every weakly fair execution
    of the reference terminates with the result buffer at the specification's array, coerced, and the six
    arguments unchanged. -/
theorem run_spec (m : (ℓ : Loc nD τ sig) → Buf (Elt Ideal) ℓ) (ρ : Dev nD → PrngReg)
    (xr : Cert.Spec.SX.Idx → ℝ) (offs : Cert.Spec.SO.Idx → BitVec 32) (Wr : Cert.Spec.SW.Idx → ℝ)
    (br : Cert.Spec.SB.Idx → ℝ) (Ar : Cert.Spec.SA.Idx → ℝ) (Bwr : Cert.Spec.SBw.Idx → ℝ)
    (hargs : ∀ c : Dev nD,
      m ((c.tc : Thread nD τ).loc main_arg0) = (fun i => ((xr i : ℝ) : EReal))
      ∧ m ((c.tc : Thread nD τ).loc main_arg1) = offs
      ∧ m ((c.tc : Thread nD τ).loc main_arg2) = (fun i => ((Wr i : ℝ) : EReal))
      ∧ m ((c.tc : Thread nD τ).loc main_arg3) = (fun i => ((br i : ℝ) : EReal))
      ∧ m ((c.tc : Thread nD τ).loc main_arg4) = (fun i => ((Ar i : ℝ) : EReal))
      ∧ m ((c.tc : Thread nD τ).loc main_arg5) = (fun i => ((Bwr i : ℝ) : EReal))) :
    θ_run (defs (F := Ideal)) (onTc (τ := τ) (main (F := Ideal))) ⟨m, fun _ => 0, ρ⟩ fun r => ∀ c : Dev nD,
      r.2.mem ((c.tc : Thread nD τ).loc main_v20) = (fun i => ((Cert.Spec.outR xr offs Wr br Ar Bwr i : ℝ) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨by
      obtain ⟨h0, h1, h2, h3, h4, h5⟩ := hargs c
      rw [(h c).1, h0, h1, h2, h3, h4, h5]
      exact (val_main_v20_eq _ _ _ _ _ _).trans (ref_is_spec xr offs Wr br Ar Bwr), (h c).2⟩)
    (Cert.ReferenceIdeal.Value.run (F := Ideal) m ρ)

end Cert.RefSide

end
-- ==== Proof.Finite.lean ====
/- Finiteness: the precondition says that every entry of each float argument array has absolute value below +∞.
   In the extended reals that is exactly "the entry is a real number", so each argument array is the coercion of
   a real-valued array. -/
import proofs.«160741_j498216206382_2_alg».proof.Pre_finite_inputs
import proofs.«160741_j498216206382_2_alg».proof.Proof.Spec
import Idealize.ShloMosaic.Lib.ReduceAll
import Idealize.ShloMosaic.Lib.ValueIdx
import Idealize.ShloMosaic.Lib.Pipeline.Value

noncomputable section

namespace Cert.Finite

open Idealize.ShloMosaic Idealize.ShloMosaic.ValueIdx

/-- The scalar shape has one index. -/
instance : Subsingleton Cert.Pre_finite_inputs.S_.Idx := ⟨fun a b => funext fun d => d.elim0⟩

/-- The word `0x7F800000` is +∞. -/
theorem inf_word : Ideal.ofBits .f32 0x7F800000#32 = (⊤ : EReal) := by
  simp [Ideal.ofBits, Ideal.ieee]

/-- An extended real whose absolute value `max x (-x)` is strictly below +∞ is a real number. -/
theorem real_of_abs_lt_top (x : EReal) (h : max x (-x) < (⊤ : EReal)) : ∃ r : ℝ, x = (r : EReal) := by
  induction x using EReal.rec with
  | bot => exact absurd h (by simp)
  | coe r => exact ⟨r, rfl⟩
  | top => exact absurd h (by simp)

/-- One array: if the comparison "|x| < +∞" is the bit 1 at every index, the array is a real array coerced. -/
theorem reals_of_all {s : Shape} (x : FVec Ideal s .f32)
    (bc : Cert.Pre_finite_inputs.S_.BroadcastsInDim s (![] : Fin 0 → Fin s.rank))
    (hall : ∀ i : s.Idx, cmpf .olt (Host.absf x)
      (broadcastInDim s ![] bc (constant (F := Ideal) Cert.Pre_finite_inputs.S_ .f32 0x7F800000#32)) i = 1#1) :
    ∃ xr : s.Idx → ℝ, x = fun i => ((xr i : ℝ) : EReal) := by
  have hreal : ∀ i : s.Idx, ∃ r : ℝ, x i = (r : EReal) := by
    intro i
    have h := hall i
    rw [cmpf_apply, broadcastInDim_apply _ bc _ i (fun a => a.elim0) (fun a => a.elim0)] at h
    refine real_of_abs_lt_top (x i) ?_
    have h' : Ideal.cmp .olt (max (x i) (-(x i))) (Ideal.ofBits .f32 0x7F800000#32) = 1#1 := h
    rw [inf_word] at h'
    by_contra hn
    simp [Ideal.cmp, hn] at h'
  choose xr hxr using hreal
  exact ⟨xr, funext hxr⟩

variable [Cert.Pre_finite_inputs.Facts]

/-- From the precondition to real-valued arrays: every float argument is the coercion of a real array. -/
theorem reals_of_pre (x : FVec Ideal Cert.Pre_finite_inputs.S4x4096x4096 .f32) (offs : IVec Cert.Pre_finite_inputs.S4 32)
    (W : FVec Ideal Cert.Pre_finite_inputs.S4096x4096 .f32) (b : FVec Ideal Cert.Pre_finite_inputs.S4096 .f32)
    (A : FVec Ideal Cert.Pre_finite_inputs.S32x4096 .f32) (Bw : FVec Ideal Cert.Pre_finite_inputs.S4096x32 .f32)
    (h : Cert.Pre_finite_inputs.fn (F := Ideal) x offs W b A Bw = (fun _ => 1#1)) :
    ∃ (xr : Cert.Spec.SX.Idx → ℝ) (Wr : Cert.Spec.SW.Idx → ℝ) (br : Cert.Spec.SB.Idx → ℝ)
      (Ar : Cert.Spec.SA.Idx → ℝ) (Bwr : Cert.Spec.SBw.Idx → ℝ),
      x = (fun i => ((xr i : ℝ) : EReal)) ∧ W = (fun i => ((Wr i : ℝ) : EReal)) ∧ b = (fun i => ((br i : ℝ) : EReal))
        ∧ A = (fun i => ((Ar i : ℝ) : EReal)) ∧ Bw = (fun i => ((Bwr i : ℝ) : EReal)) := by
  have h0 := congrFun h ix0
  dsimp only [Cert.Pre_finite_inputs.fn, Cert.Pre_finite_inputs.fn_part1] at h0
  obtain ⟨h1, hBw⟩ := IntOp.andi_eq_one.1 h0
  obtain ⟨h2, hA⟩ := IntOp.andi_eq_one.1 h1
  obtain ⟨h3, hb⟩ := IntOp.andi_eq_one.1 h2
  obtain ⟨hx, hW⟩ := IntOp.andi_eq_one.1 h3
  obtain ⟨xr, ex⟩ := reals_of_all x _ (Host.reduce_andi_all _ _ _ _ _ hx)
  obtain ⟨Wr, eW⟩ := reals_of_all W _ (Host.reduce_andi_all _ _ _ _ _ hW)
  obtain ⟨br, eb⟩ := reals_of_all b _ (Host.reduce_andi_all _ _ _ _ _ hb)
  obtain ⟨Ar, eA⟩ := reals_of_all A _ (Host.reduce_andi_all _ _ _ _ _ hA)
  obtain ⟨Bwr, eBw⟩ := reals_of_all Bw _ (Host.reduce_andi_all _ _ _ _ _ hBw)
  exact ⟨xr, Wr, br, Ar, Bwr, ex, eW, eb, eA, eBw⟩

end Cert.Finite

end
-- ==== Proof.KSpec.lean ====
/-
  The kernel's arithmetic as whole-array functions, index by index.  A length-4096 contraction is taken in
  four blocks of 1024 consecutive terms, each block summed on its own and the four block sums added one after
  the other onto zero: that is how the grid's last axis accumulates.  The pre-pass result is that accumulated
  product of a row of x with a row of the padded A, times the row's mask scale; the main result is the
  accumulated product of a row of x with a row of W, plus the bias entry plus the 128-term product of the
  pre-pass row with a row of the padded B_w.
-/
import Idealize.ShloMosaic.PureOps.Ideal
import Idealize.ShloMosaic.Lib.ValueIdx

noncomputable section

namespace Cert.KSpec

open Idealize.ShloMosaic Idealize.ShloMosaic.ValueIdx

abbrev SX2 : Shape := ⟨2, ![16384, 4096]⟩
abbrev SAp : Shape := ⟨2, ![128, 4096]⟩
abbrev SMs : Shape := ⟨2, ![16384, 1]⟩
abbrev SH : Shape := ⟨2, ![16384, 128]⟩
abbrev SW : Shape := ⟨2, ![4096, 4096]⟩
abbrev SBp : Shape := ⟨2, ![4096, 128]⟩
abbrev SBi : Shape := ⟨2, ![1, 4096]⟩

/-- The j-th block of 1024 consecutive terms of a length-4096 product sum. -/
def blockDot (f g : Fin 4096 → EReal) (j : Fin 4) : EReal :=
  ∑ k : Fin 1024, f ⟨1024 * j.val + k.val, by omega⟩ * g ⟨1024 * j.val + k.val, by omega⟩

/-- The four block sums added in order onto zero. -/
def acc4 (f g : Fin 4096 → EReal) : EReal :=
  (((0 + blockDot f g 0) + blockDot f g 1) + blockDot f g 2) + blockDot f g 3

/-- The pre-pass result at row p, column r. -/
def hAt (x2 : SX2.Idx → EReal) (ap : SAp.Idx → EReal) (ms : SMs.Idx → EReal) (p : Fin 16384) (r : Fin 128) : EReal :=
  acc4 (fun d => x2 (ix2 p d)) (fun d => ap (ix2 r d)) * ms (ix2 p (0 : Fin 1))

def G0 (x2 : SX2.Idx → EReal) (ap : SAp.Idx → EReal) (ms : SMs.Idx → EReal) : SH.Idx → EReal :=
  fun j => hAt x2 ap ms (j 0) (j 1)

/-- The main result at row p, column q. -/
def oAt (x2 : SX2.Idx → EReal) (w : SW.Idx → EReal) (h : SH.Idx → EReal) (bw : SBp.Idx → EReal) (bias : SBi.Idx → EReal)
    (p : Fin 16384) (q : Fin 4096) : EReal :=
  acc4 (fun d => x2 (ix2 p d)) (fun d => w (ix2 q d)) + (bias (ix2 (0 : Fin 1) q) + ∑ r : Fin 128, h (ix2 p r) * bw (ix2 q r))

def G1 (x2 : SX2.Idx → EReal) (w : SW.Idx → EReal) (h : SH.Idx → EReal) (bw : SBp.Idx → EReal) (bias : SBi.Idx → EReal) :
    SX2.Idx → EReal :=
  fun j => oAt x2 w h bw bias (j 0) (j 1)

theorem G0_ix2 (x2 ap ms) (p : Fin 16384) (r : Fin 128) : G0 x2 ap ms (ix2 p r) = hAt x2 ap ms p r := rfl
theorem G1_ix2 (x2 w h bw bias) (p : Fin 16384) (q : Fin 4096) : G1 x2 w h bw bias (ix2 p q) = oAt x2 w h bw bias p q := rfl

end Cert.KSpec

end
-- ==== Proof.R0Value.lean ====
/-
  What the low-rank pre-pass leaves in its output array.  Each control case's stores, read back, are the body's
  arithmetic of the point's blocks: the scratch after a point is the scratch before it (the cleared block at
  k = 0) plus the product of the point's x block with its A_pad block, and the output block at k = 3 is that
  scratch scaled row by row.  Over the extended reals, entry (y0, y1) of the scratch after the point (mi, k)
  is the sum of the first k + 1 block products of row 1024 mi + y0 of x with row y1 of A_pad, added in order
  onto zero; so the output array, covered by the sixteen blocks written back at k = 3, is the whole-array
  function G0 of the three arrays the region stages.
-/
import proofs.«160741_j498216206382_2_alg».proof.Proof.R0
import proofs.«160741_j498216206382_2_alg».proof.Proof.KSpec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.R0V

open Cert.KernelIdeal Cert.KernelIdeal.Gen Cert.KernelIdeal.R0
open Idealize.ShloMosaic Idealize.ShloMosaic.TcCoe Idealize.ShloMosaic.Tactic Idealize.SL.Sem
open Idealize.ShloMosaic.Pipeline (Dat)
open Idealize.ShloMosaic.ValueIdx

variable {F : FTy → Type} [FloatOps F]

theorem hz : (![0, 0] : Fin 2 → Nat) = fun _ => 0 := funext fun a => by fin_cases a <;> rfl

/-! ## The cases' stores read back as the body's arithmetic (any float instance) -/

theorem sout_A (c : Dev nD) (i : grid0.Coords) (arg2 : Memref sig .tc .vmem S1024x1024 .bf16) (harg2 : arg2.IsWhole) (arg3 : Memref sig .tc .vmem S128x1024 .bf16) (harg3 : arg3.IsWhole) (arg4 : Memref sig .tc .vmem S1024x1 .f32) (harg4 : arg4.IsWhole) (arg5 : Memref sig .tc .vmem S1024x128 .f32) (harg5 : arg5.IsWhole) (arg6 : Memref sig .tc .vmem S1024x128 .f32) (harg6 : arg6.IsWhole) (hc0 : cond0_0 i) (hc1 : ¬cond0_1 i) (x0 : Vec F S1024x1024 .bf16) (x1 : Vec F S128x1024 .bf16) (x2 : Vec F S1024x1 .f32) :
    sout0_A_0 c i arg2 harg2 arg3 harg3 arg4 harg4 arg5 harg5 arg6 harg6 hc0 hc1 x0 x1 x2 = k0_pay2 x0 x1 (k0_pay1 (F := F)) := by
  unfold sout0_A_0
  rw [View.read_writes_eq_canon _ _ _ (scover0_A_0 c i arg2 harg2 arg3 harg3 arg4 harg4 arg5 harg5 arg6 harg6 hc0 hc1 x0 x1 x2)]
  unfold kernelRun0_A
  dsimp only
  sl_unfold_words
  rw [View.canon_cons_unit_zero (S := S1024x128) hz, View.readCov_unit_zero (S := S1024x128) _ hz]
  simp only [View.readAt_eq_ld, harg2.read_unread, harg3.read_unread, harg4.read_unread, harg6.read_unread, View.ld_unit_zero (S := S1024x1024) hz, View.ld_unit_zero (S := S128x1024) hz, View.ld_unit_zero (S := S1024x128) hz, View.ld_unit_zero (S := S1024x1) hz]

theorem sout_B (c : Dev nD) (i : grid0.Coords) (arg2 : Memref sig .tc .vmem S1024x1024 .bf16) (harg2 : arg2.IsWhole) (arg3 : Memref sig .tc .vmem S128x1024 .bf16) (harg3 : arg3.IsWhole) (arg4 : Memref sig .tc .vmem S1024x1 .f32) (harg4 : arg4.IsWhole) (arg5 : Memref sig .tc .vmem S1024x128 .f32) (harg5 : arg5.IsWhole) (arg6 : Memref sig .tc .vmem S1024x128 .f32) (harg6 : arg6.IsWhole) (hc0 : ¬cond0_0 i) (hc1 : ¬cond0_1 i) (x0 : Vec F S1024x1024 .bf16) (x1 : Vec F S128x1024 .bf16) (x2 : Vec F S1024x1 .f32) (xs0 : Vec F S1024x128 .f32) :
    sout0_B_0 c i arg2 harg2 arg3 harg3 arg4 harg4 arg5 harg5 arg6 harg6 hc0 hc1 x0 x1 x2 xs0 = k0_pay2 x0 x1 xs0 := by
  unfold sout0_B_0
  rw [View.read_writes_eq_canon _ _ _ (scover0_B_0 c i arg2 harg2 arg3 harg3 arg4 harg4 arg5 harg5 arg6 harg6 hc0 hc1 x0 x1 x2 xs0)]
  unfold kernelRun0_B
  dsimp only
  rw [View.canon_unit_zero hz]
  simp only [View.readAt_eq_ld, harg2.read_unread, harg3.read_unread, harg4.read_unread, harg6.read_unread, View.ld_unit_zero (S := S1024x1024) hz, View.ld_unit_zero (S := S128x1024) hz, View.ld_unit_zero (S := S1024x128) hz, View.ld_unit_zero (S := S1024x1) hz]

theorem sout_C (c : Dev nD) (i : grid0.Coords) (arg2 : Memref sig .tc .vmem S1024x1024 .bf16) (harg2 : arg2.IsWhole) (arg3 : Memref sig .tc .vmem S128x1024 .bf16) (harg3 : arg3.IsWhole) (arg4 : Memref sig .tc .vmem S1024x1 .f32) (harg4 : arg4.IsWhole) (arg5 : Memref sig .tc .vmem S1024x128 .f32) (harg5 : arg5.IsWhole) (arg6 : Memref sig .tc .vmem S1024x128 .f32) (harg6 : arg6.IsWhole) (hc0 : ¬cond0_0 i) (hc1 : cond0_1 i) (x0 : Vec F S1024x1024 .bf16) (x1 : Vec F S128x1024 .bf16) (x2 : Vec F S1024x1 .f32) (xs0 : Vec F S1024x128 .f32) :
    sout0_C_0 c i arg2 harg2 arg3 harg3 arg4 harg4 arg5 harg5 arg6 harg6 hc0 hc1 x0 x1 x2 xs0 = k0_pay2 x0 x1 xs0 := by
  unfold sout0_C_0
  rw [View.read_writes_eq_canon _ _ _ (scover0_C_0 c i arg2 harg2 arg3 harg3 arg4 harg4 arg5 harg5 arg6 harg6 hc0 hc1 x0 x1 x2 xs0)]
  unfold kernelRun0_C
  dsimp only
  sl_unfold_words
  rw [View.canon_unit_zero hz]
  simp only [View.readAt_eq_ld, harg2.read_unread, harg3.read_unread, harg4.read_unread, harg6.read_unread, View.ld_unit_zero (S := S1024x1024) hz, View.ld_unit_zero (S := S128x1024) hz, View.ld_unit_zero (S := S1024x128) hz, View.ld_unit_zero (S := S1024x1) hz]

theorem out_C (c : Dev nD) (i : grid0.Coords) (arg2 : Memref sig .tc .vmem S1024x1024 .bf16) (harg2 : arg2.IsWhole) (arg3 : Memref sig .tc .vmem S128x1024 .bf16) (harg3 : arg3.IsWhole) (arg4 : Memref sig .tc .vmem S1024x1 .f32) (harg4 : arg4.IsWhole) (arg5 : Memref sig .tc .vmem S1024x128 .f32) (harg5 : arg5.IsWhole) (arg6 : Memref sig .tc .vmem S1024x128 .f32) (harg6 : arg6.IsWhole) (hc0 : ¬cond0_0 i) (hc1 : cond0_1 i) (x0 : Vec F S1024x1024 .bf16) (x1 : Vec F S128x1024 .bf16) (x2 : Vec F S1024x1 .f32) (xs0 : Vec F S1024x128 .f32) :
    out0_C_3 c i arg2 harg2 arg3 harg3 arg4 harg4 arg5 harg5 arg6 harg6 hc0 hc1 x0 x1 x2 xs0 = k0_pay3 (k0_pay2 x0 x1 xs0) x2 := by
  unfold out0_C_3
  rw [View.read_writes_eq_canon _ _ _ (cover0_C_3 c i arg2 harg2 arg3 harg3 arg4 harg4 arg5 harg5 arg6 harg6 hc0 hc1 x0 x1 x2 xs0)]
  unfold kernelRun0_C
  dsimp only
  sl_unfold_words
  rw [View.canon_unit_zero hz, View.readCov_unit_zero (S := S1024x128) _ hz]
  simp only [View.readAt_eq_ld, harg2.read_unread, harg3.read_unread, harg4.read_unread, harg6.read_unread, View.ld_unit_zero (S := S1024x1024) hz, View.ld_unit_zero (S := S128x1024) hz, View.ld_unit_zero (S := S1024x128) hz, View.ld_unit_zero (S := S1024x1) hz]

/-! ## The running sum, point by point -/

variable (V : (c : Dev nD) → (b : Ref sig .tc) → Buf (Elt F) ((c : Thread nD τ).loc b))

/-- The scratch after the body at position n: restarted from the cleared block where k = 0. -/
def acc0 (c : Dev nD) : (n : ℕ) → n < cfg0.N → Vec F S1024x128 .f32
  | 0, h => k0_pay2 (iblk0 V c 0 ⟨0, h⟩) (iblk0 V c 1 ⟨0, h⟩) (k0_pay1 (F := F))
  | n + 1, h =>
    if (n + 1) % 4 = 0 then k0_pay2 (iblk0 V c 0 ⟨n + 1, h⟩) (iblk0 V c 1 ⟨n + 1, h⟩) (k0_pay1 (F := F))
    else k0_pay2 (iblk0 V c 0 ⟨n + 1, h⟩) (iblk0 V c 1 ⟨n + 1, h⟩) (acc0 c n (Nat.lt_of_succ_lt h))

theorem outsAt_snd (c : Dev nD) : ∀ (n : ℕ) (h : n < cfg0.N), (outsAt0 V c n h).2 = acc0 V c n h
  | 0, h => by
    rw [outsAt0_A V c ⟨0, h⟩ rfl (by show ¬(0 % 4 = 3); decide)]
    dsimp only
    rw [sout_A]
    rfl
  | n + 1, h => by
    by_cases h0 : (n + 1) % 4 = 0
    · have h1 : ¬(n + 1) % 4 = 3 := by omega
      rw [outsAt0_A V c ⟨n + 1, h⟩ h0 h1]
      simp only [acc0, if_pos h0]
      rw [sout_A]
    · by_cases h1 : (n + 1) % 4 = 3
      · rw [outsAt0_C V c ⟨n + 1, h⟩ h0 h1]
        simp only [acc0, if_neg h0]
        rw [sout_C]
        show k0_pay2 _ _ (outsAt0 V c n _).2 = _
        rw [outsAt_snd c n]
      · rw [outsAt0_B V c ⟨n + 1, h⟩ h0 h1]
        simp only [acc0, if_neg h0]
        rw [sout_B]
        show k0_pay2 _ _ (outsAt0 V c n _).2 = _
        rw [outsAt_snd c n]

/-- At k = 3 the output block is the scaled running sum. -/
theorem outsAt_fst (c : Dev nD) (t : Fin cfg0.N) (h1 : t.val % 4 = 3) :
    (outsAt0 V c t.val t.isLt).1 = k0_pay3 (acc0 V c t.val t.isLt) (iblk0 V c 2 t) := by
  have h0 : ¬t.val % 4 = 0 := by omega
  have e2 := outsAt_snd V c t.val t.isLt
  rw [outsAt0_C V c t h0 h1] at e2 ⊢
  dsimp only at e2 ⊢
  rw [out_C]
  rw [sout_C] at e2
  rw [e2]

/-! ## Over the extended reals: the payloads at an index -/

section AtIdeal

theorem pay1_apply (j : S1024x128.Idx) : k0_pay1 (F := Ideal) j = 0 := by
  unfold k0_pay1
  show shapeCast S1024x128 (broadcast S1024x128 (Scalar.ofBits (F := Ideal) .f32 0x00000000#32)) shapeCasts_S1024x128_S1024x128 j = 0
  rw [shapeCast_self]
  exact Ideal.ofBits_zero_f32

theorem lhs0 (i : S1024x128.Idx) (q : dot_S1024x1024_S128x1024_S1024x128_1_1_0_0_n_n.contr.Idx) : (dot_S1024x1024_S128x1024_S1024x128_1_1_0_0_n_n.lhsIdx i q 0).val = (i 0).val := by
  unfold DotDims.lhsIdx
  rw [dif_neg (show ¬(0 : Fin S1024x1024.rank) ∈ dot_S1024x1024_S128x1024_S1024x128_1_1_0_0_n_n.lhsBatch by decide), dif_pos (show (0 : Fin S1024x1024.rank) ∈ dot_S1024x1024_S128x1024_S1024x128_1_1_0_0_n_n.lhsNonContracting by decide)]
  rfl
theorem lhs1 (i : S1024x128.Idx) (q : dot_S1024x1024_S128x1024_S1024x128_1_1_0_0_n_n.contr.Idx) : (dot_S1024x1024_S128x1024_S1024x128_1_1_0_0_n_n.lhsIdx i q 1).val = (q ⟨0, by decide⟩).val :=
  dot_S1024x1024_S128x1024_S1024x128_1_1_0_0_n_n.lhsIdx_val_of_single rfl i q
theorem rhs0 (i : S1024x128.Idx) (q : dot_S1024x1024_S128x1024_S1024x128_1_1_0_0_n_n.contr.Idx) : (dot_S1024x1024_S128x1024_S1024x128_1_1_0_0_n_n.rhsIdx i q 0).val = (i 1).val := by
  unfold DotDims.rhsIdx
  rw [dif_neg (show ¬(0 : Fin S128x1024.rank) ∈ dot_S1024x1024_S128x1024_S1024x128_1_1_0_0_n_n.rhsBatch by decide), dif_pos (show (0 : Fin S128x1024.rank) ∈ dot_S1024x1024_S128x1024_S1024x128_1_1_0_0_n_n.rhsNonContracting by decide)]
  rfl
theorem rhs1 (i : S1024x128.Idx) (q : dot_S1024x1024_S128x1024_S1024x128_1_1_0_0_n_n.contr.Idx) : (dot_S1024x1024_S128x1024_S1024x128_1_1_0_0_n_n.rhsIdx i q 1).val = (q ⟨0, by decide⟩).val :=
  dot_S1024x1024_S128x1024_S1024x128_1_1_0_0_n_n.rhsIdx_val_of_single rfl i q

/-- One more block product onto the scratch: entry (y0, y1) gains the 1024-term product of row y0 of the x block
    with row y1 of the A_pad block. -/
theorem pay2_apply (x0 : FVec Ideal S1024x1024 .bf16) (x1 : FVec Ideal S128x1024 .bf16) (a : FVec Ideal S1024x128 .f32)
    (y0 : Fin 1024) (y1 : Fin 128) :
    k0_pay2 (F := Ideal) x0 x1 a (ix2 y0 y1) = a (ix2 y0 y1) + ∑ k : Fin 1024, x0 (ix2 y0 k) * x1 (ix2 y1 k) := by
  unfold k0_pay2
  show shapeCast S1024x128 (addf a (matmul dot_S1024x1024_S128x1024_S1024x128_1_1_0_0_n_n none (shapeCast S1024x1024 x0 shapeCasts_S1024x1024_S1024x1024)
    (shapeCast S128x1024 x1 shapeCasts_S128x1024_S128x1024) (constant S1024x128 .f32 0x00000000#32))) shapeCasts_S1024x128_S1024x128 (ix2 y0 y1) = _
  rw [shapeCast_self, shapeCast_self, shapeCast_self, addf_apply]
  refine congrArg (a (ix2 y0 y1) + ·) ?_
  simp only [matmul]
  rw [Ideal.matmul_constant_zero_apply, ← Equiv.sum_comp (contrEquiv1 dot_S1024x1024_S128x1024_S1024x128_1_1_0_0_n_n 1024 rfl rfl).symm]
  refine Finset.sum_congr rfl fun k _ => ?_
  have hk := contrEquiv1_symm_val dot_S1024x1024_S128x1024_S1024x128_1_1_0_0_n_n 1024 rfl rfl k
  have el : dot_S1024x1024_S128x1024_S1024x128_1_1_0_0_n_n.lhsIdx (ix2 y0 y1) ((contrEquiv1 dot_S1024x1024_S128x1024_S1024x128_1_1_0_0_n_n 1024 rfl rfl).symm k) = ix2 y0 k := funext fun a => Fin.ext (by
    match a with
    | ⟨0, _⟩ => exact lhs0 _ _
    | ⟨1, _⟩ => exact (lhs1 _ _).trans hk)
  have er : dot_S1024x1024_S128x1024_S1024x128_1_1_0_0_n_n.rhsIdx (ix2 y0 y1) ((contrEquiv1 dot_S1024x1024_S128x1024_S1024x128_1_1_0_0_n_n 1024 rfl rfl).symm k) = ix2 y1 k := funext fun a => Fin.ext (by
    match a with
    | ⟨0, _⟩ => exact rhs0 _ _
    | ⟨1, _⟩ => exact (rhs1 _ _).trans hk)
  rw [el, er]

/-- The output block at k = 3: the scratch's row scaled by the row's mask entry. -/
theorem pay3_apply (a : FVec Ideal S1024x128 .f32) (x2 : FVec Ideal S1024x1 .f32) (y0 : Fin 1024) (y1 : Fin 128) :
    k0_pay3 (F := Ideal) a x2 (ix2 y0 y1) = a (ix2 y0 y1) * x2 (ix2 y0 (0 : Fin 1)) := by
  unfold k0_pay3
  show mulf a (broadcastTo S1024x128 (shapeCast S1024x1 x2 shapeCasts_S1024x1_S1024x1) broadcasts_S1024x1_S1024x128) (ix2 y0 y1) = _
  rw [shapeCast_self, mulf_apply]
  refine congrArg (a (ix2 y0 y1) * ·) ?_
  exact broadcastTo_apply x2 broadcasts_S1024x1_S1024x128 (ix2 y0 y1) (ix2 y0 (0 : Fin 1)) (fun a => by
    match a with
    | ⟨0, _⟩ => rfl
    | ⟨1, _⟩ => rfl)

end AtIdeal

/-! ## The blocks, read off the staged arrays -/

section Blocks

variable (V : (c : Dev nD) → (b : Ref sig .tc) → Buf (Elt Ideal) ((c : Thread nD τ).loc b))

/-- Where each window's block sits at point t = 4 mi + k: x at (mi, k), A_pad at (0, k), the mask and the output at (mi, 0). -/
theorem idx0 : ∀ t : Fin cfg0.N, win0_0.index t 0 = t.val / 4 ∧ win0_0.index t 1 = t.val % 4 ∧ win0_1.index t 0 = 0
    ∧ win0_1.index t 1 = t.val % 4 ∧ win0_2.index t 0 = t.val / 4 ∧ win0_2.index t 1 = 0 ∧ win0_3.index t 0 = t.val / 4 ∧ win0_3.index t 1 = 0 :=
  (by decide +kernel : ∀ t : Fin grid0.N, win0_0.index t 0 = t.val / 4 ∧ win0_0.index t 1 = t.val % 4 ∧ win0_1.index t 0 = 0
    ∧ win0_1.index t 1 = t.val % 4 ∧ win0_2.index t 0 = t.val / 4 ∧ win0_2.index t 1 = 0 ∧ win0_3.index t 0 = t.val / 4 ∧ win0_3.index t 1 = 0)

theorem tlt (t : Fin cfg0.N) : t.val < 64 := lt_of_lt_of_eq t.isLt (show cfg0.N = 64 from N_0)

/-- The row of the whole arrays that row y0 of the point's blocks is. -/
def row (n : ℕ) (hn : n < 64) (y0 : Fin 1024) : Fin 16384 := ⟨1024 * (n / 4) + y0.val, by have := y0.isLt; omega⟩
/-- The column of the contraction axis that column k of the point's blocks is. -/
def col (n : ℕ) (k : Fin 1024) : Fin 4096 := ⟨1024 * (n % 4) + k.val, by have := k.isLt; omega⟩

theorem iblk0_0_at (c : Dev nD) (t : Fin cfg0.N) (y0 k : Fin 1024) :
    (iblk0 V c 0 t : FVec Ideal S1024x1024 .bf16) (ix2 y0 k) = V c main_v13 (ix2 (row t.val (tlt t) y0) (col t.val k)) := by
  unfold iblk0
  rw [View.read_apply]
  show V c main_v13 _ = V c main_v13 _
  refine congrArg (V c main_v13) (funext fun a => Fin.ext ?_)
  match a with
  | ⟨0, _⟩ => show win0_0.index t 0 * 1024 + 1 * y0.val = 1024 * (t.val / 4) + y0.val; rw [(idx0 t).1]; omega
  | ⟨1, _⟩ => show win0_0.index t 1 * 1024 + 1 * k.val = 1024 * (t.val % 4) + k.val; rw [(idx0 t).2.1]; omega

theorem iblk0_1_at (c : Dev nD) (t : Fin cfg0.N) (y1 : Fin 128) (k : Fin 1024) :
    (iblk0 V c 1 t : FVec Ideal S128x1024 .bf16) (ix2 y1 k) = V c main_v16 (ix2 y1 (col t.val k)) := by
  unfold iblk0
  rw [View.read_apply]
  show V c main_v16 _ = V c main_v16 _
  refine congrArg (V c main_v16) (funext fun a => Fin.ext ?_)
  match a with
  | ⟨0, _⟩ => show win0_1.index t 0 * 128 + 1 * y1.val = y1.val; rw [(idx0 t).2.2.1]; omega
  | ⟨1, _⟩ => show win0_1.index t 1 * 1024 + 1 * k.val = 1024 * (t.val % 4) + k.val; rw [(idx0 t).2.2.2.1]; omega

theorem iblk0_2_at (c : Dev nD) (t : Fin cfg0.N) (y0 : Fin 1024) :
    (iblk0 V c 2 t : FVec Ideal S1024x1 .f32) (ix2 y0 (0 : Fin 1)) = V c main_v11 (ix2 (row t.val (tlt t) y0) (0 : Fin 1)) := by
  unfold iblk0
  rw [View.read_apply]
  show V c main_v11 _ = V c main_v11 _
  refine congrArg (V c main_v11) (funext fun a => Fin.ext ?_)
  match a with
  | ⟨0, _⟩ => show win0_2.index t 0 * 1024 + 1 * y0.val = 1024 * (t.val / 4) + y0.val; rw [(idx0 t).2.2.2.2.1]; omega
  | ⟨1, _⟩ => show win0_2.index t 1 * 1 + 1 * 0 = 0; rw [(idx0 t).2.2.2.2.2.1]

/-! ## The running sum at an index -/

open Cert.KSpec in
/-- The first k + 1 block products added in order onto zero. -/
def part (f g : Fin 4096 → EReal) : ℕ → EReal
  | 0 => 0 + blockDot f g 0
  | 1 => (0 + blockDot f g 0) + blockDot f g 1
  | 2 => ((0 + blockDot f g 0) + blockDot f g 1) + blockDot f g 2
  | _ => acc4 f g

theorem part_succ (f g : Fin 4096 → EReal) (k : ℕ) (hk : k < 3) (j : Fin 4) (hj : j.val = k + 1) :
    part f g k + Cert.KSpec.blockDot f g j = part f g (k + 1) := by
  interval_cases k
  · obtain rfl : j = 1 := Fin.ext hj; rfl
  · obtain rfl : j = 2 := Fin.ext hj; rfl
  · obtain rfl : j = 3 := Fin.ext hj; rfl

/-- The point's block product is one block of the whole rows' product. -/
theorem blk_sum (c : Dev nD) (t : Fin cfg0.N) (y0 : Fin 1024) (y1 : Fin 128) (f g : Fin 4096 → EReal)
    (hf : ∀ d, f d = V c main_v13 (ix2 (row t.val (tlt t) y0) d)) (hg : ∀ d, g d = V c main_v16 (ix2 y1 d))
    (j : Fin 4) (hj : j.val = t.val % 4) (x0 : FVec Ideal S1024x1024 .bf16) (x1 : FVec Ideal S128x1024 .bf16)
    (h0 : ∀ k, x0 (ix2 y0 k) = V c main_v13 (ix2 (row t.val (tlt t) y0) (col t.val k)))
    (h1 : ∀ k, x1 (ix2 y1 k) = V c main_v16 (ix2 y1 (col t.val k))) :
    ∑ k : Fin 1024, x0 (ix2 y0 k) * x1 (ix2 y1 k) = Cert.KSpec.blockDot f g j := by
  unfold Cert.KSpec.blockDot
  refine Finset.sum_congr rfl fun k _ => ?_
  rw [h0, h1, hf, hg]
  have e : col t.val k = ⟨1024 * j.val + k.val, by have := k.isLt; have := j.isLt; omega⟩ := Fin.ext (by show 1024 * (t.val % 4) + k.val = 1024 * j.val + k.val; omega)
  rw [e]

theorem acc0_at (c : Dev nD) : ∀ (n : ℕ) (h : n < cfg0.N) (y0 : Fin 1024) (y1 : Fin 128) (f g : Fin 4096 → EReal),
    (∀ d, f d = V c main_v13 (ix2 (row n (lt_of_lt_of_eq h (show cfg0.N = 64 from N_0)) y0) d)) → (∀ d, g d = V c main_v16 (ix2 y1 d)) →
    (acc0 V c n h : FVec Ideal S1024x128 .f32) (ix2 y0 y1) = part f g (n % 4)
  | 0, h, y0, y1, f, g, hf, hg => by
    show k0_pay2 (F := Ideal) _ _ _ (ix2 y0 y1) = _
    rw [pay2_apply, pay1_apply, blk_sum V c ⟨0, h⟩ y0 y1 f g hf hg 0 rfl _ _ (fun k => iblk0_0_at V c _ y0 k) (fun k => iblk0_1_at V c _ y1 k)]
    rfl
  | n + 1, h, y0, y1, f, g, hf, hg => by
    have hN : n + 1 < 64 := lt_of_lt_of_eq h (show cfg0.N = 64 from N_0)
    by_cases h0 : (n + 1) % 4 = 0
    · simp only [acc0, if_pos h0]
      rw [pay2_apply, pay1_apply, blk_sum V c ⟨n + 1, h⟩ y0 y1 f g hf hg 0 (by show (0 : ℕ) = (n + 1) % 4; omega) _ _ (fun k => iblk0_0_at V c _ y0 k) (fun k => iblk0_1_at V c _ y1 k), h0]
      rfl
    · simp only [acc0, if_neg h0]
      have hrow : row (n + 1) hN y0 = row n (by omega) y0 := Fin.ext (by show 1024 * ((n + 1) / 4) + y0.val = 1024 * (n / 4) + y0.val; omega)
      rw [pay2_apply, acc0_at c n (Nat.lt_of_succ_lt h) y0 y1 f g (fun d => by rw [hf d, hrow]) hg,
        blk_sum V c ⟨n + 1, h⟩ y0 y1 f g hf hg ⟨(n + 1) % 4, by omega⟩ rfl _ _ (fun k => iblk0_0_at V c _ y0 k) (fun k => iblk0_1_at V c _ y1 k)]
      have e : (n + 1) % 4 = n % 4 + 1 := by omega
      exact (part_succ f g (n % 4) (by omega) _ (by show (n + 1) % 4 = n % 4 + 1; omega)).trans (congrArg (part f g) e.symm)

/-! ## The output array -/

/-- What a write-back at k = 3 writes is the block there of the whole-array function. -/
theorem flushed_eq (c : Dev nD) (t : Fin cfg0.N) (hf : (cfg0.win 3).flush t = true) :
    (dat0 V c).flushed 3 t = ((cfg0.win 3).blk t).view.read (Elt Ideal) (Cert.KSpec.G0 (V c main_v13) (V c main_v16) (V c main_v11)) := by
  have h3 : t.val % 4 = 3 := (flush0_3 t).mp hf
  show (cfg0.win 3).cut (grid0.coords t) ((dat0 V c).after 3 t) = _
  rw [after0_3, outsAt_fst V c t h3]
  funext y
  obtain ⟨y0, y1, rfl⟩ : ∃ (y0 : Fin 1024) (y1 : Fin 128), y = ix2 y0 y1 := ⟨y 0, y 1, eq_ix2 y⟩
  rw [View.read_apply]
  show k0_pay3 (F := Ideal) _ _ (ix2 y0 y1) = _
  rw [pay3_apply, iblk0_2_at, acc0_at V c t.val t.isLt y0 y1 _ _ (fun _ => rfl) (fun _ => rfl), h3]
  have e : (((cfg0.win 3).blk t).view.emb (ix2 y0 y1) : S16384x128.Idx) = ix2 (row t.val (tlt t) y0) y1 := funext fun a => Fin.ext (by
    match a with
    | ⟨0, _⟩ => show win0_3.index t 0 * 1024 + 1 * y0.val = 1024 * (t.val / 4) + y0.val; rw [(idx0 t).2.2.2.2.2.2.1]; omega
    | ⟨1, _⟩ => show win0_3.index t 1 * 128 + 1 * y1.val = y1.val; rw [(idx0 t).2.2.2.2.2.2.2]; omega)
  rw [e]
  rfl

/-- An index of the output array is in point t's block iff each coordinate is in the block's range on its axis. -/
theorem mem_blk3 (t : Fin cfg0.N) (i : S16384x128.Idx) :
    i ∈ ((cfg0.win 3).blk t).view.set ↔ ∀ a : Fin 2, win0_3.index t a * S1024x128.size a ≤ (i a).val ∧ (i a).val < win0_3.index t a * S1024x128.size a + S1024x128.size a := by
  show i ∈ ((View.whole main_v20).slice (win0_3.rect t)).set ↔ _
  rw [View.set_slice_whole, Rect.mem_set_unit]
  exact Iff.rfl

/-- The sixteen blocks written back at k = 3 cover the output array, so it ends as the whole-array function. -/
theorem arrAt0_3 (c : Dev nD) :
    (dat0 V c).arrAt 3 cfg0.N = Cert.KSpec.G0 (V c main_v13) (V c main_v16) (V c main_v11) :=
  (dat0 V c).arrAt_eq_of_cover 3 (Cert.KSpec.G0 (V c main_v13) (V c main_v16) (V c main_v11)) (flushed_eq V c) fun i => by
    have hi0 : (i 0).val < 16384 := (i 0).isLt
    have hi1 : (i 1).val < 128 := (i 1).isLt
    have hN : cfg0.N = 64 := N_0
    let t : Fin cfg0.N := ⟨4 * ((i 0).val / 1024) + 3, by rw [hN]; omega⟩
    have ht : t.val = 4 * ((i 0).val / 1024) + 3 := rfl
    refine ⟨t, (flush0_3 t).mpr (by rw [ht]; omega), ?_⟩
    rw [mem_blk3]
    obtain ⟨-, -, -, -, -, -, e6, e7⟩ := idx0 t
    intro a
    match a with
    | ⟨0, _⟩ => show win0_3.index t (0 : Fin 2) * 1024 ≤ (i 0).val ∧ (i 0).val < win0_3.index t (0 : Fin 2) * 1024 + 1024; rw [e6, ht]; omega
    | ⟨1, _⟩ => show win0_3.index t (1 : Fin 2) * 128 ≤ (i 1).val ∧ (i 1).val < win0_3.index t (1 : Fin 2) * 128 + 128; rw [e7]; omega

end Blocks

end Cert.KernelIdeal.R0V

end
-- ==== Proof.R1Value.lean ====
/- What the main matmul region leaves in its result array, at the ideal values (extended reals; bf16 casts are the
   identity there), as one function of the five arrays it reads.
   The result block (mi, ni) is written back once, after the point with reduction index k = 3. By then its staging
   buffer holds ((((0 + P0) + P1) + P2) + P3) + (bias row + L): Pk the product of the k-th 1024-column blocks of the
   x rows and the W rows of the block (each a plain sum over the 1024 contracted columns, accumulated into a zero
   splat), added one after the other onto the zero block the k = 0 point stores; L the 128-term product of the h
   rows with the padded low-rank rows. Read at a row p and column q of the whole array this is the four block sums
   of the length-4096 product of row p of x with row q of W, added in order onto zero, plus (bias at q plus the
   128-term product of row p of h with row q of the padded low-rank matrix). The 64 written-back blocks tile the
   result array. -/
import proofs.«160741_j498216206382_2_alg».proof.Proof.R1
import proofs.«160741_j498216206382_2_alg».proof.Proof.KSpec
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.R1V

open Cert.KernelIdeal Cert.KernelIdeal.Gen Cert.KernelIdeal.R1

/-! ## What each case's stores leave, as the payload functions of the blocks (any float instance) -/

section Pieces
variable {F : FTy → Type} [FloatOps F]

theorem hz : (![0, 0] : Fin 2 → Nat) = fun _ => 0 := funext fun a => by fin_cases a <;> rfl

/-- k = 1, 2: one whole-block store, of the running contents plus the product of the x and W blocks. -/
theorem out_B (c : Dev nD) (i : grid1.Coords) (a3 : Memref sig .tc .vmem S1024x1024 .bf16) (h3 : a3.IsWhole) (a4 : Memref sig .tc .vmem S1024x1024 .bf16) (h4 : a4.IsWhole) (a5 : Memref sig .tc .vmem S1024x128 .f32) (h5 : a5.IsWhole) (a6 : Memref sig .tc .vmem S1024x128 .bf16) (h6 : a6.IsWhole) (a7 : Memref sig .tc .vmem S1x1024 .f32) (h7 : a7.IsWhole) (a8 : Memref sig .tc .vmem S1024x1024 .f32) (h8 : a8.IsWhole) (hc0 : ¬cond1_0 i) (hc1 : ¬cond1_1 i)
    (x0 : Vec F S1024x1024 .bf16) (x1 : Vec F S1024x1024 .bf16) (x2 : Vec F S1024x128 .f32) (x3 : Vec F S1024x128 .bf16) (x4 : Vec F S1x1024 .f32) (xo : Vec F S1024x1024 .f32) :
    out1_B_5 c i a3 h3 a4 h4 a5 h5 a6 h6 a7 h7 a8 h8 hc0 hc1 x0 x1 x2 x3 x4 xo = k1_pay2 x0 x1 xo := by
  unfold out1_B_5
  rw [View.read_writes_eq_canon _ _ _ (cover1_B_5 c i a3 h3 a4 h4 a5 h5 a6 h6 a7 h7 a8 h8 hc0 hc1 x0 x1 x2 x3 x4 xo)]
  unfold kernelRun1_B
  dsimp only
  rw [View.canon_unit_zero hz]
  simp only [View.readAt_eq_ld, h3.read_unread, h4.read_unread, h8.read_unread, View.ld_unit_zero (S := S1024x1024) hz]

/-- k = 0: the zero block is stored and read back, then the zero block plus the product is stored over it. -/
theorem out_A (c : Dev nD) (i : grid1.Coords) (a3 : Memref sig .tc .vmem S1024x1024 .bf16) (h3 : a3.IsWhole) (a4 : Memref sig .tc .vmem S1024x1024 .bf16) (h4 : a4.IsWhole) (a5 : Memref sig .tc .vmem S1024x128 .f32) (h5 : a5.IsWhole) (a6 : Memref sig .tc .vmem S1024x128 .bf16) (h6 : a6.IsWhole) (a7 : Memref sig .tc .vmem S1x1024 .f32) (h7 : a7.IsWhole) (a8 : Memref sig .tc .vmem S1024x1024 .f32) (h8 : a8.IsWhole) (hc0 : cond1_0 i) (hc1 : ¬cond1_1 i)
    (x0 : Vec F S1024x1024 .bf16) (x1 : Vec F S1024x1024 .bf16) (x2 : Vec F S1024x128 .f32) (x3 : Vec F S1024x128 .bf16) (x4 : Vec F S1x1024 .f32) :
    out1_A_5 c i a3 h3 a4 h4 a5 h5 a6 h6 a7 h7 a8 h8 hc0 hc1 x0 x1 x2 x3 x4 = k1_pay2 x0 x1 (k1_pay1 (F := F)) := by
  unfold out1_A_5
  rw [View.read_writes_eq_canon _ _ _ (cover1_A_5 c i a3 h3 a4 h4 a5 h5 a6 h6 a7 h7 a8 h8 hc0 hc1 x0 x1 x2 x3 x4)]
  unfold kernelRun1_A
  dsimp only
  sl_unfold_words
  rw [View.canon_cons_unit_zero (S := S1024x1024) hz, View.readCov_unit_zero (S := S1024x1024) _ hz]
  simp only [View.readAt_eq_ld, h3.read_unread, h4.read_unread, View.ld_unit_zero (S := S1024x1024) hz]

/-- k = 3: the accumulate store as for k = 1, 2, read back, then that plus (bias row + low-rank product) stored over it. -/
theorem out_C (c : Dev nD) (i : grid1.Coords) (a3 : Memref sig .tc .vmem S1024x1024 .bf16) (h3 : a3.IsWhole) (a4 : Memref sig .tc .vmem S1024x1024 .bf16) (h4 : a4.IsWhole) (a5 : Memref sig .tc .vmem S1024x128 .f32) (h5 : a5.IsWhole) (a6 : Memref sig .tc .vmem S1024x128 .bf16) (h6 : a6.IsWhole) (a7 : Memref sig .tc .vmem S1x1024 .f32) (h7 : a7.IsWhole) (a8 : Memref sig .tc .vmem S1024x1024 .f32) (h8 : a8.IsWhole) (hc0 : ¬cond1_0 i) (hc1 : cond1_1 i)
    (x0 : Vec F S1024x1024 .bf16) (x1 : Vec F S1024x1024 .bf16) (x2 : Vec F S1024x128 .f32) (x3 : Vec F S1024x128 .bf16) (x4 : Vec F S1x1024 .f32) (xo : Vec F S1024x1024 .f32) :
    out1_C_5 c i a3 h3 a4 h4 a5 h5 a6 h6 a7 h7 a8 h8 hc0 hc1 x0 x1 x2 x3 x4 xo = k1_pay3 x2 x3 (k1_pay2 x0 x1 xo) x4 := by
  unfold out1_C_5
  rw [View.read_writes_eq_canon _ _ _ (cover1_C_5 c i a3 h3 a4 h4 a5 h5 a6 h6 a7 h7 a8 h8 hc0 hc1 x0 x1 x2 x3 x4 xo)]
  unfold kernelRun1_C
  dsimp only
  sl_unfold_words
  rw [View.canon_cons_unit_zero (S := S1024x1024) hz, View.readCov_unit_zero (S := S1024x1024) _ hz]
  simp only [View.readAt_eq_ld, h3.read_unread, h4.read_unread, h5.read_unread, h6.read_unread, h7.read_unread, h8.read_unread,
    View.ld_unit_zero (S := S1024x1024) hz, View.ld_unit_zero (S := S1024x128) hz, View.ld_unit_zero (S := S1x1024) hz]

end Pieces

/-! ## The payloads read at an index, at the ideal values -/

section AtIdeal

/-- A product contracting the LAST axis of both operands (rows of A against rows of B), accumulated into the zero
    splat, read at (a, b): the sum over the contracted column of the products of the entries. -/
theorem matmul_nt_zero_apply {m n k : Nat} {φ₁ φ₂ : FTy}
    (wf : DotDims.WF (⟨2, ![m, k]⟩ : Shape) ⟨2, ![n, k]⟩ ⟨2, ![m, n]⟩ [1] [1] [0] [0] [] [])
    (A : FVec Ideal ⟨2, ![m, k]⟩ φ₁) (B : FVec Ideal ⟨2, ![n, k]⟩ φ₂) (a : Fin m) (b : Fin n) :
    matmul (⟨[1], [1], [0], [0], [], [], wf⟩ : DotDims (⟨2, ![m, k]⟩ : Shape) ⟨2, ![n, k]⟩ ⟨2, ![m, n]⟩) none A B (constant ⟨2, ![m, n]⟩ .f32 0x00000000#32) (ix2 a b)
      = ∑ c : Fin k, A (ix2 a c) * B (ix2 b c) := by
  show FloatOps.matmul _ none A B _ (ix2 a b) = _
  rw [Ideal.matmul_constant_zero_apply, ← Equiv.sum_comp (contrEquiv1 (⟨[1], [1], [0], [0], [], [], wf⟩ : DotDims (⟨2, ![m, k]⟩ : Shape) ⟨2, ![n, k]⟩ ⟨2, ![m, n]⟩) k rfl rfl).symm]
  refine Finset.sum_congr rfl fun c _ => ?_
  have c2 := contrEquiv1_symm_val (⟨[1], [1], [0], [0], [], [], wf⟩ : DotDims (⟨2, ![m, k]⟩ : Shape) ⟨2, ![n, k]⟩ ⟨2, ![m, n]⟩) k rfl rfl c
  have l2 : (⟨[1], [1], [0], [0], [], [], wf⟩ : DotDims (⟨2, ![m, k]⟩ : Shape) ⟨2, ![n, k]⟩ ⟨2, ![m, n]⟩).lhsIdx (ix2 a b) ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], wf⟩ : DotDims (⟨2, ![m, k]⟩ : Shape) ⟨2, ![n, k]⟩ ⟨2, ![m, n]⟩).rhsIdx (ix2 a b) ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

/-- The reset payload is the zero block. -/
theorem pay1_apply (a b : Fin 1024) : k1_pay1 (F := Ideal) (ix2 a b) = (0 : EReal) := by
  show Ideal.ofBits .f32 0x00000000#32 = 0
  exact Ideal.ofBits_zero_f32

/-- The accumulate payload as a vector: the running contents plus the product into the zero splat (the shape casts
    are to the same shape). -/
theorem pay2_eq (x0 x1 : Vec Ideal S1024x1024 .bf16) (acc : Vec Ideal S1024x1024 .f32) :
    k1_pay2 x0 x1 acc = addf acc (matmul (φ₁ := .bf16) (φ₂ := .bf16) dot_S1024x1024_S1024x1024_S1024x1024_1_1_0_0_n_n none x0 x1 (constant S1024x1024 .f32 0x00000000#32)) := by
  unfold k1_pay2
  simp only [shapeCast_self]

/-- The accumulate payload at (a, b): the running entry plus the 1024-term product of row a of the x block with row b
    of the W block. -/
theorem pay2_apply (x0 x1 : Vec Ideal S1024x1024 .bf16) (acc : Vec Ideal S1024x1024 .f32) (a b : Fin 1024) :
    k1_pay2 x0 x1 acc (ix2 a b) = acc (ix2 a b) + ∑ k : Fin 1024, x0 (ix2 a k) * x1 (ix2 b k) := by
  rw [pay2_eq]
  show acc (ix2 a b) + _ = _
  exact congrArg (acc (ix2 a b) + ·) (matmul_nt_zero_apply (m := 1024) (n := 1024) (k := 1024) (φ₁ := .bf16) (φ₂ := .bf16) _ x0 x1 a b)

/-- The finishing payload as a vector: the accumulated block plus (the bias row broadcast down the rows plus the product
    of the h block, narrowed, with the low-rank block into the zero splat). -/
theorem pay3_eq (x2 : Vec Ideal S1024x128 .f32) (x3 : Vec Ideal S1024x128 .bf16) (v21 : Vec Ideal S1024x1024 .f32) (x4 : Vec Ideal S1x1024 .f32) :
    k1_pay3 x2 x3 v21 x4 = addf v21 (addf (broadcastTo S1024x1024 x4 broadcasts_S1x1024_S1024x1024)
      (matmul (φ₁ := .bf16) (φ₂ := .bf16) dot_S1024x128_S1024x128_S1024x1024_1_1_0_0_n_n none (truncf .bf16 x2 bitsLt_bf16_f32) x3 (constant S1024x1024 .f32 0x00000000#32))) := by
  unfold k1_pay3
  simp only [shapeCast_self]

/-- The finishing payload at (a, b): the accumulated entry plus (the bias at column b plus the 128-term product of row a
    of the h block with row b of the low-rank block); narrowing to bf16 is the identity at the ideal values. -/
theorem pay3_apply (x2 : Vec Ideal S1024x128 .f32) (x3 : Vec Ideal S1024x128 .bf16) (v21 : Vec Ideal S1024x1024 .f32) (x4 : Vec Ideal S1x1024 .f32)
    (a b : Fin 1024) :
    k1_pay3 x2 x3 v21 x4 (ix2 a b) = v21 (ix2 a b) + (x4 (ix2 (0 : Fin 1) b) + ∑ r : Fin 128, x2 (ix2 a r) * x3 (ix2 b r)) := by
  rw [pay3_eq]
  show v21 (ix2 a b) + (broadcastTo S1024x1024 x4 broadcasts_S1x1024_S1024x1024 (ix2 a b) + _) = _
  refine congrArg (v21 (ix2 a b) + ·) ?_
  refine congrArg₂ (· + ·) ?_ ?_
  · exact broadcastTo_apply x4 _ (ix2 a b) (ix2 (0 : Fin 1) b) (fun ax => by
      match ax with
      | ⟨0, _⟩ => rfl
      | ⟨1, _⟩ => rfl)
  · exact matmul_nt_zero_apply (m := 1024) (n := 1024) (k := 128) (φ₁ := .bf16) (φ₂ := .bf16) _ (truncf .bf16 x2 bitsLt_bf16_f32) x3 a b

end AtIdeal

/-! ## Where the windows' blocks sit in their arrays

The point t of the 16 x 4 x 4 grid has coordinates (t / 16, t / 4 mod 4, t mod 4) = (mi, ni, k). Block indices per
window: x (mi, k); W (ni, k); h (mi, 0); low-rank (ni, 0); bias (0, ni); result (mi, ni). Decided over the grid. -/

theorem idx1_0 : ∀ t : Fin grid1.N, win1_0.index t 0 = t.val / 16 ∧ win1_0.index t 1 = t.val % 4 := by decide +kernel
theorem idx1_1 : ∀ t : Fin grid1.N, win1_1.index t 0 = t.val / 4 % 4 ∧ win1_1.index t 1 = t.val % 4 := by decide +kernel
theorem idx1_2 : ∀ t : Fin grid1.N, win1_2.index t 0 = t.val / 16 ∧ win1_2.index t 1 = 0 := by decide +kernel
theorem idx1_3 : ∀ t : Fin grid1.N, win1_3.index t 0 = t.val / 4 % 4 ∧ win1_3.index t 1 = 0 := by decide +kernel
theorem idx1_4 : ∀ t : Fin grid1.N, win1_4.index t 0 = 0 ∧ win1_4.index t 1 = t.val / 4 % 4 := by decide +kernel
theorem idx1_5 : ∀ t : Fin grid1.N, win1_5.index t 0 = t.val / 16 ∧ win1_5.index t 1 = t.val / 4 % 4 := by decide +kernel

section Value

variable (V : (c : Dev nD) → (b : Ref sig .tc) → Buf (Elt Ideal) ((c : Thread nD τ).loc b))

/-! An entry of a window's block at point t is the entry of its array at the block's offset plus the local coordinate,
    on each axis. The array coordinates are given as free indices with their values as hypotheses. -/

theorem iblk1_0_apply (c : Dev nD) (t : Fin cfg1.N) (a k : Fin 1024) (p : Fin 16384) (d : Fin 4096)
    (hp : p.val = 1024 * (t.val / 16) + a.val) (hd : d.val = 1024 * (t.val % 4) + k.val) :
    (iblk1 V c 0 t : Vec Ideal S1024x1024 .bf16) (ix2 a k) = V c main_v13 (ix2 p d) := by
  unfold iblk1
  rw [View.read_apply]
  show V c main_v13 _ = V c main_v13 _
  refine congrArg (V c main_v13) (funext fun ax => Fin.ext ?_)
  match ax with
  | ⟨0, _⟩ => show win1_0.index t 0 * 1024 + 1 * a.val = p.val; rw [(idx1_0 t).1, hp]; omega
  | ⟨1, _⟩ => show win1_0.index t 1 * 1024 + 1 * k.val = d.val; rw [(idx1_0 t).2, hd]; omega

theorem iblk1_1_apply (c : Dev nD) (t : Fin cfg1.N) (b k : Fin 1024) (q : Fin 4096) (d : Fin 4096)
    (hq : q.val = 1024 * (t.val / 4 % 4) + b.val) (hd : d.val = 1024 * (t.val % 4) + k.val) :
    (iblk1 V c 1 t : Vec Ideal S1024x1024 .bf16) (ix2 b k) = V c main_v14 (ix2 q d) := by
  unfold iblk1
  rw [View.read_apply]
  show V c main_v14 _ = V c main_v14 _
  refine congrArg (V c main_v14) (funext fun ax => Fin.ext ?_)
  match ax with
  | ⟨0, _⟩ => show win1_1.index t 0 * 1024 + 1 * b.val = q.val; rw [(idx1_1 t).1, hq]; omega
  | ⟨1, _⟩ => show win1_1.index t 1 * 1024 + 1 * k.val = d.val; rw [(idx1_1 t).2, hd]; omega

theorem iblk1_2_apply (c : Dev nD) (t : Fin cfg1.N) (a : Fin 1024) (r : Fin 128) (p : Fin 16384)
    (hp : p.val = 1024 * (t.val / 16) + a.val) :
    (iblk1 V c 2 t : Vec Ideal S1024x128 .f32) (ix2 a r) = V c main_v20 (ix2 p r) := by
  unfold iblk1
  rw [View.read_apply]
  show V c main_v20 _ = V c main_v20 _
  refine congrArg (V c main_v20) (funext fun ax => Fin.ext ?_)
  match ax with
  | ⟨0, _⟩ => show win1_2.index t 0 * 1024 + 1 * a.val = p.val; rw [(idx1_2 t).1, hp]; omega
  | ⟨1, _⟩ => show win1_2.index t 1 * 128 + 1 * r.val = r.val; rw [(idx1_2 t).2]; omega

theorem iblk1_3_apply (c : Dev nD) (t : Fin cfg1.N) (b : Fin 1024) (r : Fin 128) (q : Fin 4096)
    (hq : q.val = 1024 * (t.val / 4 % 4) + b.val) :
    (iblk1 V c 3 t : Vec Ideal S1024x128 .bf16) (ix2 b r) = V c main_v18 (ix2 q r) := by
  unfold iblk1
  rw [View.read_apply]
  show V c main_v18 _ = V c main_v18 _
  refine congrArg (V c main_v18) (funext fun ax => Fin.ext ?_)
  match ax with
  | ⟨0, _⟩ => show win1_3.index t 0 * 1024 + 1 * b.val = q.val; rw [(idx1_3 t).1, hq]; omega
  | ⟨1, _⟩ => show win1_3.index t 1 * 128 + 1 * r.val = r.val; rw [(idx1_3 t).2]; omega

theorem iblk1_4_apply (c : Dev nD) (t : Fin cfg1.N) (b : Fin 1024) (q : Fin 4096)
    (hq : q.val = 1024 * (t.val / 4 % 4) + b.val) :
    (iblk1 V c 4 t : Vec Ideal S1x1024 .f32) (ix2 (0 : Fin 1) b) = V c main_v19 (ix2 (0 : Fin 1) q) := by
  unfold iblk1
  rw [View.read_apply]
  show V c main_v19 _ = V c main_v19 _
  refine congrArg (V c main_v19) (funext fun ax => Fin.ext ?_)
  match ax with
  | ⟨0, _⟩ => show win1_4.index t 0 * 1 + 1 * 0 = 0; rw [(idx1_4 t).1]
  | ⟨1, _⟩ => show win1_4.index t 1 * 1024 + 1 * b.val = q.val; rw [(idx1_4 t).2, hq]; omega

/-! ## What the output block holds when it is written back -/

/-- The point j places before t. -/
abbrev pt (t : Fin cfg1.N) (j : ℕ) : Fin cfg1.N := ⟨t.val - j, Nat.lt_of_le_of_lt (Nat.sub_le _ _) t.isLt⟩

theorem outsAt1_congr (c : Dev nD) {n n' : ℕ} (e : n = n') (h : n < cfg1.N) (h' : n' < cfg1.N) :
    outsAt1 V c n h = outsAt1 V c n' h' := by subst e; rfl

/-- At a point with k = 3 the four points of its run are behind it: the k = 0 point reset and accumulated, the k = 1, 2
    points accumulated, and this point accumulates and finishes. -/
theorem outsAt1_flush (c : Dev nD) (t : Fin cfg1.N) (h3 : t.val % 4 = 3) :
    outsAt1 V c t.val t.isLt =
      k1_pay3 (iblk1 V c 2 t) (iblk1 V c 3 t)
        (k1_pay2 (iblk1 V c 0 t) (iblk1 V c 1 t)
          (k1_pay2 (iblk1 V c 0 (pt t 1)) (iblk1 V c 1 (pt t 1))
            (k1_pay2 (iblk1 V c 0 (pt t 2)) (iblk1 V c 1 (pt t 2))
              (k1_pay2 (iblk1 V c 0 (pt t 3)) (iblk1 V c 1 (pt t 3)) (k1_pay1 (F := Ideal))))))
        (iblk1 V c 4 t) := by
  have hN : t.val < 256 := lt_of_lt_of_eq t.isLt (show cfg1.N = 256 from N_1)
  have e0 := outsAt1_C V c t (by omega) h3
  have e1 := outsAt1_B V c (pt t 1) (by show ¬(t.val - 1) % 4 = 0; omega) (by show ¬(t.val - 1) % 4 = 3; omega)
  have e2 := outsAt1_B V c (pt t 2) (by show ¬(t.val - 2) % 4 = 0; omega) (by show ¬(t.val - 2) % 4 = 3; omega)
  have e3 := outsAt1_A V c (pt t 3) (by show (t.val - 3) % 4 = 0; omega) (by show ¬(t.val - 3) % 4 = 3; omega)
  rw [out_C] at e0
  rw [out_B] at e1 e2
  rw [out_A] at e3
  rw [e0, outsAt1_congr V c (show t.val - 1 = (pt t 1).val from rfl) _ (pt t 1).isLt, e1,
    outsAt1_congr V c (show (pt t 1).val - 1 = (pt t 2).val from by show t.val - 1 - 1 = t.val - 2; omega) _ (pt t 2).isLt, e2,
    outsAt1_congr V c (show (pt t 2).val - 1 = (pt t 3).val from by show t.val - 2 - 1 = t.val - 3; omega) _ (pt t 3).isLt, e3]

end Value

section Final

/-- Column 1024 j + k of a length-4096 row: the k-th column of its j-th block. -/
abbrev col (j : Fin 4) (k : Fin 1024) : Fin 4096 := ⟨1024 * j.val + k.val, by omega⟩

/-- The finished block over VARIABLE blocks, at a local entry (a, b): the four 1024-term products added in order onto
    zero, plus (the bias entry plus the 128-term product). -/
theorem chain_apply (x2 : Vec Ideal S1024x128 .f32) (x3 : Vec Ideal S1024x128 .bf16) (x4 : Vec Ideal S1x1024 .f32)
    (u3 w3 u2 w2 u1 w1 u0 w0 : Vec Ideal S1024x1024 .bf16) (a b : Fin 1024) :
    k1_pay3 x2 x3 (k1_pay2 u3 w3 (k1_pay2 u2 w2 (k1_pay2 u1 w1 (k1_pay2 u0 w0 (k1_pay1 (F := Ideal)))))) x4 (ix2 a b)
      = ((((0 + ∑ k : Fin 1024, u0 (ix2 a k) * w0 (ix2 b k)) + ∑ k : Fin 1024, u1 (ix2 a k) * w1 (ix2 b k))
          + ∑ k : Fin 1024, u2 (ix2 a k) * w2 (ix2 b k)) + ∑ k : Fin 1024, u3 (ix2 a k) * w3 (ix2 b k))
        + (x4 (ix2 (0 : Fin 1) b) + ∑ r : Fin 128, x2 (ix2 a r) * x3 (ix2 b r)) := by
  rw [pay3_apply, pay2_apply, pay2_apply, pay2_apply, pay2_apply, pay1_apply]

/-- The same against whole arrays X, W, H, BW, Bi over VARIABLE blocks: when the j-th pair of blocks holds the j-th
    1024-column pieces of row p of X and row q of W, and the other blocks hold row p of H, row q of BW and entry q of
    Bi, the finished block's entry (a, b) is the whole-array function at (p, q). -/
theorem oAt_of_blocks (X : Cert.KSpec.SX2.Idx → EReal) (W : Cert.KSpec.SW.Idx → EReal) (H : Cert.KSpec.SH.Idx → EReal)
    (BW : Cert.KSpec.SBp.Idx → EReal) (Bi : Cert.KSpec.SBi.Idx → EReal)
    (x2 : Vec Ideal S1024x128 .f32) (x3 : Vec Ideal S1024x128 .bf16) (x4 : Vec Ideal S1x1024 .f32)
    (u3 w3 u2 w2 u1 w1 u0 w0 : Vec Ideal S1024x1024 .bf16) (a b : Fin 1024) (p : Fin 16384) (q : Fin 4096)
    (hu0 : ∀ k : Fin 1024, u0 (ix2 a k) = X (ix2 p (col 0 k))) (hw0 : ∀ k : Fin 1024, w0 (ix2 b k) = W (ix2 q (col 0 k)))
    (hu1 : ∀ k : Fin 1024, u1 (ix2 a k) = X (ix2 p (col 1 k))) (hw1 : ∀ k : Fin 1024, w1 (ix2 b k) = W (ix2 q (col 1 k)))
    (hu2 : ∀ k : Fin 1024, u2 (ix2 a k) = X (ix2 p (col 2 k))) (hw2 : ∀ k : Fin 1024, w2 (ix2 b k) = W (ix2 q (col 2 k)))
    (hu3 : ∀ k : Fin 1024, u3 (ix2 a k) = X (ix2 p (col 3 k))) (hw3 : ∀ k : Fin 1024, w3 (ix2 b k) = W (ix2 q (col 3 k)))
    (hh : ∀ r : Fin 128, x2 (ix2 a r) = H (ix2 p r)) (hb : ∀ r : Fin 128, x3 (ix2 b r) = BW (ix2 q r))
    (hbias : x4 (ix2 (0 : Fin 1) b) = Bi (ix2 (0 : Fin 1) q)) :
    k1_pay3 x2 x3 (k1_pay2 u3 w3 (k1_pay2 u2 w2 (k1_pay2 u1 w1 (k1_pay2 u0 w0 (k1_pay1 (F := Ideal)))))) x4 (ix2 a b)
      = Cert.KSpec.oAt X W H BW Bi p q := by
  rw [chain_apply]
  simp only [hu0, hw0, hu1, hw1, hu2, hw2, hu3, hw3, hh, hb, hbias]
  rfl

variable (V : (c : Dev nD) → (b : Ref sig .tc) → Buf (Elt Ideal) ((c : Thread nD τ).loc b))

/-- The block written back after a point t with k = 3, at its local entry (a, b), is the whole-array function at row
    p = 1024 (t / 16) + a and column q = 1024 (t / 4 mod 4) + b: the run's four points have the same block row and
    column and reduction indices 0, 1, 2, 3, so their x and W blocks are the four 1024-column pieces of row p of x and
    row q of W. -/
theorem flushed_apply (c : Dev nD) (t : Fin cfg1.N) (h3 : t.val % 4 = 3) (a b : Fin 1024) (p : Fin 16384) (q : Fin 4096)
    (hp : p.val = 1024 * (t.val / 16) + a.val) (hq : q.val = 1024 * (t.val / 4 % 4) + b.val) :
    outsAt1 V c t.val t.isLt (ix2 a b) = Cert.KSpec.oAt (V c main_v13) (V c main_v14) (V c main_v20) (V c main_v18) (V c main_v19) p q := by
  have hN : t.val < 256 := lt_of_lt_of_eq t.isLt (show cfg1.N = 256 from N_1)
  have e16 : ∀ j : ℕ, j ≤ 3 → (pt t j).val / 16 = t.val / 16 := fun j hj => by show (t.val - j) / 16 = _; omega
  have e4 : ∀ j : ℕ, j ≤ 3 → (pt t j).val / 4 % 4 = t.val / 4 % 4 := fun j hj => by show (t.val - j) / 4 % 4 = _; omega
  have hX : ∀ (j : Fin 4) (s : Fin cfg1.N), s.val / 16 = t.val / 16 → s.val % 4 = j.val → ∀ k : Fin 1024,
      (iblk1 V c 0 s : Vec Ideal S1024x1024 .bf16) (ix2 a k) = V c main_v13 (ix2 p (col j k)) :=
    fun j s h16 hj k => iblk1_0_apply V c s a k p (col j k) (by rw [h16]; exact hp) (by show 1024 * j.val + k.val = _; rw [hj])
  have hW : ∀ (j : Fin 4) (s : Fin cfg1.N), s.val / 4 % 4 = t.val / 4 % 4 → s.val % 4 = j.val → ∀ k : Fin 1024,
      (iblk1 V c 1 s : Vec Ideal S1024x1024 .bf16) (ix2 b k) = V c main_v14 (ix2 q (col j k)) :=
    fun j s h4 hj k => iblk1_1_apply V c s b k q (col j k) (by rw [h4]; exact hq) (by show 1024 * j.val + k.val = _; rw [hj])
  have m0 : (pt t 3).val % 4 = (0 : Fin 4).val := by show (t.val - 3) % 4 = 0; omega
  have m1 : (pt t 2).val % 4 = (1 : Fin 4).val := by show (t.val - 2) % 4 = 1; omega
  have m2 : (pt t 1).val % 4 = (2 : Fin 4).val := by show (t.val - 1) % 4 = 2; omega
  have m3 : t.val % 4 = (3 : Fin 4).val := h3
  rw [outsAt1_flush V c t h3]
  exact oAt_of_blocks (V c main_v13) (V c main_v14) (V c main_v20) (V c main_v18) (V c main_v19)
    (iblk1 V c 2 t) (iblk1 V c 3 t) (iblk1 V c 4 t) (iblk1 V c 0 t) (iblk1 V c 1 t)
    (iblk1 V c 0 (pt t 1)) (iblk1 V c 1 (pt t 1)) (iblk1 V c 0 (pt t 2)) (iblk1 V c 1 (pt t 2))
    (iblk1 V c 0 (pt t 3)) (iblk1 V c 1 (pt t 3)) a b p q
    (hX 0 (pt t 3) (e16 3 (by omega)) m0) (hW 0 (pt t 3) (e4 3 (by omega)) m0)
    (hX 1 (pt t 2) (e16 2 (by omega)) m1) (hW 1 (pt t 2) (e4 2 (by omega)) m1)
    (hX 2 (pt t 1) (e16 1 (by omega)) m2) (hW 2 (pt t 1) (e4 1 (by omega)) m2)
    (hX 3 t rfl m3) (hW 3 t rfl m3)
    (fun r => iblk1_2_apply V c t a r p hp) (fun r => iblk1_3_apply V c t b r q hq) (iblk1_4_apply V c t b q hq)

/-- Every write-back writes the whole-array function's block: the block after a k = 3 point, entry by entry. -/
theorem flushed_eq (c : Dev nD) (t : Fin cfg1.N) (hf : (cfg1.win 5).flush t = true) :
    (dat1 V c).flushed 5 t = ((cfg1.win 5).blk t).view.read (Elt Ideal) (Cert.KSpec.G1 (V c main_v13) (V c main_v14) (V c main_v20) (V c main_v18) (V c main_v19)) := by
  have hN : t.val < 256 := lt_of_lt_of_eq t.isLt (show cfg1.N = 256 from N_1)
  have h3 : t.val % 4 = 3 := (flush1_5 t).mp hf
  show (cfg1.win 5).cut (grid1.coords t) ((dat1 V c).after 5 t) = _
  rw [after1_5]
  funext y
  obtain ⟨a, b, rfl⟩ : ∃ (a b : Fin 1024), y = ix2 a b := ⟨y 0, y 1, eq_ix2 y⟩
  rw [View.read_apply]
  show outsAt1 V c t.val t.isLt (ix2 a b) = Cert.KSpec.oAt (V c main_v13) (V c main_v14) (V c main_v20) (V c main_v18) (V c main_v19)
    ((((cfg1.win 5).blk t).view.emb (ix2 a b)) 0) ((((cfg1.win 5).blk t).view.emb (ix2 a b)) 1)
  exact flushed_apply V c t h3 a b _ _
    (by show win1_5.index t 0 * 1024 + 1 * a.val = _; rw [(idx1_5 t).1]; omega)
    (by show win1_5.index t 1 * 1024 + 1 * b.val = _; rw [(idx1_5 t).2]; omega)

/-- THE RESULT ARRAY after the region: the whole-array function of the five arrays it reads. Each entry (i0, i1) lies in
    the block (i0 / 1024, i1 / 1024), written back after the point 16 (i0 / 1024) + 4 (i1 / 1024) + 3. -/
theorem arrAt1_5 (c : Dev nD) :
    (dat1 (F := Ideal) V c).arrAt 5 cfg1.N = Cert.KSpec.G1 (V c main_v13) (V c main_v14) (V c main_v20) (V c main_v18) (V c main_v19) :=
  (dat1 V c).arrAt_eq_of_cover 5 (Cert.KSpec.G1 (V c main_v13) (V c main_v14) (V c main_v20) (V c main_v18) (V c main_v19)) (flushed_eq V c) fun i => by
    have h0 : (i 0 : Nat) < 16384 := (i 0).isLt
    have h1 : (i 1 : Nat) < 4096 := (i 1).isLt
    have hN : cfg1.N = 256 := N_1
    obtain ⟨tt, htt⟩ : ∃ tt : Fin cfg1.N, tt.val = 16 * ((i 0 : Nat) / 1024) + 4 * ((i 1 : Nat) / 1024) + 3 :=
      ⟨⟨16 * ((i 0 : Nat) / 1024) + 4 * ((i 1 : Nat) / 1024) + 3, by rw [hN]; omega⟩, rfl⟩
    refine ⟨tt, (flush1_5 tt).mpr (by rw [htt]; omega), ?_⟩
    show i ∈ ((View.whole main_v21).slice (win1_5.rect tt)).set
    rw [View.set_slice_whole, Rect.mem_set_unit]
    intro ax
    match ax with
    | ⟨0, _⟩ =>
      show win1_5.index tt 0 * 1024 ≤ (i 0 : Nat) ∧ (i 0 : Nat) < win1_5.index tt 0 * 1024 + 1024
      rw [(idx1_5 tt).1, htt]
      omega
    | ⟨1, _⟩ =>
      show win1_5.index tt 1 * 1024 ≤ (i 1 : Nat) ∧ (i 1 : Nat) < win1_5.index tt 1 * 1024 + 1024
      rw [(idx1_5 tt).2, htt]
      omega

end Final

end Cert.KernelIdeal.R1V
end
-- ==== Proof.HostPre.lean ====
/- The kernel program's host operations before and after its two regions, read at an index: what each array the
   regions are handed holds, as a function of the argument arrays.  x is re-laid as [16384, 4096] (row 4096·b + s);
   W is unchanged; A and B are padded with zero rows / columns from rank 32 to 128; the bias becomes one row; the
   row scale is 2 on the tail and 0 off it, as a column [16384, 1]; the result [16384, 4096] is re-laid as
   [4, 4096, 4096].  A change of float format is the identity on extended reals. -/
import proofs.«160741_j498216206382_2_alg».proof.Proof.Gen.KernelIdeal.Regions
import proofs.«160741_j498216206382_2_alg».proof.Proof.Spec
import Idealize.ShloMosaic.Lib.Pipeline.Value
import Idealize.ShloMosaic.Lib.ValueIdx
import Idealize.ShloMosaic.Lib.ValueLayout
import Idealize.ShloMosaic.Lib.KernelVsHost
import Idealize.ShloMosaic.Lib.StableHlo.Run
import Idealize.ShloMosaic.PureOps.Ideal.Laws
import Idealize.ShloMosaic.Lib.Tactic

noncomputable section

namespace Cert.KernelIdeal.HostPre

open Cert.KernelIdeal Cert.KernelIdeal.Gen
open Idealize.ShloMosaic Idealize.ShloMosaic.TcCoe Idealize.SL.Sem Idealize.ShloMosaic.StableHlo
open Idealize.ShloMosaic.ValueIdx
open scoped BigOperators

/-! ## The layout operations at an index, over arbitrary arrays -/

section Layout
variable {α : Type}

/-- [4, 4096, 4096] re-laid as [16384, 4096]: row `p` is sample `p / 4096`, position `p % 4096`. -/
theorem rows_of_cube (x : S4x4096x4096.Idx → α) (h : S4x4096x4096.ShapeCasts S16384x4096) (p : Fin 16384) (d : Fin 4096) :
    shapeCast S16384x4096 x h (ix2 p d) = x (ix3 ⟨p.val / 4096, by omega⟩ ⟨p.val % 4096, Nat.mod_lt _ (by decide)⟩ d) := by
  refine shapeCast_apply x h _ _ ?_
  rw [Shape.rowMajor_val_three, Shape.rowMajor_val_two]
  show (p.val / 4096 * 4096 + p.val % 4096) * 4096 + d.val = p.val * 4096 + d.val
  omega

/-- [16384, 4096] re-laid as [4, 4096, 4096]: entry `(b, s, o)` is row `4096·b + s`, column `o`. -/
theorem cube_of_rows (x : S16384x4096.Idx → α) (h : S16384x4096.ShapeCasts S4x4096x4096) (b : Fin 4) (s o : Fin 4096) :
    shapeCast S4x4096x4096 x h (ix3 b s o) = x (ix2 ⟨4096 * b.val + s.val, by omega⟩ o) := by
  refine shapeCast_apply x h _ _ ?_
  rw [Shape.rowMajor_val_three, Shape.rowMajor_val_two]
  show (4096 * b.val + s.val) * 4096 + o.val = (b.val * 4096 + s.val) * 4096 + o.val
  omega

/-- [4096] re-laid as one row [1, 4096]. -/
theorem row_of_vec (x : S4096.Idx → α) (h : S4096.ShapeCasts S1x4096) (q : Fin 4096) :
    shapeCast S1x4096 x h (ix2 (0 : Fin 1) q) = x (ix1 q) := by
  refine shapeCast_apply x h _ _ ?_
  rw [Shape.rowMajor_val_one, Shape.rowMajor_val_two]
  show q.val = 0 * 4096 + q.val
  omega

end Layout

/-- The word `0x40000000` is 2. -/
theorem two_word : Ideal.ofBits .f32 0x40000000#32 = (2 : EReal) := by
  have h : Ideal.ofBits .f32 0x40000000#32 = ((2 : ℝ) : EReal) := by
    simp [Ideal.ofBits, Ideal.ieee, -EReal.coe_mul]; norm_num
  rw [h]; rfl

/-! ## The paddings and the row scale, over arbitrary arrays -/

section PadsAndMask

/-- [4, 4096] re-laid as a column [16384, 1]: row `p` is sample `p / 4096`, position `p % 4096`. -/
theorem col_of_grid {α : Type} (x : S4x4096.Idx → α) (h : S4x4096.ShapeCasts S16384x1) (p : Fin 16384) :
    shapeCast S16384x1 x h (ix2 p (0 : Fin 1))
      = x (ix2 ⟨p.val / 4096, by omega⟩ ⟨p.val % 4096, Nat.mod_lt _ (by decide)⟩) := by
  refine shapeCast_apply x h _ _ ?_
  rw [Shape.rowMajor_val_two, Shape.rowMajor_val_two]
  show p.val / 4096 * 4096 + p.val % 4096 = p.val * 1 + 0
  omega

/-- A [32, 4096] array padded with 96 rows below: row `r` is the array's row for `r < 32`, the padding value beyond. -/
theorem pad_rows {α : Type} (x : S32x4096.Idx → α) (v : S_.Idx → α)
    (h : S32x4096.Pads ![0, 0] ![96, 0] ![0, 0] S128x4096) (hu : 0 < S_.numel) (r : Fin 128) (d : Fin 4096) :
    pad S128x4096 ![0, 0] ![96, 0] ![0, 0] x v h hu (ix2 r d)
      = if hr : r.val < 32 then x (ix2 ⟨r.val, hr⟩ d) else v (Shape.Idx.first hu) := by
  by_cases hr : r.val < 32
  · rw [dif_pos hr]
    refine pad_apply_of_inside _ _ _ x v h hu _ (ix2 ⟨r.val, hr⟩ d) (fun a => ?_)
    match a with
    | ⟨0, _⟩ => show r.val = 0 + r.val * (0 + 1); omega
    | ⟨1, _⟩ => show d.val = 0 + d.val * (0 + 1); omega
  · rw [dif_neg hr]
    refine pad_apply_of_not_inside _ _ _ x v h hu _ (0 : Fin 2) (fun hin => hr ?_)
    have h3 : (r.val - 0) / (0 + 1) < 32 := hin.2.2
    omega

/-- A [4096, 32] array padded with 96 columns on the right: column `r` is the array's for `r < 32`, the padding
    value beyond. -/
theorem pad_cols {α : Type} (x : S4096x32.Idx → α) (v : S_.Idx → α)
    (h : S4096x32.Pads ![0, 0] ![0, 96] ![0, 0] S4096x128) (hu : 0 < S_.numel) (q : Fin 4096) (r : Fin 128) :
    pad S4096x128 ![0, 0] ![0, 96] ![0, 0] x v h hu (ix2 q r)
      = if hr : r.val < 32 then x (ix2 q ⟨r.val, hr⟩) else v (Shape.Idx.first hu) := by
  by_cases hr : r.val < 32
  · rw [dif_pos hr]
    refine pad_apply_of_inside _ _ _ x v h hu _ (ix2 q ⟨r.val, hr⟩) (fun a => ?_)
    match a with
    | ⟨0, _⟩ => show q.val = 0 + q.val * (0 + 1); omega
    | ⟨1, _⟩ => show r.val = 0 + r.val * (0 + 1); omega
  · rw [dif_neg hr]
    refine pad_apply_of_not_inside _ _ _ x v h hu _ (1 : Fin 2) (fun hin => hr ?_)
    have h3 : (r.val - 0) / (0 + 1) < 32 := hin.2.2
    omega

/-- The integer 0 converted to a float is 0. -/
theorem sitofp_zero_word : (FloatOps.sitofp (F := Ideal) .f32 (0#32 : BitVec 32) : EReal) = 0 := by
  show ((((0#32 : BitVec 32).toInt : ℤ) : ℝ) : EReal) = 0
  simp

/-- The tail test as the program's host chain computes it on the grid [4, 4096] is the specification's bit. -/
theorem mask_grid (x1 : IVec S4 32)
    (hA : S1x4096.BroadcastsInDim S4x4096 (![0, 1] : Fin 2 → Fin S4x4096.rank))
    (hB : S4096.BroadcastsInDim S1x4096 (![1] : Fin 1 → Fin S1x4096.rank))
    (hC : S4x1.BroadcastsInDim S4x4096 (![0, 1] : Fin 2 → Fin S4x4096.rank))
    (hD : S4.BroadcastsInDim S4x1 (![0] : Fin 1 → Fin S4x1.rank))
    (hE : S_.BroadcastsInDim S4 (![] : Fin 0 → Fin S4.rank)) (b : Fin 4) (s : Fin 4096) :
    cmpi .sge (broadcastInDim S4x4096 ![0, 1] hA (broadcastInDim S1x4096 ![1] hB (iotaInDim S4096 32 0)))
        (broadcastInDim S4x4096 ![0, 1] hC (broadcastInDim S4x1 ![0] hD
          (subi (broadcastInDim S4 ![] hE (constantI S_ 32 4096#32))
            (minsi x1 (broadcastInDim S4 ![] hE (constantI S_ 32 4096#32)))))) (ix2 b s)
      = Cert.Spec.maskBit x1 b s := by
  show IntOp.cmpi .sge (broadcastInDim S4x4096 ![0, 1] hA (broadcastInDim S1x4096 ![1] hB (iotaInDim S4096 32 0)) (ix2 b s))
      (broadcastInDim S4x4096 ![0, 1] hC (broadcastInDim S4x1 ![0] hD
          (subi (broadcastInDim S4 ![] hE (constantI S_ 32 4096#32))
            (minsi x1 (broadcastInDim S4 ![] hE (constantI S_ 32 4096#32))))) (ix2 b s)) = _
  rw [broadcastInDim_apply _ hA _ (ix2 b s) (ix2 (0 : Fin 1) s) (fun a => match a with
        | ⟨0, _⟩ => by show 0 = if (1 : Nat) = 1 then 0 else b.val; rw [if_pos rfl]
        | ⟨1, _⟩ => by show s.val = if (4096 : Nat) = 1 then 0 else s.val; rw [if_neg (by decide)]),
    broadcastInDim_apply _ hB _ (ix2 (0 : Fin 1) s) (ix1 s) (fun a => match a with
        | ⟨0, _⟩ => by show s.val = if (4096 : Nat) = 1 then 0 else s.val; rw [if_neg (by decide)]),
    broadcastInDim_apply _ hC _ (ix2 b s) (ix2 b (0 : Fin 1)) (fun a => match a with
        | ⟨0, _⟩ => by show b.val = if (4 : Nat) = 1 then 0 else b.val; rw [if_neg (by decide)]
        | ⟨1, _⟩ => by show 0 = if (1 : Nat) = 1 then 0 else s.val; rw [if_pos rfl]),
    broadcastInDim_apply _ hD _ (ix2 b (0 : Fin 1)) (ix1 b) (fun a => match a with
        | ⟨0, _⟩ => by show b.val = if (4 : Nat) = 1 then 0 else b.val; rw [if_neg (by decide)])]
  show IntOp.cmpi .sge (BitVec.ofNat 32 s.val)
      (IntOp.subi (broadcastInDim S4 ![] hE (constantI S_ 32 4096#32) (ix1 b))
        (IntOp.minsi (x1 (ix1 b)) (broadcastInDim S4 ![] hE (constantI S_ 32 4096#32) (ix1 b)))) = _
  rw [broadcastInDim_apply _ hE _ (ix1 b) ix0 (fun a => a.elim0)]
  rfl

/-- The row scale on the grid: the select between the broadcast constants 2.0 and 0.0 is 2 where the bit is 1, else 0. -/
theorem scale_grid (M : IVec S4x4096 1) (hb : S_.BroadcastsInDim S4x4096 (![] : Fin 0 → Fin S4x4096.rank)) (b : Fin 4) (s : Fin 4096) :
    select M (broadcastInDim S4x4096 ![] hb (constant (F := Ideal) S_ .f32 0x40000000#32))
        (broadcastInDim S4x4096 ![] hb (constant (F := Ideal) S_ .f32 0x00000000#32)) (ix2 b s)
      = if M (ix2 b s) = 1#1 then (2 : EReal) else 0 := by
  show Scalar.select (M (ix2 b s))
      (broadcastInDim S4x4096 ![] hb (constant (F := Ideal) S_ .f32 0x40000000#32) (ix2 b s))
      (broadcastInDim S4x4096 ![] hb (constant (F := Ideal) S_ .f32 0x00000000#32) (ix2 b s)) = _
  rw [broadcastInDim_apply _ hb _ (ix2 b s) ix0 (fun a => a.elim0),
    broadcastInDim_apply _ hb _ (ix2 b s) ix0 (fun a => a.elim0)]
  show (if M (ix2 b s) = 1#1 then Ideal.ofBits .f32 0x40000000#32 else Ideal.ofBits .f32 0x00000000#32) = _
  rw [Ideal.ofBits_zero_f32, two_word]

/-- The row scale as a column [16384, 1]: the grid's select re-laid, 2 on the tail and 0 off it. -/
theorem scale_col (x1 : IVec S4 32)
    (hA : S1x4096.BroadcastsInDim S4x4096 (![0, 1] : Fin 2 → Fin S4x4096.rank))
    (hB : S4096.BroadcastsInDim S1x4096 (![1] : Fin 1 → Fin S1x4096.rank))
    (hC : S4x1.BroadcastsInDim S4x4096 (![0, 1] : Fin 2 → Fin S4x4096.rank))
    (hD : S4.BroadcastsInDim S4x1 (![0] : Fin 1 → Fin S4x1.rank))
    (hE : S_.BroadcastsInDim S4 (![] : Fin 0 → Fin S4.rank))
    (hb : S_.BroadcastsInDim S4x4096 (![] : Fin 0 → Fin S4x4096.rank))
    (h : S4x4096.ShapeCasts S16384x1) (p : Fin 16384) :
    shapeCast S16384x1
        (select
          (cmpi .sge (broadcastInDim S4x4096 ![0, 1] hA (broadcastInDim S1x4096 ![1] hB (iotaInDim S4096 32 0)))
            (broadcastInDim S4x4096 ![0, 1] hC (broadcastInDim S4x1 ![0] hD
              (subi (broadcastInDim S4 ![] hE (constantI S_ 32 4096#32))
                (minsi x1 (broadcastInDim S4 ![] hE (constantI S_ 32 4096#32)))))))
          (broadcastInDim S4x4096 ![] hb (constant (F := Ideal) S_ .f32 0x40000000#32))
          (broadcastInDim S4x4096 ![] hb (constant (F := Ideal) S_ .f32 0x00000000#32)))
        h (ix2 p (0 : Fin 1))
      = if Cert.Spec.maskBit x1 ⟨p.val / 4096, by omega⟩ ⟨p.val % 4096, Nat.mod_lt _ (by decide)⟩ = 1#1
          then (2 : EReal) else 0 := by
  rw [col_of_grid, scale_grid, mask_grid]

end PadsAndMask

variable (m : (ℓ : Loc nD τ sig) → Buf (Elt Ideal) ℓ) (c : Dev nD)

/-! ## The arrays handed to the regions -/

/-- x, as the regions read it: row `p` of [16384, 4096] is x at sample `p / 4096`, position `p % 4096`. -/
theorem v13_at (p : Fin 16384) (d : Fin 4096) :
    V7 m c main_v13 (ix2 p d)
      = m ((c : Thread nD τ).loc main_arg0) (ix3 ⟨p.val / 4096, by omega⟩ ⟨p.val % 4096, Nat.mod_lt _ (by decide)⟩ d) := by
  rw [V7_of m c main_v13 (by decide), V6_of m c main_v13 (by decide), V5_of m c main_v13 (by decide),
    V4_of m c main_v13 (by decide)]
  show StableHlo.after hostOps0_2 (V2 m c) (Proc.devRef .tc main_v13) (ix2 p d) = _
  after_results
  exact rows_of_cube _ _ p d

/-- W, as the regions read it, is W. -/
theorem v14_at (q d : Fin 4096) :
    V7 m c main_v14 (ix2 q d) = m ((c : Thread nD τ).loc main_arg2) (ix2 q d) := by
  rw [V7_of m c main_v14 (by decide), V6_of m c main_v14 (by decide), V5_of m c main_v14 (by decide),
    V4_of m c main_v14 (by decide)]
  show StableHlo.after hostOps0_2 (V2 m c) (Proc.devRef .tc main_v14) (ix2 q d) = _
  after_results
  rfl

/-- The bias, as one row. -/
theorem v19_at (q : Fin 4096) :
    V7 m c main_v19 (ix2 (0 : Fin 1) q) = m ((c : Thread nD τ).loc main_arg3) (ix1 q) := by
  show StableHlo.after hostOps0_6 (V6 m c) (Proc.devRef .tc main_v19) (ix2 (0 : Fin 1) q) = _
  after_results
  exact row_of_vec _ _ q

/-- The result array is the second region's output re-laid: entry `(b, s, o)` is its row `4096·b + s`, column `o`. -/
theorem v22_at (W : Valuation τ sig (Elt Ideal)) (b : Fin 4) (s o : Fin 4096) :
    StableHlo.after hostOps2 W (Proc.devRef .tc main_v22) (ix3 b s o)
      = W (Proc.devRef .tc main_v21) (ix2 ⟨4096 * b.val + s.val, by omega⟩ o) := by
  after_results
  exact cube_of_rows _ _ b s o

/-- A, padded with zero rows from rank 32 to 128. -/
theorem v16_at (r : Fin 128) (d : Fin 4096) :
    V7 m c main_v16 (ix2 r d)
      = (if h : r.val < 32 then m ((c : Thread nD τ).loc main_arg4) (ix2 ⟨r.val, h⟩ d) else 0 : EReal) := by
  rw [V7_of m c main_v16 (by decide), V6_of m c main_v16 (by decide)]
  show StableHlo.after hostOps0_4 (V4 m c) (Proc.devRef .tc main_v16) (ix2 r d) = _
  after_results
  refine (pad_rows _ _ pads_S32x4096_S128x4096_0960_000 h_S_ r d).trans ?_
  by_cases hr : r.val < 32
  · rw [dif_pos hr, dif_pos hr]; rfl
  · rw [dif_neg hr, dif_neg hr]; exact sitofp_zero_word

/-- B, padded with zero columns from rank 32 to 128. -/
theorem v18_at (q : Fin 4096) (r : Fin 128) :
    V7 m c main_v18 (ix2 q r)
      = (if h : r.val < 32 then m ((c : Thread nD τ).loc main_arg5) (ix2 q ⟨r.val, h⟩) else 0 : EReal) := by
  show StableHlo.after hostOps0_6 (V6 m c) (Proc.devRef .tc main_v18) (ix2 q r) = _
  after_results
  refine (pad_cols _ _ pads_S4096x32_S4096x128_000_0960 h_S_ q r).trans ?_
  by_cases hr : r.val < 32
  · rw [dif_pos hr, dif_pos hr]; rfl
  · rw [dif_neg hr, dif_neg hr]; exact sitofp_zero_word

/-- The row scale, as a column: 2 on the tail, 0 off it. -/
theorem v11_at (p : Fin 16384) :
    V7 m c main_v11 (ix2 p (0 : Fin 1))
      = if Cert.Spec.maskBit (m ((c : Thread nD τ).loc main_arg1)) ⟨p.val / 4096, by omega⟩
            ⟨p.val % 4096, Nat.mod_lt _ (by decide)⟩ = 1#1 then (2 : EReal) else 0 := by
  rw [V7_of m c main_v11 (by decide), V6_of m c main_v11 (by decide), V5_of m c main_v11 (by decide),
    V4_of m c main_v11 (by decide)]
  show StableHlo.after hostOps0_2 (V2 m c) (Proc.devRef .tc main_v11) (ix2 p (0 : Fin 1)) = _
  after_results
  exact scale_col (V0 m c (Proc.devRef .tc main_arg1)) bcast_S1x4096_S4x4096_0_1 bcast_S4096_S1x4096_1
    bcast_S4x1_S4x4096_0_1 bcast_S4_S4x1_0 bcast_S_S4 bcast_S_S4x4096 shapeCasts_S4x4096_S16384x1 p

/-! ## The same, at the row of sample `b`, position `s` -/

/-- Row `4096·b + s` splits back into the sample `b` and the position `s`. -/
theorem row_div (b : Fin 4) (s : Fin 4096) : (4096 * b.val + s.val) / 4096 = b.val := by omega
theorem row_mod (b : Fin 4) (s : Fin 4096) : (4096 * b.val + s.val) % 4096 = s.val := by omega

/-- x at row `4096·b + s` is x at sample `b`, position `s`. -/
theorem v13_bs (b : Fin 4) (s d : Fin 4096) :
    V7 m c main_v13 (ix2 (⟨4096 * b.val + s.val, by omega⟩ : Fin 16384) d)
      = m ((c : Thread nD τ).loc main_arg0) (ix3 b s d) := by
  rw [v13_at]
  congr 1
  funext a
  match a with
  | ⟨0, _⟩ => exact Fin.ext (row_div b s)
  | ⟨1, _⟩ => exact Fin.ext (row_mod b s)
  | ⟨2, _⟩ => rfl

/-- The row scale at row `4096·b + s` is 2 where position `s` is on the tail of sample `b`, else 0. -/
theorem v11_bs (b : Fin 4) (s : Fin 4096) :
    V7 m c main_v11 (ix2 (⟨4096 * b.val + s.val, by omega⟩ : Fin 16384) (0 : Fin 1))
      = if Cert.Spec.maskBit (m ((c : Thread nD τ).loc main_arg1)) b s = 1#1 then (2 : EReal) else 0 := by
  rw [v11_at]
  have hb : (⟨(4096 * b.val + s.val) / 4096, by omega⟩ : Fin 4) = b := Fin.ext (row_div b s)
  have hs : (⟨(4096 * b.val + s.val) % 4096, Nat.mod_lt _ (by decide)⟩ : Fin 4096) = s := Fin.ext (row_mod b s)
  rw [hb, hs]

end Cert.KernelIdeal.HostPre

end
-- ==== Proof.KAlg.lean ====
/- The kernel's arithmetic is the specification. The kernel takes each length-4096 contraction in four blocks of
   1024 terms added in order onto zero, pads the low-rank factors with zero rows / columns from rank 32 to 128,
   scales the pre-pass row by 2 or 0 BEFORE the second product, and adds (bias + update) onto the base sum.
   Addition in the extended reals is associative and commutative, so the four blocks are the whole sum; the padded
   terms are products with zero; and on coerced reals the remaining rearrangement is real algebra. -/
import proofs.«160741_j498216206382_2_alg».proof.Proof.Spec
import proofs.«160741_j498216206382_2_alg».proof.Proof.KSpec
import Mathlib.Algebra.BigOperators.Fin
import Mathlib.Data.EReal.Operations

noncomputable section

namespace Cert.KAlg

open Idealize.ShloMosaic Idealize.ShloMosaic.ValueIdx
open scoped BigOperators

/-- A finite sum of coerced reals is the coerced real sum. -/
theorem coe_sum {ι : Type} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- A sum over 4096 terms is the sum over four blocks of 1024 consecutive terms. -/
theorem sum_blocks {M : Type} [AddCommMonoid M] (F : Fin 4096 → M) :
    ∑ d : Fin 4096, F d = ∑ j : Fin 4, ∑ k : Fin 1024, F ⟨1024 * j.val + k.val, by omega⟩ := by
  rw [← Equiv.sum_comp (finProdFinEquiv (m := 4) (n := 1024) : Fin 4 × Fin 1024 ≃ Fin 4096) F, Fintype.sum_prod_type]
  refine Finset.sum_congr rfl fun j _ => Finset.sum_congr rfl fun k _ => congrArg F (Fin.ext ?_)
  show k.val + 1024 * j.val = 1024 * j.val + k.val
  omega

/-- The four block sums added in order onto zero are the whole product sum (no finiteness is needed:
    addition of extended reals is associative and commutative). -/
theorem acc4_eq_sum (f g : Fin 4096 → EReal) : Cert.KSpec.acc4 f g = ∑ d : Fin 4096, f d * g d := by
  rw [sum_blocks (fun d => f d * g d), Fin.sum_univ_four]
  unfold Cert.KSpec.acc4 Cert.KSpec.blockDot
  rw [zero_add]

/-- On coerced reals the accumulated product is the coerced real dot product. -/
theorem acc4_coe (f g : Fin 4096 → ℝ) :
    Cert.KSpec.acc4 (fun d => ((f d : ℝ) : EReal)) (fun d => ((g d : ℝ) : EReal)) = ((∑ d : Fin 4096, f d * g d : ℝ) : EReal) := by
  rw [acc4_eq_sum, coe_sum]
  simp only [EReal.coe_mul]

/-- An accumulated product against the zero row is zero. -/
theorem acc4_zero_right (f : Fin 4096 → EReal) : Cert.KSpec.acc4 f (fun _ => 0) = 0 := by
  rw [acc4_eq_sum]
  simp

/-- The padded 128-term product: the terms from 32 on are products with zero, the first 32 are the real ones. -/
theorem sum_pad (u v : Fin 128 → EReal) (hv : ∀ r : Fin 128, 32 ≤ r.val → v r = 0) :
    ∑ r : Fin 128, u r * v r = ∑ i : Fin 32, u (Fin.castAdd 96 i) * v (Fin.castAdd 96 i) := by
  rw [Fin.sum_univ_add (fun r : Fin (32 + 96) => u r * v r)]
  have htail : ∑ i : Fin 96, u (Fin.natAdd 32 i) * v (Fin.natAdd 32 i) = 0 :=
    Finset.sum_eq_zero fun i _ => by rw [hv (Fin.natAdd 32 i) (by simp [Fin.natAdd]), mul_zero]
  rw [htail, add_zero]

/-- THE KERNEL'S ARITHMETIC IS THE SPECIFICATION, at real arguments. -/
theorem kernel_alg (xr : Cert.Spec.SX.Idx → ℝ) (offs : Cert.Spec.SO.Idx → BitVec 32) (Wr : Cert.Spec.SW.Idx → ℝ)
    (br : Cert.Spec.SB.Idx → ℝ) (Ar : Cert.Spec.SA.Idx → ℝ) (Bwr : Cert.Spec.SBw.Idx → ℝ)
    (b : Fin 4) (s o : Fin 4096) :
    Cert.KSpec.acc4 (fun d => ((xr (ix3 b s d) : ℝ) : EReal)) (fun d => ((Wr (ix2 o d) : ℝ) : EReal))
      + (((br (ix1 o) : ℝ) : EReal)
        + ∑ r : Fin 128,
            (Cert.KSpec.acc4 (fun d => ((xr (ix3 b s d) : ℝ) : EReal))
                (fun d => if h : r.val < 32 then ((Ar (ix2 ⟨r.val, h⟩ d) : ℝ) : EReal) else 0)
              * (if Cert.Spec.maskBit offs b s = 1#1 then (2 : EReal) else 0))
            * (if h : r.val < 32 then ((Bwr (ix2 o ⟨r.val, h⟩) : ℝ) : EReal) else 0))
      = ((Cert.Spec.outAt xr offs Wr br Ar Bwr b s o : ℝ) : EReal) := by
  -- the padded sum keeps its first 32 terms, where both padded factors are the real ones
  rw [sum_pad _ (fun r => if h : r.val < 32 then ((Bwr (ix2 o ⟨r.val, h⟩) : ℝ) : EReal) else 0)
    (fun r hr => dif_neg (by omega))]
  have hlt : ∀ i : Fin 32, (Fin.castAdd 96 i).val < 32 := fun i => i.isLt
  simp only [dif_pos (hlt _)]
  have hidx : ∀ i : Fin 32, (⟨(Fin.castAdd 96 i).val, hlt i⟩ : Fin 32) = i := fun i => rfl
  simp only [hidx, acc4_coe]
  unfold Cert.Spec.outAt
  by_cases hm : Cert.Spec.maskBit offs b s = 1#1
  · simp only [if_pos hm]
    have h2 : (2 : EReal) = ((2 : ℝ) : EReal) := rfl
    simp only [h2, ← EReal.coe_mul, ← coe_sum, ← EReal.coe_add]
    congr 1
    rw [Finset.sum_mul, add_assoc]
    congr 2
    exact Finset.sum_congr rfl fun i _ => by ring
  · simp only [if_neg hm, mul_zero, zero_mul, Finset.sum_const_zero, add_zero]
    rw [← EReal.coe_add]

end Cert.KAlg

end
-- ==== Proof.Compose.lean ====
/-
  The kernel program's result, index by index, as a function of its arguments.  The final reshape reads row
  4096 b + s of what the main product left; that is the whole-array function G1 of the arrays the main product
  stages, of which the pre-pass output is G0 of the arrays the pre-pass stages, and every other one is a host
  operation's result on the arguments: x regrouped by rows, W as given, A and B_w padded with zeros from rank 32
  to 128, the bias as a row, and the mask column 2 on the tail positions and 0 elsewhere.  With real-valued
  arguments the algebra of the two specifications closes the comparison with the reference's formula.
-/
import proofs.«160741_j498216206382_2_alg».proof.Proof.Run
import proofs.«160741_j498216206382_2_alg».proof.Proof.R0Value
import proofs.«160741_j498216206382_2_alg».proof.Proof.R1
import proofs.«160741_j498216206382_2_alg».proof.Proof.R1Value
import proofs.«160741_j498216206382_2_alg».proof.Proof.HostPre
import proofs.«160741_j498216206382_2_alg».proof.Proof.KSpec
import proofs.«160741_j498216206382_2_alg».proof.Proof.Spec
import proofs.«160741_j498216206382_2_alg».proof.Proof.KAlg

set_option maxRecDepth 16384

noncomputable section

namespace Cert.KernelIdeal.Compose

open Cert.KernelIdeal Cert.KernelIdeal.Gen Cert.KernelIdeal.R0 Cert.KernelIdeal.Run
open Idealize.ShloMosaic Idealize.ShloMosaic.TcCoe Idealize.SL.Sem
open Idealize.ShloMosaic.Pipeline (Dat)
open Idealize.ShloMosaic.ValueIdx

/-- What the main product's body leaves in each staging buffer: the second region's proof data's, as the chain takes it. -/
abbrev aft1 : VT Ideal → (c : Dev nD) → (w : Fin cfg1.W) → Fin cfg1.N → (cfg1.win w).block.Idx → Elt Ideal (cfg1.win w).elt :=
  fun V c => (Cert.KernelIdeal.R1.dat1 V c).after

theorem hB1 : ∀ (V : VT Ideal) (c : Dev nD), Pipeline.BodyObligation (D1 aft1 V c) (defs₀ (F := Ideal)) Variants.none () Set.univ :=
  fun V c => Cert.KernelIdeal.R1.body_obligation1 V c

variable (m : (ℓ : Loc nD τ sig) → Buf (Elt Ideal) ℓ) (c : Dev nD)

/-! ## The arrays the main product stages, as the pre-pass leaves them -/

theorem E8_v13 : E8 m c main_v13 = V7 m c main_v13 :=
  (W8_arr m c 0).trans (((dat0 (E7 m) c).arrAt_in 0 rfl _).trans (A_eq0 (E7 m) c 0))
theorem E8_v14 : E8 m c main_v14 = V7 m c main_v14 := W8_of_ne m c main_v14 (by decide)
theorem E8_v18 : E8 m c main_v18 = V7 m c main_v18 := W8_of_ne m c main_v18 (by decide)
theorem E8_v19 : E8 m c main_v19 = V7 m c main_v19 := W8_of_ne m c main_v19 (by decide)
theorem E8_v20 : E8 m c main_v20 = Cert.KSpec.G0 (V7 m c main_v13) (V7 m c main_v16) (V7 m c main_v11) :=
  (W8_arr m c 3).trans (Cert.KernelIdeal.R0V.arrAt0_3 (E7 m) c)

/-- The result buffer at (b, s, o): the main product's whole-array function at row 4096 b + s, column o. -/
theorem result_at (b : Fin 4) (s o : Fin 4096) :
    W10 aft1 m c main_v22 (ix3 b s o)
      = Cert.KSpec.oAt (V7 m c main_v13) (V7 m c main_v14) (Cert.KSpec.G0 (V7 m c main_v13) (V7 m c main_v16) (V7 m c main_v11))
          (V7 m c main_v18) (V7 m c main_v19) ⟨4096 * b.val + s.val, by omega⟩ o := by
  refine (Cert.KernelIdeal.HostPre.v22_at (W9 aft1 m c) b s o).trans ?_
  rw [show W9 aft1 m c (Proc.devRef .tc main_v21) = (D1 aft1 (E8 m) c).arrAt 5 cfg1.N from W9_arr aft1 m c 5]
  rw [show D1 aft1 (E8 m) c = Cert.KernelIdeal.R1.dat1 (E8 m) c from rfl, Cert.KernelIdeal.R1V.arrAt1_5, E8_v13, E8_v14, E8_v18, E8_v19, E8_v20]
  rfl

/-- With real-valued arguments the result is the reference's formula, as a real number. -/
theorem kernel_is_spec (xr : Cert.Spec.SX.Idx → ℝ) (Wr : Cert.Spec.SW.Idx → ℝ) (br : Cert.Spec.SB.Idx → ℝ)
    (Ar : Cert.Spec.SA.Idx → ℝ) (Bwr : Cert.Spec.SBw.Idx → ℝ)
    (hx : m ((c : Thread nD τ).loc main_arg0) = (fun i => ((xr i : ℝ) : EReal)))
    (hW : m ((c : Thread nD τ).loc main_arg2) = (fun i => ((Wr i : ℝ) : EReal)))
    (hb : m ((c : Thread nD τ).loc main_arg3) = (fun i => ((br i : ℝ) : EReal)))
    (hA : m ((c : Thread nD τ).loc main_arg4) = (fun i => ((Ar i : ℝ) : EReal)))
    (hBw : m ((c : Thread nD τ).loc main_arg5) = (fun i => ((Bwr i : ℝ) : EReal))) :
    W10 aft1 m c main_v22
      = (fun i => ((Cert.Spec.outR xr (m ((c : Thread nD τ).loc main_arg1)) Wr br Ar Bwr i : ℝ) : EReal)) := by
  funext i
  obtain ⟨b, s, o, rfl⟩ : ∃ (b : Fin 4) (s o : Fin 4096), i = ix3 b s o := ⟨i 0, i 1, i 2, eq_ix3 i⟩
  rw [result_at m c b s o, Cert.Spec.outR_ix3, ← Cert.KAlg.kernel_alg]
  have hp : 4096 * b.val + s.val < 16384 := by omega
  have eb : (⟨(⟨4096 * b.val + s.val, hp⟩ : Fin 16384).val / 4096, by show (4096 * b.val + s.val) / 4096 < 4; omega⟩ : Fin 4) = b :=
    Fin.ext (by show (4096 * b.val + s.val) / 4096 = b.val; omega)
  have es : (⟨(⟨4096 * b.val + s.val, hp⟩ : Fin 16384).val % 4096, Nat.mod_lt _ (by decide)⟩ : Fin 4096) = s :=
    Fin.ext (by show (4096 * b.val + s.val) % 4096 = s.val; omega)
  have e13 : ∀ d : Fin 4096, V7 m c main_v13 (ix2 (⟨4096 * b.val + s.val, hp⟩ : Fin 16384) d) = ((xr (ix3 b s d) : ℝ) : EReal) := fun d =>
    (Cert.KernelIdeal.HostPre.v13_at m c ⟨4096 * b.val + s.val, hp⟩ d).trans (by
      rw [hx]
      exact congrArg (fun i => ((xr i : ℝ) : EReal)) (congrArg₂ (fun u v => ix3 u v d) eb es))
  have e14 : ∀ d : Fin 4096, V7 m c main_v14 (ix2 o d) = ((Wr (ix2 o d) : ℝ) : EReal) := fun d =>
    (Cert.KernelIdeal.HostPre.v14_at m c o d).trans (by rw [hW])
  have e19 : V7 m c main_v19 (ix2 (0 : Fin 1) o) = ((br (ix1 o) : ℝ) : EReal) :=
    (Cert.KernelIdeal.HostPre.v19_at m c o).trans (by rw [hb])
  have e16 : ∀ (r : Fin 128) (d : Fin 4096), V7 m c main_v16 (ix2 r d) = (if h : r.val < 32 then ((Ar (ix2 ⟨r.val, h⟩ d) : ℝ) : EReal) else 0) := fun r d =>
    (Cert.KernelIdeal.HostPre.v16_at m c r d).trans (by rw [hA])
  have e18 : ∀ (r : Fin 128), V7 m c main_v18 (ix2 o r) = (if h : r.val < 32 then ((Bwr (ix2 o ⟨r.val, h⟩) : ℝ) : EReal) else 0) := fun r =>
    (Cert.KernelIdeal.HostPre.v18_at m c o r).trans (by rw [hBw])
  have e11 : V7 m c main_v11 (ix2 (⟨4096 * b.val + s.val, hp⟩ : Fin 16384) (0 : Fin 1))
      = (if Cert.Spec.maskBit (m ((c : Thread nD τ).loc main_arg1)) b s = 1#1 then (2 : EReal) else 0) :=
    (Cert.KernelIdeal.HostPre.v11_at m c ⟨4096 * b.val + s.val, hp⟩).trans
      (congrArg₂ (fun u v => if Cert.Spec.maskBit (m ((c : Thread nD τ).loc main_arg1)) u v = 1#1 then (2 : EReal) else 0) eb es)
  unfold Cert.KSpec.oAt
  exact congrArg₂ (· + ·) (congrArg₂ Cert.KSpec.acc4 (funext e13) (funext e14))
    (congrArg₂ (· + ·) e19 (Finset.sum_congr rfl fun r _ =>
      congrArg₂ (· * ·) (congrArg₂ (· * ·) (congrArg₂ Cert.KSpec.acc4 (funext e13) (funext (e16 r))) e11) (e18 r)))

end Cert.KernelIdeal.Compose

end
-- ==== Proof.lean ====
/-
  A low-rank-adapted linear layer, y = x W^T + b plus, on the last min(offset, S) positions of each sequence,
  twice (x A^T) B_w^T, computed by two pallas_calls (the rank-padded pre-pass x A_pad^T scaled by the tail mask,
  then the K-blocked product x W^T with bias and the pre-pass times B_w_pad^T added at the last K step) against
  the einsum reference.  The three frames: the kernel program, at the word level and idealized, is run as a chain
  of host stretches and two pipeline regions whose bodies are run case by case; the reference is a straight line
  of host operations.  The idealization rewrote nothing.  Over the extended reals with finite inputs both
  programs compute the same real number at every index: the four K-block sums added in order are the whole
  contraction, the zero padding of the rank adds nothing, and scaling the pre-pass rows by 2 or 0 before the
  second product is scaling the product.
-/
import proofs.«160741_j498216206382_2_alg».proof.Defs
import proofs.«160741_j498216206382_2_alg».proof.Proof.Gen.Kernel
import proofs.«160741_j498216206382_2_alg».proof.Proof.Gen.KernelIdeal
import proofs.«160741_j498216206382_2_alg».proof.Proof.Gen.ReferenceIdeal
import proofs.«160741_j498216206382_2_alg».proof.Proof.Gen.Pre_finite_inputs
import proofs.«160741_j498216206382_2_alg».proof.Proof.Run
import proofs.«160741_j498216206382_2_alg».proof.Proof.RunW
import proofs.«160741_j498216206382_2_alg».proof.Proof.R1
import proofs.«160741_j498216206382_2_alg».proof.Proof.R1W
import proofs.«160741_j498216206382_2_alg».proof.Proof.RefSide
import proofs.«160741_j498216206382_2_alg».proof.Proof.Finite
import proofs.«160741_j498216206382_2_alg».proof.Proof.Compose
import Idealize.ShloMosaic.Adequacy
import Idealize.ShloMosaic.Init

noncomputable section

namespace Cert.Proof

open Idealize.ShloMosaic Idealize.SL.Sem

theorem frame_k [Cert.Kernel.Facts] [Cert.Pre_finite_inputs.Facts] : Cert.frame_Kernel := fun m ρ _ =>
  Cert.Kernel.Run.frame (fun V c => (Cert.Kernel.R1.dat1 V c).after) m (fun V c => Cert.Kernel.R1.body_obligation1 V c) ρ

theorem frame_ki [Cert.KernelIdeal.Facts] [Cert.Pre_finite_inputs.Facts] : Cert.frame_KernelIdeal := fun m ρ _ =>
  Cert.KernelIdeal.Run.frame (fun V c => (Cert.KernelIdeal.R1.dat1 V c).after) m (fun V c => Cert.KernelIdeal.R1.body_obligation1 V c) ρ

theorem frame_ri [Cert.ReferenceIdeal.Facts] [Cert.Pre_finite_inputs.Facts] : Cert.frame_ReferenceIdeal := fun m ρ _ =>
  Cert.RefSide.frame m ρ

/-- The idealization rewrote nothing. -/
theorem preserves : Cert.preserves_Kernel_KernelIdeal := trivial

/-- Finite inputs are real arrays; at real arrays both programs end at the same real-valued formula. -/
theorem algebraic [Cert.KernelIdeal.Facts] [Cert.ReferenceIdeal.Facts] [Cert.Pre_finite_inputs.Facts] :
    Cert.algebraic_KernelIdeal_ReferenceIdeal := by
  intro m ρ m' ρ' hpre hagree
  have hc : ∀ c : Dev Cert.KernelIdeal.nD, c = 0 := fun c => Subsingleton.elim c 0
  obtain ⟨xr, Wr, br, Ar, Bwr, hx, hW, hb, hA, hBw⟩ := Cert.Finite.reals_of_pre _ _ _ _ _ _ (hpre 0)
  refine ⟨fun _ => fun i => ((Cert.Spec.outR xr (m (((0 : Dev Cert.KernelIdeal.nD).tc : Thread Cert.KernelIdeal.nD Cert.KernelIdeal.τ).loc Cert.KernelIdeal.main_arg1)) Wr br Ar Bwr i : ℝ) : EReal), ?_, ?_⟩
  · refine (θ_run (Cert.KernelIdeal.defs (F := Ideal)) _ _).mono (fun _ h c => ?_)
      (Cert.KernelIdeal.Run.run_value Cert.KernelIdeal.Compose.aft1 m Cert.KernelIdeal.Compose.hB1 ρ)
    rw [hc c]
    exact ⟨(h 0).1.trans (Cert.KernelIdeal.Compose.kernel_is_spec m 0 xr Wr br Ar Bwr hx hW hb hA hBw), (h 0).2⟩
  · refine Cert.RefSide.run_spec m' ρ' xr _ Wr br Ar Bwr (fun c => ?_)
    rw [hc c]
    exact ⟨(hagree 0).1.trans hx, (hagree 0).2.1, (hagree 0).2.2.1.trans hW, (hagree 0).2.2.2.1.trans hb,
      (hagree 0).2.2.2.2.1.trans hA, (hagree 0).2.2.2.2.2.trans hBw⟩

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
